-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S40000x1 : Shape := ⟨2, ![40000, 1]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S40000x1 : S_.BroadcastsInDim S40000x1 (![] : Fin 0 → Fin S40000x1.rank)
  reducesTo_S40000x1_S_d0_1 : S40000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg8 : IVec S640000 32) (main_v33 : IVec S_ 1) : IVec S_ 1 :=
  let main_c_12 : IVec S_ 32 := constantI S_ 32 0#32
  let main_v34 : IVec S640000 32 := broadcastInDim S640000 ![] bcast_S_S640000 main_c_12
  let main_v35 : IVec S640000 1 := cmpi .sge main_arg8 main_v34
  let main_c_13 : IVec S_ 1 := constantI S_ 1 1#1
  let main_v36 : IVec S_ 1 := (fun x v => Host.reduce IntOp.andi x v reducesTo_S640000_S_d0 h_S_) main_v35 main_c_13
  let main_v37 : IVec S_ 1 := andi main_v33 main_v36
  main_v37

def fn_part1 {F : FTy → Type} [FloatOps F] (main_arg4 : FVec F S128 .f32) (main_arg5 : FVec F S128 .f32) (main_arg6 : FVec F S128 .f32) (main_arg8 : IVec S640000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S40000x128 .f32) (main_arg1 : FVec F S40000x1 .f32) (main_arg2 : FVec F S128x128 .f32) (main_arg3 : FVec F S128x128 .f32) (main_arg4 : FVec F S128 .f32) (main_arg5 : FVec F S128 .f32) (main_arg6 : FVec F S128 .f32) (main_arg7 : IVec S640000 32) (main_arg8 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x1 .f32 := Host.absf main_arg1
  let main_cst_0 : FVec F S_ .f32 := constant S_ .f32 0x7F800000#32
  let main_v5 : FVec F S40000x1 .f32 := broadcastInDim S40000x1 ![] bcast_S_S40000x1 main_cst_0
  let main_v6 : IVec S40000x1 1 := cmpf .olt main_v4 main_v5
  let main_c_1 : IVec S_ 1 := constantI S_ 1 1#1
  let main_v7 : IVec S_ 1 := (fun x v => Host.reduce IntOp.andi x v reducesTo_S40000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg8 main_v13 main_v16
-- ==== Kernel.lean ====
abbrev S40000x128 : Shape := ⟨2, ![40000, 128]⟩
abbrev S40000x1 : Shape := ⟨2, ![40000, 1]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x2 : Shape := ⟨2, ![40000, 2]⟩
abbrev S8x1x128 : Shape := ⟨3, ![8, 1, 128]⟩
abbrev S5000x128 : Shape := ⟨2, ![5000, 128]⟩
abbrev S5000x2 : Shape := ⟨2, ![5000, 2]⟩
abbrev S1x1x128 : Shape := ⟨3, ![1, 1, 128]⟩
abbrev S5000x1 : Shape := ⟨2, ![5000, 1]⟩
abbrev S1x128 : Shape := ⟨2, ![1, 128]⟩

abbrev nBuf : Space → Nat
  | .hbm => 81
  | .vmem => 23
  | .smem => 0
  | _ => 0

abbrev bufTy : (tb : Table) → Fin (tcTables nBuf tb) → BufTy
  | .hbm, ⟨0, _⟩ => ⟨S40000x128, .f32⟩
  | .hbm, ⟨1, _⟩ => ⟨S40000x1, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S640000, .i32⟩
  | .hbm, ⟨8, _⟩ => ⟨S640000, .i32⟩
  | .hbm, ⟨9, _⟩ => ⟨S_, .f32⟩
  | .hbm, ⟨10, _⟩ => ⟨S40000x128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S40000x128, .f32⟩
  | .hbm, ⟨29, _⟩ => ⟨S_, .f32⟩
  | .hbm, ⟨30, _⟩ => ⟨S40000, .f32⟩
  | .hbm, ⟨31, _⟩ => ⟨S_, .f32⟩
  | .hbm, ⟨32, _⟩ => ⟨S640000, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S40000, .f32⟩
  | .hbm, ⟨42, _⟩ => ⟨S_, .f32⟩
  | .hbm, ⟨43, _⟩ => ⟨S40000, .f32⟩
  | .hbm, ⟨44, _⟩ => ⟨S40000, .f32⟩
  | .hbm, ⟨45, _⟩ => ⟨S_, .f32⟩
  | .hbm, ⟨46, _⟩ => ⟨S40000, .f32⟩
  | .hbm, ⟨47, _⟩ => ⟨S40000, .f32⟩
  | .hbm, ⟨48, _⟩ => ⟨S40000x1, .f32⟩
  | .hbm, ⟨49, _⟩ => ⟨S40000x2, .f32⟩
  | .hbm, ⟨50, _⟩ => ⟨S40000x128, .f32⟩
  | .hbm, ⟨51, _⟩ => ⟨S8x1x128, .f32⟩
  | .hbm, ⟨52, _⟩ => ⟨S8x1x128, .f32⟩
  | .hbm, ⟨53, _⟩ => ⟨S_, .f32⟩
  | .hbm, ⟨54, _⟩ => ⟨S1x128, .f32⟩
  | .hbm, ⟨55, _⟩ => ⟨S128, .f32⟩
  | .hbm, ⟨56, _⟩ => ⟨S_, .f32⟩
  | .hbm, ⟨57, _⟩ => ⟨S1x128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x2, .f32⟩
  | .local _ .vmem, ⟨5, _⟩ => ⟨S5000x2, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S40000x128 : S_.BroadcastsInDim S40000x128 (![] : Fin 0 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000 : S_.BroadcastsInDim S40000 (![] : Fin 0 → Fin S40000.rank)
  bcast_S40000_S40000x1_0 : S40000.BroadcastsInDim S40000x1 (![0] : Fin 1 → Fin S40000x1.rank)
  concatenates_S40000x1_S40000x1_S40000x2_d1 : Shape.Concatenates [S40000x1, S40000x1] S40000x2 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S8x1x128_S1x128_d0 : S8x1x128.ReducesTo [0] S1x128
  h_S_ : 0 < S_.numel
  shapeCasts_S1x128_S128 : S1x128.ShapeCasts S128
  bcast_S_S128 : S_.BroadcastsInDim S128 (![] : Fin 0 → Fin S128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S40000x2.size a
  hwx0_2 : ∀ i : grid0.Coords, EltTy.bits .f32 = 32 ∨ (Rect.block (s := S40000x2) S5000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S8x1x128.size a
  hwx0_7 : ∀ i : grid0.Coords, EltTy.bits .f32 = 32 ∨ (Rect.block (s := S8x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S8x1x128.size a
  hwx0_8 : ∀ i : grid0.Coords, EltTy.bits .f32 = 32 ∨ (Rect.block (s := S8x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S40000x128.size a
  hwx1_4 : ∀ i : grid1.Coords, EltTy.bits .f32 = 32 ∨ (Rect.block (s := S40000x128) S5000x128.size (cc1_transform_4 i) (hinb1_4 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v30_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v30_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S40000x128 : Shape := ⟨2, ![40000, 128]⟩
abbrev S40000x1 : Shape := ⟨2, ![40000, 1]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x1, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S40000, .f32⟩
  | .hbm, ⟨30, _⟩ => ⟨S40000, .f32⟩
  | .hbm, ⟨31, _⟩ => ⟨S40000x1, .f32⟩
  | .hbm, ⟨32, _⟩ => ⟨S40000x128, .f32⟩
  | .hbm, ⟨33, _⟩ => ⟨S40000x128, .f32⟩
  | .hbm, ⟨34, _⟩ => ⟨S40000x128, .f32⟩
  | .hbm, ⟨35, _⟩ => ⟨S40000x128, .f32⟩
  | .hbm, ⟨36, _⟩ => ⟨S40000x128, .f32⟩
  | .hbm, ⟨37, _⟩ => ⟨S1x128, .f32⟩
  | .hbm, ⟨38, _⟩ => ⟨S40000x128, .f32⟩
  | .hbm, ⟨39, _⟩ => ⟨S40000x128, .f32⟩
  | .hbm, ⟨40, _⟩ => ⟨S_, .f32⟩
  | .hbm, ⟨41, _⟩ => ⟨S40000x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S40000x128, .f32⟩
  | .hbm, ⟨58, _⟩ => ⟨S40000x128, .f32⟩
  | .hbm, ⟨59, _⟩ => ⟨S40000x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S40000x128, .f32⟩
  | .hbm, ⟨75, _⟩ => ⟨S40000x128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S40000x128, .f32⟩
  | .hbm, ⟨82, _⟩ => ⟨S40000x128, .f32⟩
  | .hbm, ⟨83, _⟩ => ⟨S1x128, .f32⟩
  | .hbm, ⟨84, _⟩ => ⟨S40000x128, .f32⟩
  | .hbm, ⟨85, _⟩ => ⟨S40000x128, .f32⟩
  | .hbm, ⟨86, _⟩ => ⟨S1x128, .f32⟩
  | .hbm, ⟨87, _⟩ => ⟨S40000x128, .f32⟩
  | .hbm, ⟨88, _⟩ => ⟨S40000x128, .f32⟩
  | .hbm, ⟨89, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_7 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reducesTo_S40000x128_S128_d0 : S40000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KernelRun.lean ====
/-
  The kernel program's run with its result named.

  The program is four segments: host operations, the first grid of eight blocks, host operations, the second grid of
  eight blocks. From any memory with zero counters every weakly fair execution terminates without fault, and in every
  final state each buffer the host can name holds the contents the last segment boundary gives it. Reading that
  boundary at the result buffer names the result; reading it at the nine argument buffers gives them back as launched.
-/
import proofs.«110230_j58609123721516_2_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    there, and the nine argument arrays end as launched. -/
theorem run : θ_run defs (onTc (τ := τ) (main (F := F))) ⟨m, fun _ => 0, ρ⟩ (fun r => ∀ c : Dev nD,
      r.2.mem ((c.tc : Thread nD τ).loc main_v52) = W4 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v52 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.HandRun

end
-- ==== Proof.RefTerm.lean ====
/-
  The reference program's result as one pure term of its nine argument arrays.

  The operations are those the printed program lists, in its order, each applied to the values the program applies
  it to, with the two outlined functions substituted at their call sites: the rectifier (maximum with a broadcast
  zero) and the variance (column sums, mean, squared deviations, their column sums, the divisor 40000 − sitofp 0,
  the quotient, guarded by a select on the divisor being positive). The stages are named so that each can be read at
  an index on its own: the wrapped source column, the aggregate, the degree, the neighbour mean, the activation, the
  column mean, the column variance, and the normalised output with the residual added.
-/
import proofs.«110230_j58609123721516_2_alg».proof.ReferenceIdeal
import proofs.«110230_j58609123721516_2_alg».proof.Proof.Gen.ReferenceIdeal

noncomputable section

namespace Cert.ReferenceIdeal.RefTerm

open Idealize.ShloMosaic Idealize.SL.Sem
open Cert.ReferenceIdeal Cert.ReferenceIdeal.Gen

variable {F : FTy → Type} [FloatOps F]

/-- %0–%5: the source list with negative positions wrapped by 40000, as a column of start indices. -/
def srcCol (a7 : IVec S640000 32) : IVec S640000x1 32 :=
  let c : IVec S_ 32 := constantI S_ 32 0#32
  let v0 : IVec S640000 32 := broadcastInDim S640000 ![] bcast_S_S640000 c
  let v1 : IVec S640000 1 := cmpi .slt a7 v0
  let c_0 : IVec S_ 32 := constantI S_ 32 40000#32
  let v2 : IVec S640000 32 := broadcastInDim S640000 ![] bcast_S_S640000 c_0
  let v3 : IVec S640000 32 := addi a7 v2
  let v4 : IVec S640000 32 := select v1 v3 a7
  broadcastInDim S640000x1 ![0] bcast_S640000_S640000x1_0 v4

/-- %6–%9: the rows of the table gathered at the source column, scatter-added into zeros at the target column. -/
def aggT (a0 : FVec F S40000x128 .f32) (a7 a8 : IVec S640000 32) : FVec F S40000x128 .f32 :=
  let v6 : FVec F S640000x128 .f32 := Host.gather gather_S40000x128_S640000x1_S640000x128_1_0_n_n_0_1_1128 a0 (srcCol a7)
  let cst : FVec F S_ .f32 := constant S_ .f32 0x00000000#32
  let v7 : FVec F S40000x128 .f32 := broadcastInDim S40000x128 ![] bcast_S_S40000x128 cst
  let v8 : IVec S640000x1 32 := broadcastInDim S640000x1 ![0] bcast_S640000_S640000x1_0 a8
  Host.scatterAdd scatter_S40000x128_S640000x1_S640000x128_1_0_0_1 v7 v8 v6

/-- %10–%13: ones scatter-added into a zero vector at the target column. -/
def degT (a8 : IVec S640000 32) : FVec F S40000 .f32 :=
  let cst_1 : FVec F S_ .f32 := constant S_ .f32 0x3F800000#32
  let v10 : FVec F S640000 .f32 := broadcastInDim S640000 ![] bcast_S_S640000 cst_1
  let cst_2 : FVec F S_ .f32 := constant S_ .f32 0x00000000#32
  let v11 : FVec F S40000 .f32 := broadcastInDim S40000 ![] bcast_S_S40000 cst_2
  let v12 : IVec S640000x1 32 := broadcastInDim S640000x1 ![0] bcast_S640000_S640000x1_0 a8
  Host.scatterAdd scatter_S40000_S640000x1_S640000_n_0_0_1 v11 v12 v10

/-- %14–%18: the aggregate divided by the degree clamped below at one. -/
def hnT (agg : FVec F S40000x128 .f32) (deg : FVec F S40000 .f32) : FVec F S40000x128 .f32 :=
  let cst_3 : FVec F S_ .f32 := constant S_ .f32 0x3F800000#32
  let v14 : FVec F S40000 .f32 := broadcastInDim S40000 ![] bcast_S_S40000 cst_3
  let v15 : FVec F S40000 .f32 := maximumf deg v14
  let v16 : FVec F S40000x1 .f32 := broadcastInDim S40000x1 ![0] bcast_S40000_S40000x1_0 v15
  let v17 : FVec F S40000x128 .f32 := broadcastInDim S40000x128 ![0, 1] bcast_S40000x1_S40000x128_0_1 v16
  Host.divf agg v17

/-- %19–%27: both matrix products, the bias, the rectifier (the outlined maximum with a broadcast zero), the
    per-node factor. -/
def actT (a0 : FVec F S40000x128 .f32) (a1 : FVec F S40000x1 .f32) (a2 a3 : FVec F S128x128 .f32)
    (a4 : FVec F S128 .f32) (hn : FVec F S40000x128 .f32) : FVec F S40000x128 .f32 :=
  let v19 : FVec F S40000x128 .f32 := Host.dotGeneral dot_S40000x128_S128x128_S40000x128_1_0_0_1_n_n none a0 a2
  let v20 : FVec F S40000x128 .f32 := Host.dotGeneral dot_S40000x128_S128x128_S40000x128_1_0_0_1_n_n none hn a3
  let v21 : FVec F S40000x128 .f32 := addf v19 v20
  let v22 : FVec F S1x128 .f32 := broadcastInDim S1x128 ![1] bcast_S128_S1x128_1 a4
  let v23 : FVec F S40000x128 .f32 := broadcastInDim S40000x128 ![0, 1] bcast_S1x128_S40000x128_0_1 v22
  let v24 : FVec F S40000x128 .f32 := addf v21 v23
  let r_cst : FVec F S_ .f32 := constant S_ .f32 0x00000000#32
  let r_v0 : FVec F S40000x128 .f32 := broadcastInDim S40000x128 ![] bcast_S_S40000x128 r_cst
  let v25 : FVec F S40000x128 .f32 := maximumf v24 r_v0
  let v26 : FVec F S40000x128 .f32 := broadcastInDim S40000x128 ![0, 1] bcast_S40000x1_S40000x128_0_1 a1
  mulf v25 v26

/-- %cst_4–%30: the column sums over all rows from zero, divided by the row count. -/
def meanT (u : FVec F S40000x128 .f32) : FVec F S128 .f32 :=
  let cst_4 : FVec F S_ .f32 := constant S_ .f32 0x00000000#32
  let v28 : FVec F S128 .f32 := Host.reduceAdd u cst_4 reducesTo_S40000x128_S128_d0 h_S_
  let cst_5 : FVec F S_ .f32 := constant S_ .f32 0x471C4000#32
  let v29 : FVec F S128 .f32 := broadcastInDim S128 ![] bcast_S_S128 cst_5
  Host.divf v28 v29

/-- %31: the outlined variance at the correction word 0 — its own column mean, the squared deviations, their column
    sums, the divisor (row count minus the converted correction), the quotient, and the select that returns the
    quotient where the divisor is positive and the broadcast not-a-number word elsewhere. -/
def varT (u : FVec F S40000x128 .f32) : FVec F S128 .f32 :=
  let c_6 : IVec S_ 32 := constantI S_ 32 0#32
  let cst : FVec F S_ .f32 := constant S_ .f32 0x00000000#32
  let v0 : FVec F S128 .f32 := Host.reduceAdd u cst reducesTo_S40000x128_S128_d0 h_S_
  let v1 : FVec F S1x128 .f32 := broadcastInDim S1x128 ![1] bcast_S128_S1x128_1 v0
  let cst_0 : FVec F S_ .f32 := constant S_ .f32 0x471C4000#32
  let v2 : FVec F S1x128 .f32 := broadcastInDim S1x128 ![] bcast_S_S1x128 cst_0
  let v3 : FVec F S1x128 .f32 := Host.divf v1 v2
  let v4 : FVec F S40000x128 .f32 := broadcastInDim S40000x128 ![0, 1] bcast_S1x128_S40000x128_0_1 v3
  let v5 : FVec F S40000x128 .f32 := subf u v4
  let v6 : FVec F S40000x128 .f32 := mulf v5 v5
  let v7 : FVec F S_ .f32 := sitofp .f32 c_6
  let cst_1 : FVec F S_ .f32 := constant S_ .f32 0x471C4000#32
  let v8 : FVec F S_ .f32 := subf cst_1 v7
  let cst_2 : FVec F S_ .f32 := constant S_ .f32 0x00000000#32
  let v9 : FVec F S128 .f32 := Host.reduceAdd v6 cst_2 reducesTo_S40000x128_S128_d0 h_S_
  let v10 : FVec F S128 .f32 := broadcastInDim S128 ![] bcast_S_S128 v8
  let v11 : FVec F S128 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let w_v0 : FVec F S_ .f32 := id cst_4
  let w_v1 : FVec F S128 .f32 := broadcastInDim S128 ![] bcast_S_S128 w_v0
  select (broadcastInDim S128 ![] bcast_S_S128 v12) v11 w_v1

/-- %32–%47: centre by the mean, scale by the reciprocal root of variance plus ε, by the scale vector, add the shift
    vector, add the residual. -/
def outT (a0 : FVec F S40000x128 .f32) (a5 a6 : FVec F S128 .f32) (u : FVec F S40000x128 .f32)
    (mean var : FVec F S128 .f32) : FVec F S40000x128 .f32 :=
  let v32 : FVec F S1x128 .f32 := broadcastInDim S1x128 ![1] bcast_S128_S1x128_1 mean
  let v33 : FVec F S40000x128 .f32 := broadcastInDim S40000x128 ![0, 1] bcast_S1x128_S40000x128_0_1 v32
  let v34 : FVec F S40000x128 .f32 := subf u v33
  let cst_7 : FVec F S_ .f32 := constant S_ .f32 0x3727C5AC#32
  let v35 : FVec F S128 .f32 := broadcastInDim S128 ![] bcast_S_S128 cst_7
  let v36 : FVec F S128 .f32 := addf var v35
  let v37 : FVec F S128 .f32 := Host.rsqrt v36
  let v38 : FVec F S1x128 .f32 := broadcastInDim S1x128 ![1] bcast_S128_S1x128_1 v37
  let v39 : FVec F S40000x128 .f32 := broadcastInDim S40000x128 ![0, 1] bcast_S1x128_S40000x128_0_1 v38
  let v40 : FVec F S40000x128 .f32 := mulf v34 v39
  let v41 : FVec F S1x128 .f32 := broadcastInDim S1x128 ![1] bcast_S128_S1x128_1 a5
  let v42 : FVec F S40000x128 .f32 := broadcastInDim S40000x128 ![0, 1] bcast_S1x128_S40000x128_0_1 v41
  let v43 : FVec F S40000x128 .f32 := mulf v40 v42
  let v44 : FVec F S1x128 .f32 := broadcastInDim S1x128 ![1] bcast_S128_S1x128_1 a6
  let v45 : FVec F S40000x128 .f32 := broadcastInDim S40000x128 ![0, 1] bcast_S1x128_S40000x128_0_1 v44
  let v46 : FVec F S40000x128 .f32 := addf v43 v45
  addf a0 v46

/-- The activation %27 of the argument arrays. -/
def uT (a0 : FVec F S40000x128 .f32) (a1 : FVec F S40000x1 .f32) (a2 a3 : FVec F S128x128 .f32)
    (a4 : FVec F S128 .f32) (a7 a8 : IVec S640000 32) : FVec F S40000x128 .f32 :=
  actT a0 a1 a2 a3 a4 (hnT (aggT a0 a7 a8) (degT a8))

/-- The program's result %47 of its nine argument arrays. -/
def refOut (a0 : FVec F S40000x128 .f32) (a1 : FVec F S40000x1 .f32) (a2 a3 : FVec F S128x128 .f32)
    (a4 a5 a6 : FVec F S128 .f32) (a7 a8 : IVec S640000 32) : FVec F S40000x128 .f32 :=
  outT a0 a5 a6 (uT a0 a1 a2 a3 a4 a7 a8) (meanT (uT a0 a1 a2 a3 a4 a7 a8)) (varT (uT a0 a1 a2 a3 a4 a7 a8))

end Cert.ReferenceIdeal.RefTerm

end
-- ==== Proof.RefRun.lean ====
/-
  The reference program's run, written out. The reference is a host program of tensor operations only: its @main is a
  straight line of such operations once the three outlined functions (the rectifier, the variance and the selection
  the variance ends with) are substituted at their call sites, each over the buffers its call names. Every weakly fair
  execution of that line terminates, and each buffer then holds the fold of the operations' results over the launch
  contents: the nine argument buffers what they held, and the result buffer the composed term of the arguments.
-/
import proofs.«110230_j58609123721516_2_alg».proof.ReferenceIdeal
import proofs.«110230_j58609123721516_2_alg».proof.Proof.Gen.ReferenceIdeal
import Idealize.ShloMosaic.Lib.StableHlo.Run
import Idealize.ShloMosaic.Lib.StableHlo
import Idealize.ShloMosaic.PureOps.Ideal
import proofs.«110230_j58609123721516_2_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls substituted: the edge gather and the two scatter-adds with the index
    arithmetic before them, the neighbour mean, the two matrix products, the bias; the rectifier's three operations
    (the zero, its broadcast, the maximum); the per-node factor, the column mean; the variance's nineteen (the mean
    again, the squared deviations, their sum, the divisor 40000 − 0 and the test that it is positive) and the
    selection's three; then the normalisation, scale, shift and the residual sum. -/
abbrev ops : List (HloOp τ sig (Elt F)) :=
  [ StableHlo.nullary main_c (constantI S_ 32 0#32),
    StableHlo.unary main_c main_v0 (broadcastInDim S640000 ![] bcast_S_S640000 : (⟨S_, .i32⟩ : BufTy).Contents (Elt F) → (⟨S640000, .i32⟩ : BufTy).Contents (Elt F)),
    StableHlo.binary main_arg7 main_v0 main_v1 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 40000#32),
    StableHlo.unary main_c_0 main_v2 (broadcastInDim S640000 ![] bcast_S_S640000 : (⟨S_, .i32⟩ : BufTy).Contents (Elt F) → (⟨S640000, .i32⟩ : BufTy).Contents (Elt F)),
    StableHlo.binary main_arg7 main_v2 main_v3 (addi : (⟨S640000, .i32⟩ : BufTy).Contents (Elt F) → (⟨S640000, .i32⟩ : BufTy).Contents (Elt F) → (⟨S640000, .i32⟩ : BufTy).Contents (Elt F)),
    StableHlo.ternary main_v1 main_v3 main_arg7 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v4 main_v5 (broadcastInDim S640000x1 ![0] bcast_S640000_S640000x1_0 : (⟨S640000, .i32⟩ : BufTy).Contents (Elt F) → (⟨S640000x1, .i32⟩ : BufTy).Contents (Elt F)),
    StableHlo.binary main_arg0 main_v5 main_v6 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.nullary main_cst (constant S_ .f32 0x00000000#32),
    StableHlo.unary main_cst main_v7 (broadcastInDim S40000x128 ![] bcast_S_S40000x128 : (⟨S_, .f32⟩ : BufTy).Contents (Elt F) → (⟨S40000x128, .f32⟩ : BufTy).Contents (Elt F)),
    StableHlo.unary main_arg8 main_v8 (broadcastInDim S640000x1 ![0] bcast_S640000_S640000x1_0 : (⟨S640000, .i32⟩ : BufTy).Contents (Elt F) → (⟨S640000x1, .i32⟩ : BufTy).Contents (Elt F)),
    StableHlo.ternary main_v7 main_v8 main_v6 main_v9 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.nullary main_cst_1 (constant S_ .f32 0x3F800000#32),
    StableHlo.unary main_cst_1 main_v10 (broadcastInDim S640000 ![] bcast_S_S640000 : (⟨S_, .f32⟩ : BufTy).Contents (Elt F) → (⟨S640000, .f32⟩ : BufTy).Contents (Elt F)),
    StableHlo.nullary main_cst_2 (constant S_ .f32 0x00000000#32),
    StableHlo.unary main_cst_2 main_v11 (broadcastInDim S40000 ![] bcast_S_S40000 : (⟨S_, .f32⟩ : BufTy).Contents (Elt F) → (⟨S40000, .f32⟩ : BufTy).Contents (Elt F)),
    StableHlo.unary main_arg8 main_v12 (broadcastInDim S640000x1 ![0] bcast_S640000_S640000x1_0 : (⟨S640000, .i32⟩ : BufTy).Contents (Elt F) → (⟨S640000x1, .i32⟩ : BufTy).Contents (Elt F)),
    StableHlo.ternary main_v11 main_v12 main_v10 main_v13 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_3 (constant S_ .f32 0x3F800000#32),
    StableHlo.unary main_cst_3 main_v14 (broadcastInDim S40000 ![] bcast_S_S40000 : (⟨S_, .f32⟩ : BufTy).Contents (Elt F) → (⟨S40000, .f32⟩ : BufTy).Contents (Elt F)),
    StableHlo.binary main_v13 main_v14 main_v15 (maximumf : (⟨S40000, .f32⟩ : BufTy).Contents (Elt F) → (⟨S40000, .f32⟩ : BufTy).Contents (Elt F) → (⟨S40000, .f32⟩ : BufTy).Contents (Elt F)),
    StableHlo.unary main_v15 main_v16 (broadcastInDim S40000x1 ![0] bcast_S40000_S40000x1_0 : (⟨S40000, .f32⟩ : BufTy).Contents (Elt F) → (⟨S40000x1, .f32⟩ : BufTy).Contents (Elt F)),
    StableHlo.unary main_v16 main_v17 (broadcastInDim S40000x128 ![0, 1] bcast_S40000x1_S40000x128_0_1 : (⟨S40000x1, .f32⟩ : BufTy).Contents (Elt F) → (⟨S40000x128, .f32⟩ : BufTy).Contents (Elt F)),
    StableHlo.binary main_v9 main_v17 main_v18 (Host.divf : (⟨S40000x128, .f32⟩ : BufTy).Contents (Elt F) → (⟨S40000x128, .f32⟩ : BufTy).Contents (Elt F) → (⟨S40000x128, .f32⟩ : BufTy).Contents (Elt F)),
    StableHlo.binary main_arg0 main_arg2 main_v19 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v18 main_arg3 main_v20 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.binary main_v19 main_v20 main_v21 (addf : (⟨S40000x128, .f32⟩ : BufTy).Contents (Elt F) → (⟨S40000x128, .f32⟩ : BufTy).Contents (Elt F) → (⟨S40000x128, .f32⟩ : BufTy).Contents (Elt F)),
    StableHlo.unary main_arg4 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S40000x128 ![0, 1] bcast_S1x128_S40000x128_0_1 : (⟨S1x128, .f32⟩ : BufTy).Contents (Elt F) → (⟨S40000x128, .f32⟩ : BufTy).Contents (Elt F)),
    StableHlo.binary main_v21 main_v23 main_v24 (addf : (⟨S40000x128, .f32⟩ : BufTy).Contents (Elt F) → (⟨S40000x128, .f32⟩ : BufTy).Contents (Elt F) → (⟨S40000x128, .f32⟩ : BufTy).Contents (Elt F)),
    StableHlo.TRef.nullary main_call0.cst (constant S_ .f32 0x00000000#32),
    StableHlo.TRef.unary main_call0.cst main_call0.v0 (broadcastInDim S40000x128 ![] bcast_S_S40000x128),
    StableHlo.TRef.binary (StableHlo.TRef.of main_v24 : StableHlo.TRef sig ⟨S40000x128, .f32⟩) main_call0.v0 main_call0.v1 maximumf,
    StableHlo.unary main_arg1 main_v26 (broadcastInDim S40000x128 ![0, 1] bcast_S40000x1_S40000x128_0_1 : (⟨S40000x1, .f32⟩ : BufTy).Contents (Elt F) → (⟨S40000x128, .f32⟩ : BufTy).Contents (Elt F)),
    StableHlo.binary main_v25 main_v26 main_v27 (mulf : (⟨S40000x128, .f32⟩ : BufTy).Contents (Elt F) → (⟨S40000x128, .f32⟩ : BufTy).Contents (Elt F) → (⟨S40000x128, .f32⟩ : BufTy).Contents (Elt F)),
    StableHlo.nullary main_cst_4 (constant S_ .f32 0x00000000#32),
    StableHlo.binary main_v27 main_cst_4 main_v28 ((fun x v => Host.reduceAdd x v reducesTo_S40000x128_S128_d0 h_S_) : (⟨S40000x128, .f32⟩ : BufTy).Contents (Elt F) → (⟨S_, .f32⟩ : BufTy).Contents (Elt F) → (⟨S128, .f32⟩ : BufTy).Contents (Elt F)),
    StableHlo.nullary main_cst_5 (constant S_ .f32 0x471C4000#32),
    StableHlo.unary main_cst_5 main_v29 (broadcastInDim S128 ![] bcast_S_S128 : (⟨S_, .f32⟩ : BufTy).Contents (Elt F) → (⟨S128, .f32⟩ : BufTy).Contents (Elt F)),
    StableHlo.binary main_v28 main_v29 main_v30 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call1.cst (constant S_ .f32 0x00000000#32),
    StableHlo.TRef.binary (StableHlo.TRef.of main_v27 : StableHlo.TRef sig ⟨S40000x128, .f32⟩) main_call1.cst main_call1.v0 (fun x v => Host.reduceAdd x v reducesTo_S40000x128_S128_d0 h_S_),
    StableHlo.TRef.unary main_call1.v0 main_call1.v1 (broadcastInDim S1x128 ![1] bcast_S128_S1x128_1),
    StableHlo.TRef.nullary main_call1.cst_0 (constant S_ .f32 0x471C4000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S40000x128 ![0, 1] bcast_S1x128_S40000x128_0_1),
    StableHlo.TRef.binary (StableHlo.TRef.of main_v27 : StableHlo.TRef sig ⟨S40000x128, .f32⟩) main_call1.v4 main_call1.v5 subf,
    StableHlo.TRef.binary main_call1.v5 main_call1.v5 main_call1.v6 mulf,
    StableHlo.TRef.unary (StableHlo.TRef.of main_c_6 : StableHlo.TRef sig ⟨S_, .i32⟩) main_call1.v7 (sitofp .f32),
    StableHlo.TRef.nullary main_call1.cst_1 (constant S_ .f32 0x471C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S40000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v30 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S40000x128 ![0, 1] bcast_S1x128_S40000x128_0_1 : (⟨S1x128, .f32⟩ : BufTy).Contents (Elt F) → (⟨S40000x128, .f32⟩ : BufTy).Contents (Elt F)),
    StableHlo.binary main_v27 main_v33 main_v34 (subf : (⟨S40000x128, .f32⟩ : BufTy).Contents (Elt F) → (⟨S40000x128, .f32⟩ : BufTy).Contents (Elt F) → (⟨S40000x128, .f32⟩ : BufTy).Contents (Elt F)),
    StableHlo.nullary main_cst_7 (constant S_ .f32 0x3727C5AC#32),
    StableHlo.unary main_cst_7 main_v35 (broadcastInDim S128 ![] bcast_S_S128 : (⟨S_, .f32⟩ : BufTy).Contents (Elt F) → (⟨S128, .f32⟩ : BufTy).Contents (Elt F)),
    StableHlo.binary main_v31 main_v35 main_v36 (addf : (⟨S128, .f32⟩ : BufTy).Contents (Elt F) → (⟨S128, .f32⟩ : BufTy).Contents (Elt F) → (⟨S128, .f32⟩ : BufTy).Contents (Elt F)),
    StableHlo.unary main_v36 main_v37 (Host.rsqrt : (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S40000x128 ![0, 1] bcast_S1x128_S40000x128_0_1 : (⟨S1x128, .f32⟩ : BufTy).Contents (Elt F) → (⟨S40000x128, .f32⟩ : BufTy).Contents (Elt F)),
    StableHlo.binary main_v34 main_v39 main_v40 (mulf : (⟨S40000x128, .f32⟩ : BufTy).Contents (Elt F) → (⟨S40000x128, .f32⟩ : BufTy).Contents (Elt F) → (⟨S40000x128, .f32⟩ : BufTy).Contents (Elt F)),
    StableHlo.unary main_arg5 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S40000x128 ![0, 1] bcast_S1x128_S40000x128_0_1 : (⟨S1x128, .f32⟩ : BufTy).Contents (Elt F) → (⟨S40000x128, .f32⟩ : BufTy).Contents (Elt F)),
    StableHlo.binary main_v40 main_v42 main_v43 (mulf : (⟨S40000x128, .f32⟩ : BufTy).Contents (Elt F) → (⟨S40000x128, .f32⟩ : BufTy).Contents (Elt F) → (⟨S40000x128, .f32⟩ : BufTy).Contents (Elt F)),
    StableHlo.unary main_arg6 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S40000x128 ![0, 1] bcast_S1x128_S40000x128_0_1 : (⟨S1x128, .f32⟩ : BufTy).Contents (Elt F) → (⟨S40000x128, .f32⟩ : BufTy).Contents (Elt F)),
    StableHlo.binary main_v43 main_v45 main_v46 (addf : (⟨S40000x128, .f32⟩ : BufTy).Contents (Elt F) → (⟨S40000x128, .f32⟩ : BufTy).Contents (Elt F) → (⟨S40000x128, .f32⟩ : BufTy).Contents (Elt F)),
    StableHlo.binary main_arg0 main_v46 main_v47 (addf : (⟨S40000x128, .f32⟩ : BufTy).Contents (Elt F) → (⟨S40000x128, .f32⟩ : BufTy).Contents (Elt F) → (⟨S40000x128, .f32⟩ : BufTy).Contents (Elt F)) ]

-- eighty-one binds re-associated: the rewrite under the chain recurses once per statement
set_option maxRecDepth 2048 in
set_option maxHeartbeats 4000000 in
/-- @main is that straight line: the functions' definitions unfolded at their calls, both sides are one chain of
    steps once sequencing is reassociated. -/
theorem main_eq (c : Dev nD) : main (F := F) c = seq ops := by
  simp only [main, fn_relu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- From any memory with zero counters: every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line leaves at the argument buffers: what was there (no operation writes one) -/

attribute [local irreducible] Host.reduceAdd Host.gather Host.scatterAdd

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

/-! ## What the line leaves at the result buffer: the composed term of the arguments -/

set_option maxRecDepth 8192 in
set_option maxHeartbeats 1600000 in
/-- The fold at the result buffer is the composed term by computation: the fold unrolled, each operation's result
    decides whether the buffer read is the one it writes, and the typed references' casts are the identity at these
    literal references. The gather, the scatter-adds and the column sums stay folded meanwhile: the equation never
    looks inside them. -/
theorem out_eq (V : Valuation τ sig (Elt F)) :
    after ops V (main_v47 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp only [after_cons, after_nil]
  rfl

/-- At the ideal instance, from any memory with zero counters: every weakly fair execution of @main terminates with the
    result buffer at the composed term of the arguments' launch contents and the nine arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = RefTerm.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v47).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.HandRun

end
-- ==== Proof.Spec.lean ====
/-
  One GraphSAGE layer with a mean aggregator, graph normalisation, batch normalisation over the nodes and a
  residual connection, written entry by entry in the two arrangements the two programs use.

  The data: node features h (40000 rows of 128), a per-node factor sn, two 128 × 128 weight matrices Ws and Wn, a bias b,
  the batch-norm scale g and shift be, and — computed from the edge lists before anything else — the aggregate
  agg(n, ·) = Σ_{e : dst e = n} h(src e, ·) and the in-degree deg(n) = #{e : dst e = n}.

  THE ACTIVATION. The neighbour mean is agg(n, j) / max(deg n, 1); one arrangement divides, the other multiplies by the
  reciprocal 1 / max(deg n, 1). Then u(n, k) = max(Σ_j h(n, j)·Ws(j, k) + Σ_j hn(n, j)·Wn(j, k) + b k, 0) · sn n.

  THE MOMENTS. One arrangement takes the column mean μ_k = (Σ_n u(n, k)) / 40000 and the mean of the squared deviations
  (Σ_n (u(n, k) − μ_k)²) / 40000 over all rows. The other sums u and u² over 8 blocks of 5000 consecutive rows, adds the
  block sums, and takes E[u²] − E[u]², clamped below at 0.

  THE OUTPUT. One arrangement is h + ((u − μ)·rsqrt(var + ε)·g + be); the other precomputes scale = g·rsqrt(var + ε) and
  shift = be − μ·g·rsqrt(var + ε) and returns u·scale + shift + h.

  The three float literals (1, 40000, ε ≈ 1e-5) are kept as the binary32 words the programs carry.
-/
import Idealize.ShloMosaic.PureOps.Ideal
import Idealize.ShloMosaic.Lib.ValueIdx

open scoped BigOperators

noncomputable section

namespace Cert.Sage

open Idealize.ShloMosaic

/-- The binary32 word of 1. -/
def one : EReal := Ideal.ofBits .f32 0x3F800000#32
/-- The binary32 word of 40000, the number of rows. -/
def cnt : EReal := Ideal.ofBits .f32 0x471C4000#32
/-- The binary32 word nearest 1e-5. -/
def eps : EReal := Ideal.ofBits .f32 0x3727C5AC#32

/-! ## Arrays as functions of their coordinates -/

/-- A rank-2 array read by row and column. -/
def c2 {a b : ℕ} (x : (⟨2, ![a, b]⟩ : Shape).Idx → EReal) : Fin a → Fin b → EReal := fun i j => x (ValueIdx.ix2 i j)
/-- A rank-1 array read by position. -/
def c1 {a : ℕ} (x : (⟨1, ![a]⟩ : Shape).Idx → EReal) : Fin a → EReal := fun i => x (ValueIdx.ix1 i)
/-- An [a, 1] column read by row. -/
def c21 {a : ℕ} (x : (⟨2, ![a, 1]⟩ : Shape).Idx → EReal) : Fin a → EReal := fun i => x (ValueIdx.ix2 i (0 : Fin 1))

section Layer

variable (h : Fin 40000 → Fin 128 → EReal) (sn : Fin 40000 → EReal) (Ws Wn : Fin 128 → Fin 128 → EReal)
  (b g be : Fin 128 → EReal) (agg : Fin 40000 → Fin 128 → EReal) (deg : Fin 40000 → EReal)

/-! ## The activation -/

/-- The neighbour mean by division. -/
def hnDiv (n : Fin 40000) (j : Fin 128) : EReal := Ideal.div (agg n j) (max (deg n) one)
/-- The neighbour mean by the reciprocal. -/
def hnRecip (n : Fin 40000) (j : Fin 128) : EReal := agg n j * Ideal.div one (max (deg n) one)

/-- Both products, the bias, the rectifier, the per-node factor. -/
def act (hn : Fin 40000 → Fin 128 → EReal) (n : Fin 40000) (k : Fin 128) : EReal :=
  max (((∑ j : Fin 128, h n j * Ws j k) + (∑ j : Fin 128, hn n j * Wn j k)) + b k) 0 * sn n

/-! ## The moments over all rows, and the output built from them -/

section AllRows
variable (u : Fin 40000 → Fin 128 → EReal)

def meanAllRows (k : Fin 128) : EReal := Ideal.div (0 + ∑ n : Fin 40000, u n k) cnt
def varAllRows (k : Fin 128) : EReal :=
  Ideal.div (0 + ∑ n : Fin 40000, (u n k - meanAllRows u k) * (u n k - meanAllRows u k)) cnt
def outAllRows (n : Fin 40000) (k : Fin 128) : EReal :=
  h n k + (((u n k - meanAllRows u k) * Ideal.rsqrt (varAllRows u k + eps)) * g k + be k)
end AllRows

/-! ## The moments from block sums, and the output built from scale and shift -/

/-- Row r of block t (8 blocks of 5000 rows). -/
def blockRow (t : Fin 8) (r : Fin 5000) : Fin 40000 := ⟨t.val * 5000 + r.val, by have := t.isLt; have := r.isLt; omega⟩

section Blocks
variable (u : Fin 40000 → Fin 128 → EReal)

/-- One block's column sum. -/
def blockSum (t : Fin 8) (k : Fin 128) : EReal := ∑ r : Fin 5000, u (blockRow t r) k
/-- One block's column sum of squares. -/
def blockSumSq (t : Fin 8) (k : Fin 128) : EReal := ∑ r : Fin 5000, u (blockRow t r) k * u (blockRow t r) k
def meanBlocks (k : Fin 128) : EReal := Ideal.div (0 + ∑ t : Fin 8, blockSum u t k) cnt
def varBlocks (k : Fin 128) : EReal :=
  max (Ideal.div (0 + ∑ t : Fin 8, blockSumSq u t k) cnt - meanBlocks u k * meanBlocks u k) 0
def rsqBlocks (k : Fin 128) : EReal := Ideal.rsqrt (varBlocks u k + eps)
def scale (k : Fin 128) : EReal := g k * rsqBlocks u k
def shift (k : Fin 128) : EReal := be k - (meanBlocks u k * g k) * rsqBlocks u k
def outBlocks (n : Fin 40000) (k : Fin 128) : EReal := (u n k * scale g u k + shift g be u k) + h n k
end Blocks

/-! ## The two whole layers -/

/-- Division, moments over all rows, normalise then scale and shift. -/
def layerAllRows (n : Fin 40000) (k : Fin 128) : EReal :=
  outAllRows h g be (act h sn Ws Wn b (hnDiv agg deg)) n k

/-- Reciprocal, moments from block sums, precomputed scale and shift. -/
def layerBlocks (n : Fin 40000) (k : Fin 128) : EReal :=
  outBlocks h g be (act h sn Ws Wn b (hnRecip agg deg)) n k

end Layer

end Cert.Sage

end
-- ==== Proof.LibRowGatherScatter.lean ====
/-
  Gathering table rows along an index list, and scatter-adding rows (or scalars) back along one, read at an index.

  A rows gather of an [N, C] table at E start indices (an [E, 1] integer array) returns at (e, k) the table's
  entry (r, k) where r is the e-th start index read as a signed integer and clamped into [0, N − 1].  A rows
  scatter-add of [E, C] updates into an [N, C] operand leaves at (n, k) the operand's entry plus the sum of the
  updates (e, k) over the edges e whose index, read signed and NOT clamped, is exactly n; the rank-one version
  scatters E scalars into N cells the same way.  All three are stated for the dimension numbers jax emits for
  x[idx] and for segment_sum, with the shapes' extents as parameters.
-/
import Idealize.ShloMosaic.PureOps.Ideal
import Idealize.ShloMosaic.Lib.ValueIdx

noncomputable section

open scoped BigOperators

namespace Cert.Lib.RowOps

open Idealize.ShloMosaic Idealize.ShloMosaic.ValueIdx

/-- The dimension numbers of a rows gather: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The rows gather at (e, k): the table at the e-th start index, read signed and clamped into [0, N − 1], column k. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  refine congrArg x ?_
  funext a
  refine Fin.ext ?_
  match a with
  | ⟨0, _⟩ =>
    show (rowGatherDims N E C wf).start (ix2 e k) idx 0 + (rowGatherDims N E C wf).batchCoord (ix2 e k) 0
        + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
        + (rowGatherDims N E C wf).offCoord (ix2 e k) 1 = _
    rw [GatherDims.batchCoord_eq_zero _ _ _ List.not_mem_nil]
    have hstart : (rowGatherDims N E C wf).start (ix2 e k) idx 1 = 0 := by
      unfold GatherDims.start
      rw [dif_neg (show (1 : Fin 2) ∉ ([0] : List (Fin 2)) by decide)]
    have hmem : (1 : Fin 2) ∈ (rowGatherDims N E C wf).sKept :=
      (GatherDims.mem_sKept _ _).mpr ⟨(show (1 : Fin 2) ∉ ([0] : List (Fin 2)) by decide), List.not_mem_nil⟩
    have hoff : (rowGatherDims N E C wf).offCoord (ix2 e k) 1 = k.val := by
      unfold GatherDims.offCoord
      rw [dif_pos hmem]
      rfl
    rw [hstart, hoff]
    simp

/-- An update index lands at operand index i exactly when, on every axis, the signed start plus the window
    coordinate is the coordinate of i. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · next h =>
    rw [Option.some.injEq]
    constructor
    · intro hf a
      rw [← hf]
      have := (h a).1
      simp only [Int.toNat_of_nonneg this]
    · intro hall
      funext a
      refine Fin.ext ?_
      show (d.start j idx a + (d.window j a : Int)).toNat = (i a).val
      rw [hall a]
      exact Int.toNat_natCast _
  · next h =>
    constructor
    · intro hf
      exact absurd hf (by simp)
    · intro hall
      exfalso
      apply h
      intro a
      rw [hall a]
      exact ⟨Int.natCast_nonneg _, by exact_mod_cast (i a).isLt⟩

/-- The dimension numbers of a rows scatter: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window of update (e, c) starts at the e-th index, read signed. -/
theorem rowScatter_start0 :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at 0. -/
theorem rowScatter_start1 : (rowScatterDims N E C wf).start (ix2 e c) idx 1 = 0 := by
  unfold ScatterDims.start
  rw [dif_neg (show (1 : Fin 2) ∉ ([0] : List (Fin 2)) by decide)]

/-- The row axis is an inserted axis: the window coordinate there is 0. -/
theorem rowScatter_window0 : (rowScatterDims N E C wf).window (ix2 e c) 0 = 0 := by
  unfold ScatterDims.window
  have h0 : (0 : Fin 2) ∉ (rowScatterDims N E C wf).sKept :=
    (show (0 : Fin 2) ∉ (List.finRange 2).filter (· ∉ ([0] : List (Fin 2))) by decide)
  rw [dif_neg h0]

/-- On the column axis the window coordinate of update (e, c) is c. -/
theorem rowScatter_window1 : (rowScatterDims N E C wf).window (ix2 e c) 1 = c.val := by
  unfold ScatterDims.window
  have h1 : (1 : Fin 2) ∈ (rowScatterDims N E C wf).sKept :=
    (show (1 : Fin 2) ∈ (List.finRange 2).filter (· ∉ ([0] : List (Fin 2))) by decide)
  rw [dif_pos h1]
  rfl

/-- An update (e, c) of the rows scatter lands at (n, k) exactly when its index, read signed, is n and c = k. -/
theorem rowScatter_resultIdx?_iff (n : Fin N) (k : Fin C) :
    (rowScatterDims N E C wf).resultIdx? (ix2 e c) idx = some (ix2 n k)
      ↔ (idx (ix2 e (0 : Fin 1))).toInt = (n.val : Int) ∧ c = k := by
  rw [resultIdx?_eq_some_iff, Fin.forall_fin_two, rowScatter_start0, rowScatter_start1, rowScatter_window0,
    rowScatter_window1]
  show (idx (ix2 e (0 : Fin 1))).toInt + ((0 : Nat) : Int) = (n.val : Int) ∧ (0 : Int) + (c.val : Int) = (k.val : Int) ↔ _
  constructor
  · rintro ⟨h0, h1⟩
    exact ⟨by simpa using h0, Fin.ext (by omega)⟩
  · rintro ⟨h0, rfl⟩
    exact ⟨by simpa using h0, by simp⟩

end Rows

/-- The rows scatter-add at (n, k): the operand there plus the updates (e, k) of the edges whose index is n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd (rowScatterDims N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  refine congrArg (x (ix2 n k) + ·) ?_
  rw [Finset.sum_filter, Finset.sum_filter, sum_idx2]
  refine Finset.sum_congr rfl (fun e _ => ?_)
  simp only [rowScatter_resultIdx?_iff]
  by_cases hn : (idx (ix2 e (0 : Fin 1))).toInt = (n.val : Int)
  · simp [hn]
  · simp [hn]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at the e-th index, read signed. -/
theorem vecScatter_start0 :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem vecScatter_window0 : (vecScatterDims N E wf).window (ix1 e) 0 = 0 := by
  unfold ScatterDims.window
  have h0 : (0 : Fin 1) ∉ (vecScatterDims N E wf).sKept :=
    (show (0 : Fin 1) ∉ (List.finRange 1).filter (· ∉ ([0] : List (Fin 1))) by decide)
  rw [dif_neg h0]

/-- An update e of the scalar scatter lands at n exactly when its index, read signed, is n. -/
theorem vecScatter_resultIdx?_iff (n : Fin N) :
    (vecScatterDims N E wf).resultIdx? (ix1 e) idx = some (ix1 n)
      ↔ (idx (ix2 e (0 : Fin 1))).toInt = (n.val : Int) := by
  rw [resultIdx?_eq_some_iff, Fin.forall_fin_one, vecScatter_start0, vecScatter_window0]
  show (idx (ix2 e (0 : Fin 1))).toInt + ((0 : Nat) : Int) = (n.val : Int) ↔ _
  simp

end Vec

/-- The scalar scatter-add at n: the operand there plus the updates of the edges whose index is n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  refine congrArg (x (ix1 n) + ·) ?_
  rw [Finset.sum_filter, Finset.sum_filter, sum_idx1]
  refine Finset.sum_congr rfl (fun e _ => ?_)
  simp only [vecScatter_resultIdx?_iff]

end Cert.Lib.RowOps

end
-- ==== Proof.AggDefs.lean ====
/-
  The edge-level part of the layer, shared by both programs: the aggregate of source rows at each target node and
  the in-degree, as the host operations compute them.

  The edge lists are 640000 signed 32-bit words each. A list is first wrapped the way array indexing wraps a negative
  position (w ↦ w + 40000 when w < 0), then laid out as a [640000, 1] column of start indices. The rows of h at the
  source indices are gathered ([640000, 128]) and scatter-added into a zero [40000, 128] array at the target indices;
  the degree is the scatter-add of 640000 ones into a zero vector of length 40000. One program wraps the target list
  before scattering and the other does not; on a list with no negative entry the wrap changes nothing.
-/
import proofs.«110230_j58609123721516_2_alg».proof.Proof.Spec
import proofs.«110230_j58609123721516_2_alg».proof.Proof.LibRowGatherScatter

noncomputable section

namespace Cert.Sage

open Idealize.ShloMosaic Cert.Lib.RowOps

theorem bc_scalar_edges : (⟨0, ![]⟩ : Shape).BroadcastsInDim ⟨1, ![640000]⟩ (![] : Fin 0 → Fin 1) := by decide
theorem bc_edges_col : (⟨1, ![640000]⟩ : Shape).BroadcastsInDim ⟨2, ![640000, 1]⟩ (![0] : Fin 1 → Fin 2) := by decide
theorem bc_scalar_nodes : (⟨0, ![]⟩ : Shape).BroadcastsInDim ⟨1, ![40000]⟩ (![] : Fin 0 → Fin 1) := by decide
theorem bc_scalar_table : (⟨0, ![]⟩ : Shape).BroadcastsInDim ⟨2, ![40000, 128]⟩ (![] : Fin 0 → Fin 2) := by decide
theorem wf_rows_gather :
    GatherDims.WF ⟨2, ![40000, 128]⟩ ⟨2, ![640000, 1]⟩ ⟨2, ![640000, 128]⟩ [1] [0] [] [0] [] 1 ![1, 128] := by decide
theorem wf_rows_scatter : ScatterDims.WF ⟨2, ![40000, 128]⟩ ⟨2, ![640000, 1]⟩ ⟨2, ![640000, 128]⟩ [1] [0] [0] 1 := by decide
theorem wf_vec_scatter : ScatterDims.WF ⟨1, ![40000]⟩ ⟨2, ![640000, 1]⟩ ⟨1, ![640000]⟩ [] [0] [0] 1 := by decide

/-- The wrap of a negative position: w + 40000 where w < 0, else w. -/
def wrapIdx (idx : IVec ⟨1, ![640000]⟩ 32) : IVec ⟨1, ![640000]⟩ 32 :=
  select (cmpi .slt idx (broadcastInDim ⟨1, ![640000]⟩ ![] bc_scalar_edges (constantI ⟨0, ![]⟩ 32 0#32)))
    (addi idx (broadcastInDim ⟨1, ![640000]⟩ ![] bc_scalar_edges (constantI ⟨0, ![]⟩ 32 40000#32))) idx

/-- An index list as a [640000, 1] column of start indices. -/
def colIdx (idx : IVec ⟨1, ![640000]⟩ 32) : IVec ⟨2, ![640000, 1]⟩ 32 :=
  broadcastInDim ⟨2, ![640000, 1]⟩ ![0] bc_edges_col idx

/-- The aggregate: rows of h gathered at the (wrapped) source list, scatter-added into zeros at the target list
    `tgt` (wrapped or not, as the caller says). -/
def aggArr (h : FVec Ideal ⟨2, ![40000, 128]⟩ .f32) (src tgt : IVec ⟨1, ![640000]⟩ 32) : FVec Ideal ⟨2, ![40000, 128]⟩ .f32 :=
  Host.scatterAdd (rowScatterDims 40000 640000 128 wf_rows_scatter)
    (broadcastInDim ⟨2, ![40000, 128]⟩ ![] bc_scalar_table (constant (F := Ideal) ⟨0, ![]⟩ .f32 0x00000000#32))
    (colIdx tgt)
    (Host.gather (rowGatherDims 40000 640000 128 wf_rows_gather) h (colIdx (wrapIdx src)))

/-- The in-degree: 640000 ones scatter-added into a zero vector at the target list `tgt`. -/
def degArr (tgt : IVec ⟨1, ![640000]⟩ 32) : FVec Ideal ⟨1, ![40000]⟩ .f32 :=
  Host.scatterAdd (vecScatterDims 40000 640000 wf_vec_scatter)
    (broadcastInDim ⟨1, ![40000]⟩ ![] bc_scalar_nodes (constant (F := Ideal) ⟨0, ![]⟩ .f32 0x00000000#32))
    (colIdx tgt)
    (broadcastInDim ⟨1, ![640000]⟩ ![] bc_scalar_edges (constant (F := Ideal) ⟨0, ![]⟩ .f32 0x3F800000#32))

end Cert.Sage

end
-- ==== Proof.KHost0.lean ====
/-
  What the host operations ahead of the first kernel region leave in the arrays that region reads.

  The region reads six arrays.  Four are arguments the host never writes (the node features, the two weight matrices and
  the bias): they keep their launch contents.  The other two are computed on the host from the edge lists:

  * the aggregate: the source list is wrapped (w < 0 ↦ w + 40000) and laid out as a column, the rows of the feature table
    at those positions are gathered, and the gathered rows are scatter-added into a zero table at the wrapped target list;
  * a two-column array whose column 0 is the per-node factor and whose column 1 is 1 / max(deg, 1), deg being the
    scatter-add of 640000 ones into a zero vector at the wrapped target list.

  Reading the fold of the host operations at each of these arrays gives the same operations applied to the launch
  contents; the gather and the scatter-adds are never opened.
-/
import proofs.«110230_j58609123721516_2_alg».proof.Proof.Gen.KernelIdeal.Launch
import proofs.«110230_j58609123721516_2_alg».proof.Proof.Spec
import proofs.«110230_j58609123721516_2_alg».proof.Proof.AggDefs
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Host0

open Idealize.ShloMosaic Idealize.ShloMosaic.StableHlo

open Idealize.ShloMosaic.ValueIdx

/-! ## The aggregate -/

attribute [local irreducible] Host.gather Host.scatterAdd in
set_option maxRecDepth 8192 in
/-- The aggregate array: the fold read at its buffer is the scatter-add, into a zero table at the wrapped target column,
    of the rows gathered at the wrapped source column.  The two edge-level operations stay folded; both sides are the
    same operations on the same arguments. -/
theorem agg_eq (W : Valuation τ sig (Elt Ideal)) :
    (StableHlo.after (Gen.hostOps0 (F := Ideal)) W (Proc.devRef .tc main_v14) : S40000x128.Idx → EReal)
      = Cert.Sage.aggArr (W (Proc.devRef .tc main_arg0)) (W (Proc.devRef .tc main_arg7))
          (Cert.Sage.wrapIdx (W (Proc.devRef .tc main_arg8))) := by
  after_results_simp
  rfl

/-! ## The arguments the host operations never write -/

set_option maxRecDepth 8192 in
/-- The node features keep their launch contents. -/
theorem keep_arg0 (W : Valuation τ sig (Elt Ideal)) :
    StableHlo.after (Gen.hostOps0 (F := Ideal)) W (Proc.devRef .tc main_arg0) = W (Proc.devRef .tc main_arg0) := by
  after_results_simp

set_option maxRecDepth 8192 in
/-- The first weight matrix keeps its launch contents. -/
theorem keep_arg2 (W : Valuation τ sig (Elt Ideal)) :
    StableHlo.after (Gen.hostOps0 (F := Ideal)) W (Proc.devRef .tc main_arg2) = W (Proc.devRef .tc main_arg2) := by
  after_results_simp

set_option maxRecDepth 8192 in
/-- The second weight matrix keeps its launch contents. -/
theorem keep_arg3 (W : Valuation τ sig (Elt Ideal)) :
    StableHlo.after (Gen.hostOps0 (F := Ideal)) W (Proc.devRef .tc main_arg3) = W (Proc.devRef .tc main_arg3) := by
  after_results_simp

set_option maxRecDepth 8192 in
/-- The bias keeps its launch contents. -/
theorem keep_arg4 (W : Valuation τ sig (Elt Ideal)) :
    StableHlo.after (Gen.hostOps0 (F := Ideal)) W (Proc.devRef .tc main_arg4) = W (Proc.devRef .tc main_arg4) := by
  after_results_simp

/-! ## The two-column array -/

section Columns
variable {α : Type}

/-- Two [40000, 1] columns laid side by side: column 0 of the result is the first column … -/
theorem concat_cols_left (a b : S40000x1.Idx → α) (h : Shape.Concatenates [S40000x1, S40000x1] S40000x2 1)
    (n : Fin 40000) :
    concatenate S40000x2 1 [⟨S40000x1, a⟩, ⟨S40000x1, b⟩] h (ix2 n (0 : Fin 2)) = a (ix2 n (0 : Fin 1)) :=
  concatenate_pair_apply_left (1 : Fin 2) a b h (ix2 n (0 : Fin 2)) rfl (ix2 n (0 : Fin 1))
    (fun c => match c with | ⟨0, _⟩ => rfl | ⟨1, _⟩ => rfl)

/-- … and column 1 is the second column. -/
theorem concat_cols_right (a b : S40000x1.Idx → α) (h : Shape.Concatenates [S40000x1, S40000x1] S40000x2 1)
    (n : Fin 40000) :
    concatenate S40000x2 1 [⟨S40000x1, a⟩, ⟨S40000x1, b⟩] h (ix2 n (1 : Fin 2)) = b (ix2 n (0 : Fin 1)) :=
  concatenate_pair_apply_right (1 : Fin 2) a b h (ix2 n (1 : Fin 2)) rfl rfl (ix2 n (0 : Fin 1))
    (fun c hc => match c, hc with | ⟨0, _⟩, _ => rfl | ⟨1, _⟩, hc => absurd rfl hc) rfl

/-- A vector of length 40000 laid out as a [40000, 1] column reads, at row n, the vector at n. -/
theorem col_apply (v : S40000.Idx → α) (h : S40000.BroadcastsInDim S40000x1 (![0] : Fin 1 → Fin 2)) (n : Fin 40000) :
    broadcastInDim S40000x1 ![0] h v (ix2 n (0 : Fin 1)) = v (ix1 n) :=
  broadcastInDim_apply ![0] h v (ix2 n (0 : Fin 1)) (ix1 n) (fun c => match c with | ⟨0, _⟩ => rfl)

end Columns

attribute [local irreducible] Host.gather Host.scatterAdd in
set_option maxRecDepth 8192 in
/-- Column 0 of the two-column array is the per-node factor as launched. -/
theorem packed0 (W : Valuation τ sig (Elt Ideal)) (n : Fin 40000) :
    (StableHlo.after (Gen.hostOps0 (F := Ideal)) W (Proc.devRef .tc main_v29) : S40000x2.Idx → EReal) (ValueIdx.ix2 n (0 : Fin 2))
      = (W (Proc.devRef .tc main_arg1) : S40000x1.Idx → EReal) (ValueIdx.ix2 n (0 : Fin 1)) := by
  after_results_simp
  exact concat_cols_left _ _ _ n

attribute [local irreducible] Host.gather Host.scatterAdd in
set_option maxRecDepth 8192 in
/-- Column 1 of the two-column array is 1 / max(deg, 1), deg the in-degree counted at the wrapped target list. -/
theorem packed1 (W : Valuation τ sig (Elt Ideal)) (n : Fin 40000) :
    (StableHlo.after (Gen.hostOps0 (F := Ideal)) W (Proc.devRef .tc main_v29) : S40000x2.Idx → EReal) (ValueIdx.ix2 n (1 : Fin 2))
      = Ideal.div Cert.Sage.one
          (max (Cert.Sage.degArr (Cert.Sage.wrapIdx (W (Proc.devRef .tc main_arg8))) (ValueIdx.ix1 n)) Cert.Sage.one) := by
  after_results_simp
  refine (concat_cols_right _ _ _ n).trans ?_
  -- the column at row n is the quotient vector at n; the quotient, the maximum and the two splats of the word of 1 read entry by entry
  refine (col_apply _ _ n).trans ?_
  rw [hostDivf_apply, maximumf_apply, broadcastInDim_scalar_apply, constant_apply]
  -- both sides are now 1 / max(scatter-add at n, 1) over the same operands
  unfold Cert.Sage.one Cert.Sage.degArr Cert.Sage.colIdx Cert.Sage.wrapIdx
  rfl

end Cert.KernelIdeal.Host0

end
-- ==== Proof.KEntry.lean ====
/-
  The arrays the first grid reads, and the arguments the second stretch of host operations reads, in terms of the
  launch memory.

  Between the launch and the first grid the host computes the aggregate and the packed per-node pair; everything else
  the first grid reads is an argument array that nothing has written. Between the two grids the host reads the batch
  norm's scale and shift arguments, again unwritten since the launch.
-/
import proofs.«110230_j58609123721516_2_alg».proof.Proof.Gen.KernelIdeal.Frame
import proofs.«110230_j58609123721516_2_alg».proof.Proof.KHost0

set_option maxRecDepth 16384

noncomputable section

namespace Cert.KernelIdeal.Entry

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg) (c : Dev nD)

/-! ## Arguments the first stretch of host operations never writes -/

set_option maxRecDepth 8192 in
theorem keep0_arg5 (W : Valuation τ sig (Elt Ideal)) :
    StableHlo.after (Gen.hostOps0 (F := Ideal)) W (Proc.devRef .tc main_arg5) = W (Proc.devRef .tc main_arg5) := by
  after_results_simp

set_option maxRecDepth 8192 in
theorem keep0_arg6 (W : Valuation τ sig (Elt Ideal)) :
    StableHlo.after (Gen.hostOps0 (F := Ideal)) W (Proc.devRef .tc main_arg6) = W (Proc.devRef .tc main_arg6) := by
  after_results_simp

/-! ## The first grid's input arrays at its entry -/

/-- The node features, as launched. -/
theorem x0_eq : (V1 m ρ c (Pipeline.arrRef spec0 0) : S40000x128.Idx → EReal) = m ((c : Thread nD τ).loc main_arg0) :=
  Host0.keep_arg0 (W0 m ρ c)

/-- The aggregate of the launched features along the launched edge lists, the target list wrapped. -/
theorem x1_eq : (V1 m ρ c (Pipeline.arrRef spec0 1) : S40000x128.Idx → EReal)
    = Cert.Sage.aggArr (m ((c : Thread nD τ).loc main_arg0)) (m ((c : Thread nD τ).loc main_arg7))
        (Cert.Sage.wrapIdx (m ((c : Thread nD τ).loc main_arg8))) :=
  Host0.agg_eq (W0 m ρ c)

theorem x3_eq : (V1 m ρ c (Pipeline.arrRef spec0 3) : S128x128.Idx → EReal) = m ((c : Thread nD τ).loc main_arg2) :=
  Host0.keep_arg2 (W0 m ρ c)
theorem x4_eq : (V1 m ρ c (Pipeline.arrRef spec0 4) : S128x128.Idx → EReal) = m ((c : Thread nD τ).loc main_arg3) :=
  Host0.keep_arg3 (W0 m ρ c)
theorem x5_eq : (V1 m ρ c (Pipeline.arrRef spec0 5) : S128.Idx → EReal) = m ((c : Thread nD τ).loc main_arg4) :=
  Host0.keep_arg4 (W0 m ρ c)

/-! ## The scale and shift arguments at the first grid's exit -/

theorem W2_arg5 : (W2 m ρ c (Proc.devRef .tc main_arg5) : S128.Idx → EReal) = m ((c : Thread nD τ).loc main_arg5) :=
  (W2_of_ne m ρ c main_arg5 (by decide)).trans (keep0_arg5 (W0 m ρ c))
theorem W2_arg6 : (W2 m ρ c (Proc.devRef .tc main_arg6) : S128.Idx → EReal) = m ((c : Thread nD τ).loc main_arg6) :=
  (W2_of_ne m ρ c main_arg6 (by decide)).trans (keep0_arg6 (W0 m ρ c))

/-- The node features at the first grid's exit: an input array of that grid, left as entered. -/
theorem W2_arg0 : (W2 m ρ c (Proc.devRef .tc main_arg0) : S40000x128.Idx → EReal) = m ((c : Thread nD τ).loc main_arg0) :=
  ((W2_arr m ρ c 0).trans (((dat0 (V1 m ρ) c).arrAt_in 0 rfl _).trans (A_eq0 (V1 m ρ) c 0))).trans (x0_eq m ρ c)

end Cert.KernelIdeal.Entry

end
-- ==== Proof.KHost1.lean ====
/-
  The host operations between the two regions of the kernel program, read at one column.

  The first region leaves two [8, 1, 128] arrays: the 8 blocks' column sums of the activation u and of u². The
  operations between the regions add the 8 block rows (from an initial zero), divide by the row count 40000 to get the
  mean μ_k and the mean of squares, form max(E[u²]_k − μ_k², 0), add ε, take the reciprocal square root r_k, and
  produce scale_k = γ_k · r_k and shift_k = β_k − (μ_k · γ_k) · r_k, each reshaped to a [1, 128] row. They write neither
  the activation array nor the node features.

  Each composed array is first named as a term of the arrays it depends on, then read at column k: a reshape between
  [128] and [1, 128] keeps the column, the sum over the leading axis of extent 8 is the initial value plus the 8 entries,
  a scalar spread over the columns reads as the scalar, and the pointwise operations read pointwise. The three float
  words (zero, 40000, ε) stay words except the zero word, whose value is 0.
-/
import proofs.«110230_j58609123721516_2_alg».proof.Proof.Gen.KernelIdeal.Launch
import proofs.«110230_j58609123721516_2_alg».proof.Proof.Spec
import Idealize.ShloMosaic.Lib.StableHlo.Run
import Idealize.ShloMosaic.PureOps.Ideal.Laws
import Idealize.ShloMosaic.Lib.ValueLayout
import Idealize.ShloMosaic.Lib.ValueIdx

noncomputable section

namespace Cert.KernelIdeal.Host1

open Idealize.ShloMosaic Idealize.ShloMosaic.TcCoe Idealize.SL.Sem Idealize.ShloMosaic.ValueIdx
open Idealize.ShloMosaic.StableHlo
open Cert.KernelIdeal Cert.KernelIdeal.Gen
section Terms

-- The shape facts the operations carry: the sum over the 8 block rows, and the layout changes.
variable (h' : S8x1x128.ReducesTo [0] S1x128) (hu : 0 < S_.numel) (hc : S1x128.ShapeCasts S128)
  (hb : S_.BroadcastsInDim S128 (![] : Fin 0 → Fin S128.rank)) (hr : S128.ShapeCasts S1x128)

/-- The sums over the 8 block rows of an [8, 1, 128] array, as a [128] array. -/
def sumRows (s : S8x1x128.Idx → EReal) : S128.Idx → EReal :=
  fun i => shapeCast S128 (Host.reduceAdd (F := Ideal) (φ := .f32) s (constant (F := Ideal) S_ .f32 0x00000000#32) h' hu) hc i

/-- A scalar word spread over the 128 columns. -/
def splat (w : BitVec 32) : S128.Idx → EReal := broadcastInDim S128 ![] hb (constant (F := Ideal) S_ .f32 w)

/-- The column means: the sums of the block sums over the number of rows. -/
def meanArr (s1 : S8x1x128.Idx → EReal) : S128.Idx → EReal :=
  Host.divf (F := Ideal) (φ := .f32) (sumRows h' hu hc s1) (splat hb 0x471C4000#32)

/-- The column variances: mean of squares minus squared mean, clamped below at zero. -/
def varArr (s1 s2 : S8x1x128.Idx → EReal) : S128.Idx → EReal :=
  maximumf (F := Ideal) (φ := .f32)
    (subf (F := Ideal) (φ := .f32) (Host.divf (F := Ideal) (φ := .f32) (sumRows h' hu hc s2) (splat hb 0x471C4000#32))
      (mulf (F := Ideal) (φ := .f32) (meanArr h' hu hc hb s1) (meanArr h' hu hc hb s1)))
    (splat hb 0x00000000#32)

/-- The reciprocal square roots of variance plus epsilon. -/
def rsqArr (s1 s2 : S8x1x128.Idx → EReal) : S128.Idx → EReal :=
  Host.rsqrt (F := Ideal) (φ := .f32) (addf (F := Ideal) (φ := .f32) (varArr h' hu hc hb s1 s2) (splat hb 0x3727C5AC#32))

/-- The scale row: gamma times the reciprocal square root, as a [1, 128] array. -/
def scaleArr (s1 s2 : S8x1x128.Idx → EReal) (g : S128.Idx → EReal) : S1x128.Idx → EReal :=
  fun i => shapeCast S1x128 (mulf (F := Ideal) (φ := .f32) g (rsqArr h' hu hc hb s1 s2)) hr i

/-- The shift row: beta minus (mean times gamma) times the reciprocal square root, as a [1, 128] array. -/
def shiftArr (s1 s2 : S8x1x128.Idx → EReal) (g be : S128.Idx → EReal) : S1x128.Idx → EReal :=
  fun i => shapeCast S1x128 (subf (F := Ideal) (φ := .f32) be
    (mulf (F := Ideal) (φ := .f32) (mulf (F := Ideal) (φ := .f32) (meanArr h' hu hc hb s1) g) (rsqArr h' hu hc hb s1 s2))) hr i

/-- A column's sum over the 8 block rows: the initial zero plus the 8 entries. -/
theorem sumRows_apply (s : S8x1x128.Idx → EReal) (k : Fin 128) :
    sumRows h' hu hc s (ix1 k) = 0 + ∑ t : Fin 8, s (ix3 t (0 : Fin 1) k) := by
  unfold sumRows
  rw [shapeCast_1a_a_apply]
  unfold Host.reduceAdd
  have h : S8x1x128.Reduces [0] S1x128 := by decide
  rw [Ideal.hostReduceAdd_def, Ideal.hostReduceAdd_single h' h, constant_apply, Ideal.ofBits_zero_f32]
  refine congrArg (fun z : EReal => 0 + z) ?_
  exact Finset.sum_congr rfl fun t _ => congrArg s (funext fun a => by
    match a with
    | ⟨0, _⟩ => rfl
    | ⟨1, _⟩ => rfl
    | ⟨2, _⟩ => rfl)

/-- A spread word read at any column is the value of the word. -/
theorem splat_apply (w : BitVec 32) (k : Fin 128) : splat hb w (ix1 k) = Ideal.ofBits .f32 w := rfl

/-- The mean at column k. -/
theorem meanArr_apply (s1 : S8x1x128.Idx → EReal) (k : Fin 128) :
    meanArr h' hu hc hb s1 (ix1 k) = Ideal.div (0 + ∑ t : Fin 8, s1 (ix3 t (0 : Fin 1) k)) Cert.Sage.cnt := by
  show Ideal.div (sumRows h' hu hc s1 (ix1 k)) (splat hb 0x471C4000#32 (ix1 k)) = _
  rw [sumRows_apply, splat_apply]
  rfl

/-- The clamped variance at column k. -/
theorem varArr_apply (s1 s2 : S8x1x128.Idx → EReal) (k : Fin 128) :
    varArr h' hu hc hb s1 s2 (ix1 k)
      = max (Ideal.div (0 + ∑ t : Fin 8, s2 (ix3 t (0 : Fin 1) k)) Cert.Sage.cnt
          - Ideal.div (0 + ∑ t : Fin 8, s1 (ix3 t (0 : Fin 1) k)) Cert.Sage.cnt
            * Ideal.div (0 + ∑ t : Fin 8, s1 (ix3 t (0 : Fin 1) k)) Cert.Sage.cnt) 0 := by
  show max (Ideal.div (sumRows h' hu hc s2 (ix1 k)) (splat hb 0x471C4000#32 (ix1 k))
      - meanArr h' hu hc hb s1 (ix1 k) * meanArr h' hu hc hb s1 (ix1 k)) (splat hb 0x00000000#32 (ix1 k)) = _
  rw [sumRows_apply, meanArr_apply, splat_apply, splat_apply, Ideal.ofBits_zero_f32]
  rfl

/-- The reciprocal square root at column k. -/
theorem rsqArr_apply (s1 s2 : S8x1x128.Idx → EReal) (k : Fin 128) :
    rsqArr h' hu hc hb s1 s2 (ix1 k) = Ideal.rsqrt (varArr h' hu hc hb s1 s2 (ix1 k) + Cert.Sage.eps) := rfl

/-- The scale row at column k. -/
theorem scaleArr_apply (s1 s2 : S8x1x128.Idx → EReal) (g : S128.Idx → EReal) (k : Fin 128) :
    scaleArr h' hu hc hb hr s1 s2 g (ix2 (0 : Fin 1) k) = g (ix1 k) * rsqArr h' hu hc hb s1 s2 (ix1 k) := by
  unfold scaleArr
  rw [shapeCast_a_1a_apply]
  rfl

/-- The shift row at column k. -/
theorem shiftArr_apply (s1 s2 : S8x1x128.Idx → EReal) (g be : S128.Idx → EReal) (k : Fin 128) :
    shiftArr h' hu hc hb hr s1 s2 g be (ix2 (0 : Fin 1) k)
      = be (ix1 k) - (meanArr h' hu hc hb s1 (ix1 k) * g (ix1 k)) * rsqArr h' hu hc hb s1 s2 (ix1 k) := by
  unfold shiftArr
  rw [shapeCast_a_1a_apply]
  rfl

variable (W : Valuation τ sig (Elt Ideal))

/-- The scale array after the operations is the composed term of the three arrays it depends on. -/
theorem v47_eq :
    (StableHlo.after Gen.hostOps1 W (Proc.devRef .tc main_v47) : S1x128.Idx → EReal)
      = scaleArr h' hu hc hb hr (W (Proc.devRef .tc main_v30_1)) (W (Proc.devRef .tc main_v30_2)) (W (Proc.devRef .tc main_arg5)) := by
  simp only [Gen.hostOps1]
  after_results_simp
  rfl

/-- The shift array after the operations is the composed term of the four arrays it depends on. -/
theorem v51_eq :
    (StableHlo.after Gen.hostOps1 W (Proc.devRef .tc main_v51) : S1x128.Idx → EReal)
      = shiftArr h' hu hc hb hr (W (Proc.devRef .tc main_v30_1)) (W (Proc.devRef .tc main_v30_2)) (W (Proc.devRef .tc main_arg5)) (W (Proc.devRef .tc main_arg6)) := by
  simp only [Gen.hostOps1]
  after_results_simp
  rfl

end Terms

/-- None of these operations writes the activation array: it is as the first region left it. -/
theorem keep_v30_0 (W : Valuation τ sig (Elt Ideal)) :
    StableHlo.after Gen.hostOps1 W (Proc.devRef .tc main_v30_0) = W (Proc.devRef .tc main_v30_0) := by
  simp only [Gen.hostOps1]
  after_results_simp

/-- Nor the node features. -/
theorem keep_arg0 (W : Valuation τ sig (Elt Ideal)) :
    StableHlo.after Gen.hostOps1 W (Proc.devRef .tc main_arg0) = W (Proc.devRef .tc main_arg0) := by
  simp only [Gen.hostOps1]
  after_results_simp

/-- The scale row the second region reads: gamma times the reciprocal square root of the clamped block-sum variance plus
    epsilon, when the two [8, 1, 128] arrays hold the block sums and the block sums of squares of `u`. -/
theorem scale_eq (W : Valuation τ sig (Elt Ideal)) (u : Fin 40000 → Fin 128 → EReal)
    (hs : ∀ (t : Fin 8) (k : Fin 128), (W (Proc.devRef .tc main_v30_1) : S8x1x128.Idx → EReal) (ValueIdx.ix3 t (0 : Fin 1) k) = Cert.Sage.blockSum u t k)
    (hq : ∀ (t : Fin 8) (k : Fin 128), (W (Proc.devRef .tc main_v30_2) : S8x1x128.Idx → EReal) (ValueIdx.ix3 t (0 : Fin 1) k) = Cert.Sage.blockSumSq u t k) (k : Fin 128) :
    (StableHlo.after Gen.hostOps1 W (Proc.devRef .tc main_v47) : S1x128.Idx → EReal) (ValueIdx.ix2 (0 : Fin 1) k)
      = Cert.Sage.scale (Cert.Sage.c1 (W (Proc.devRef .tc main_arg5))) u k := by
  refine (congrFun (v47_eq Gen.reducesTo_S8x1x128_S1x128_d0 Gen.h_S_ Gen.shapeCasts_S1x128_S128 Gen.bcast_S_S128 Gen.shapeCasts_S128_S1x128 W) (ix2 (0 : Fin 1) k)).trans ?_
  rw [scaleArr_apply, rsqArr_apply, varArr_apply]
  simp only [hs, hq]
  rfl

/-- The shift row the second region reads: beta minus (block-sum mean times gamma) times the same reciprocal square root. -/
theorem shift_eq (W : Valuation τ sig (Elt Ideal)) (u : Fin 40000 → Fin 128 → EReal)
    (hs : ∀ (t : Fin 8) (k : Fin 128), (W (Proc.devRef .tc main_v30_1) : S8x1x128.Idx → EReal) (ValueIdx.ix3 t (0 : Fin 1) k) = Cert.Sage.blockSum u t k)
    (hq : ∀ (t : Fin 8) (k : Fin 128), (W (Proc.devRef .tc main_v30_2) : S8x1x128.Idx → EReal) (ValueIdx.ix3 t (0 : Fin 1) k) = Cert.Sage.blockSumSq u t k) (k : Fin 128) :
    (StableHlo.after Gen.hostOps1 W (Proc.devRef .tc main_v51) : S1x128.Idx → EReal) (ValueIdx.ix2 (0 : Fin 1) k)
      = Cert.Sage.shift (Cert.Sage.c1 (W (Proc.devRef .tc main_arg5))) (Cert.Sage.c1 (W (Proc.devRef .tc main_arg6))) u k := by
  refine (congrFun (v51_eq Gen.reducesTo_S8x1x128_S1x128_d0 Gen.h_S_ Gen.shapeCasts_S1x128_S128 Gen.bcast_S_S128 Gen.shapeCasts_S128_S1x128 W) (ix2 (0 : Fin 1) k)).trans ?_
  rw [shiftArr_apply, rsqArr_apply, varArr_apply, meanArr_apply]
  simp only [hs, hq]
  rfl

end Cert.KernelIdeal.Host1

end
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.KRegion0Payload.lean ====
/-
  One block of the first region, entry by entry: what the body computes from its six loaded blocks.

  With h the block of node features (5000 rows of 128), a the block of aggregated neighbour features, c the packed
  [5000, 2] block (column 0 the per-node factor, column 1 the reciprocal degree), Ws and Wn the two weight matrices and b
  the bias, the stored activation at row p and lane q is
      max((Σ_j h(p, j)·Ws(j, q) + Σ_j (a(p, j)·c(p, 1))·Wn(j, q)) + b(q), 0) · c(p, 0):
  a change of float format is the identity on the extended reals, each product into the zero accumulator is the sum over
  the one contracted axis, a column of c spread over the lanes reads c at its row, the bias spread over the rows reads
  the bias at its lane. The two reduced results are, lane by lane, the sum of that activation and of its square over the
  block's 5000 rows.
-/
import proofs.«110230_j58609123721516_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«110230_j58609123721516_2_alg».proof.Proof.LibLayoutColumn

open scoped BigOperators

noncomputable section

namespace Cert.KernelIdeal.Region0

open Idealize.ShloMosaic Idealize.ShloMosaic.ValueIdx Cert.KernelIdeal Cert.KernelIdeal.Gen
/-- The dimension numbers of both products: rows × contraction times contraction × columns. -/
abbrev D : DotDims S5000x128 S128x128 S5000x128 := dot_S5000x128_S128x128_S5000x128_1_0_0_1_n_n

theorem lhs0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x128.Idx) (q : D.contr.Idx) : (D.lhsIdx i q 1).val = (q ⟨0, by decide⟩).val :=
  D.lhsIdx_val_of_single rfl i q
theorem rhs0 (i : S5000x128.Idx) (q : D.contr.Idx) : (D.rhsIdx i q 0).val = (q ⟨0, by decide⟩).val :=
  D.rhsIdx_val_of_single rfl i q
theorem rhs1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A product into the zero accumulator, read at (p, q): the sum over the contraction of row p times column q. -/
theorem matmul_zero_apply {φ₁ φ₂ : FTy} (a : FVec Ideal S5000x128 φ₁) (b : FVec Ideal S128x128 φ₂) (p : Fin 5000) (q : Fin 128) :
    matmul D none a b (constant (F := Ideal) S5000x128 .f32 0x00000000#32) (ix2 p q)
      = ∑ j : Fin 128, a (ix2 p j) * b (ix2 j q) := by
  show FloatOps.matmul D none a b (constant (F := Ideal) S5000x128 .f32 0x00000000#32) (ix2 p q) = _
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 128 rfl rfl).symm k) = ix2 k q := funext fun a => Fin.ext (by
    match a with
    | ⟨0, _⟩ => exact (rhs0 _ _).trans hk
    | ⟨1, _⟩ => exact rhs1 _ _)
  rw [el, er]

/-- Column 0 of the packed [5000, 2] block, spread over the lanes, read at (p, q): the block at (p, 0). -/
theorem spread0 (v2 : FVec Ideal S5000x2 .f32) (hs : S5000x2.Slices ![0, 0] S5000x1)
    (hb : S5000x1.Broadcasts S5000x128) (p : Fin 5000) (q : Fin 128) :
    broadcastTo S5000x128 (extractStridedSlice S5000x1 ![0, 0] v2 hs) hb (ix2 p q) = v2 (ix2 p (0 : Fin 2)) := by
  refine (Cert.Lib.Layout.broadcastTo_a1_ab_apply _ hb p q).trans ?_
  exact slice2_axis1_apply 0 v2 hs p (0 : Fin 1) (0 : Fin 2) rfl

/-- Column 1 likewise: the block at (p, 1). -/
theorem spread1 (v2 : FVec Ideal S5000x2 .f32) (hs : S5000x2.Slices ![0, 1] S5000x1)
    (hb : S5000x1.Broadcasts S5000x128) (p : Fin 5000) (q : Fin 128) :
    broadcastTo S5000x128 (extractStridedSlice S5000x1 ![0, 1] v2 hs) hb (ix2 p q) = v2 (ix2 p (1 : Fin 2)) := by
  refine (Cert.Lib.Layout.broadcastTo_a1_ab_apply _ hb p q).trans ?_
  exact slice2_axis1_apply 1 v2 hs p (0 : Fin 1) (1 : Fin 2) rfl

/-- The bias vector as one row spread over the 5000 rows, read at (p, q): the bias at q. -/
theorem bias_apply (v18 : FVec Ideal S128 .f32) (hc : S128.ShapeCasts S1x128) (hb : S1x128.Broadcasts S5000x128)
    (p : Fin 5000) (q : Fin 128) :
    broadcastTo S5000x128 (shapeCast S1x128 v18 hc) hb (ix2 p q) = v18 (ix1 q) :=
  (broadcastTo_1b_ab_apply _ hb p q).trans (shapeCast_a_1a_apply v18 hc 0 q)

/-- THE BLOCK'S ACTIVATION at (p, q): both products over the 128 features, the bias, the rectifier, the per-node factor;
    the neighbour features enter multiplied by the reciprocal degree of their row. -/
theorem pay1_apply (v0 : Vec Ideal S5000x128 .f32) (v2 : Vec Ideal S5000x2 .f32) (v6 : Vec Ideal S5000x128 .f32)
    (v11 v13 : Vec Ideal S128x128 .f32) (v18 : Vec Ideal S128 .f32) (p : Fin 5000) (q : Fin 128) :
    k0_pay1 v0 v2 v6 v11 v13 v18 (ix2 p q)
      = max (((∑ j : Fin 128, v0 (ix2 p j) * v11 (ix2 j q))
            + (∑ j : Fin 128, (v6 (ix2 p j) * v2 (ix2 p (1 : Fin 2))) * v13 (ix2 j q))) + v18 (ix1 q)) 0
          * v2 (ix2 p (0 : Fin 2)) := by
  unfold k0_pay1
  simp only [mulf_apply, maximumf_apply, addf_apply, broadcast_apply, matmul_zero_apply, truncf_apply, spread0, spread1, bias_apply, shapeCast_self]
  rw [show (FloatOps.ofBits FTy.f32 0x00000000#32 : Ideal .f32) = 0 from Ideal.ofBits_zero_f32]

/-- The column sum over the block's 5000 rows, read at lane q. -/
theorem colsum_apply (src : FVec Ideal S5000x128 .f32) (h : S5000x128.Reduces [0] S128) (hφ : FKind.Formats .f32)
    (hacc : (0x00000000#32 : BitVec 32) = FKind.add.neutral .f32 hφ) (hc : S128.ShapeCasts S1x1x128) (q : Fin 128) :
    shapeCast S1x1x128 (multiReduction .add [0] S128 src 0x00000000#32 h hφ hacc) hc (ix3 (0 : Fin 1) (0 : Fin 1) q)
      = ∑ p : Fin 5000, src (ix2 p q) := by
  refine (shapeCast_apply _ hc (ix3 (0 : Fin 1) (0 : Fin 1) q) (ix1 q) ?_).trans ?_
  · rw [Shape.rowMajor_val_one, Shape.rowMajor_val_three]
    show q.val = (0 * 1 + 0) * 128 + q.val
    omega
  · refine (Ideal.multiReduction_add_single src 0x00000000#32 h hφ hacc (ix1 q)).trans ?_
    show ∑ p : Fin 5000, src (h.lift (ix1 q) p) = _
    refine Finset.sum_congr rfl fun p _ => congrArg src (funext fun a => Fin.ext ?_)
    match a with
    | ⟨0, _⟩ => rfl
    | ⟨1, _⟩ => rfl

/-- THE BLOCK'S COLUMN SUMS: lane q of the [1, 1, 128] result is the sum of the activation over the block's rows. -/
theorem pay2_apply (v0 : Vec Ideal S5000x128 .f32) (v2 : Vec Ideal S5000x2 .f32) (v6 : Vec Ideal S5000x128 .f32)
    (v11 v13 : Vec Ideal S128x128 .f32) (v18 : Vec Ideal S128 .f32) (q : Fin 128) :
    k0_pay2 v0 v2 v6 v11 v13 v18 (ix3 (0 : Fin 1) (0 : Fin 1) q)
      = ∑ p : Fin 5000, k0_pay1 v0 v2 v6 v11 v13 v18 (ix2 p q) := by
  unfold k0_pay2
  exact colsum_apply _ _ _ _ _ q

/-- THE BLOCK'S COLUMN SUMS OF SQUARES. -/
theorem pay3_apply (v0 : Vec Ideal S5000x128 .f32) (v2 : Vec Ideal S5000x2 .f32) (v6 : Vec Ideal S5000x128 .f32)
    (v11 v13 : Vec Ideal S128x128 .f32) (v18 : Vec Ideal S128 .f32) (q : Fin 128) :
    k0_pay3 v0 v2 v6 v11 v13 v18 (ix3 (0 : Fin 1) (0 : Fin 1) q)
      = ∑ p : Fin 5000, k0_pay1 v0 v2 v6 v11 v13 v18 (ix2 p q) * k0_pay1 v0 v2 v6 v11 v13 v18 (ix2 p q) := by
  unfold k0_pay3
  exact colsum_apply _ _ _ _ _ q

end Cert.KernelIdeal.Region0

end
-- ==== Proof.KRegion0Blocks.lean ====
/-
  The first region's input blocks and the activation they give.

  The grid has 8 points; at point t the three row-blocked inputs (node features, aggregated neighbour features, the packed
  [40000, 2] array of per-node factor and reciprocal degree) are staged as rows 5000t … 5000t + 4999 of their arrays, and the
  two weight matrices and the bias as their whole arrays. So the body's activation at row p of block t is the activation of
  the whole arrays at row 5000t + p: the layer's `act` with the neighbour mean written as aggregate times reciprocal degree.
-/
import proofs.«110230_j58609123721516_2_alg».proof.Proof.Gen.KernelIdeal.Frame
import proofs.«110230_j58609123721516_2_alg».proof.Proof.Spec
import proofs.«110230_j58609123721516_2_alg».proof.Proof.KRegion0Payload
import Idealize.ShloMosaic.Lib.ValueIdx
import Idealize.ShloMosaic.Lib.Pipeline.Value
import Idealize.ShloMosaic.Lib.ValueLayout
import Idealize.ShloMosaic.PureOps.Ideal.Laws

set_option maxRecDepth 16384

open scoped BigOperators

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the row-blocked windows sit at block t, the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The six input arrays as the region finds them, at their plain types. -/
abbrev x0 (c : Dev nD) : S40000x128.Idx → EReal := V c (Pipeline.arrRef spec0 0)
abbrev x1 (c : Dev nD) : S40000x128.Idx → EReal := V c (Pipeline.arrRef spec0 1)
abbrev x2 (c : Dev nD) : S40000x2.Idx → EReal := V c (Pipeline.arrRef spec0 2)
abbrev x3 (c : Dev nD) : S128x128.Idx → EReal := V c (Pipeline.arrRef spec0 3)
abbrev x4 (c : Dev nD) : S128x128.Idx → EReal := V c (Pipeline.arrRef spec0 4)
abbrev x5 (c : Dev nD) : S128.Idx → EReal := V c (Pipeline.arrRef spec0 5)

/-- A grid point as a block number. -/
def blockOf (t : Fin cfg0.N) : Fin 8 := ⟨t.val, Nat.lt_of_lt_of_eq t.isLt (N_0 : cfg0.N = 8)⟩

/-! ## Each input block read at an entry: block t of a row-blocked array holds rows 5000t … 5000t + 4999; the weights' and the
bias's one block is the array -/

theorem iblk0_0_apply (c : Dev nD) (t : Fin cfg0.N) (p : Fin 5000) (j : Fin 128) :
    (iblk0 V c 0 t : Vec Ideal S5000x128 .f32) (ix2 p j) = x0 V c (ix2 (Cert.Sage.blockRow (blockOf t) p) j) := by
  obtain ⟨e0, e1, -⟩ := idx_facts t
  show x0 V c (((cfg0.win 0).blk t).view.emb (ix2 p j)) = _
  refine congrArg (x0 V c) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

theorem iblk0_1_apply (c : Dev nD) (t : Fin cfg0.N) (p : Fin 5000) (j : Fin 128) :
    (iblk0 V c 1 t : Vec Ideal S5000x128 .f32) (ix2 p j) = x1 V c (ix2 (Cert.Sage.blockRow (blockOf t) p) j) := by
  obtain ⟨-, -, e0, e1, -⟩ := idx_facts t
  show x1 V c (((cfg0.win 1).blk t).view.emb (ix2 p j)) = _
  refine congrArg (x1 V c) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * j.val = j.val; rw [e1]; omega

theorem iblk0_2_apply (c : Dev nD) (t : Fin cfg0.N) (p : Fin 5000) (j : Fin 2) :
    (iblk0 V c 2 t : Vec Ideal S5000x2 .f32) (ix2 p j) = x2 V c (ix2 (Cert.Sage.blockRow (blockOf t) p) j) := by
  obtain ⟨-, -, -, -, e0, e1, -⟩ := idx_facts t
  show x2 V c (((cfg0.win 2).blk t).view.emb (ix2 p j)) = _
  refine congrArg (x2 V c) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 2 + 1 * j.val = j.val; rw [e1]; omega

theorem iblk0_3_apply (c : Dev nD) (t : Fin cfg0.N) (p : Fin 128) (j : Fin 128) :
    (iblk0 V c 3 t : Vec Ideal S128x128 .f32) (ix2 p j) = x3 V c (ix2 p j) := by
  obtain ⟨-, -, -, -, -, -, e0, e1, -⟩ := idx_facts t
  show x3 V c (((cfg0.win 3).blk t).view.emb (ix2 p j)) = _
  refine congrArg (x3 V c) (funext fun a => Fin.ext ?_)
  match a with
  | ⟨0, _⟩ => show win0_3.index t (0 : Fin 2) * 128 + 1 * p.val = p.val; rw [e0]; omega
  | ⟨1, _⟩ => show win0_3.index t (1 : Fin 2) * 128 + 1 * j.val = j.val; rw [e1]; omega

theorem iblk0_4_apply (c : Dev nD) (t : Fin cfg0.N) (p : Fin 128) (j : Fin 128) :
    (iblk0 V c 4 t : Vec Ideal S128x128 .f32) (ix2 p j) = x4 V c (ix2 p j) := by
  obtain ⟨-, -, -, -, -, -, -, -, e0, e1, -⟩ := idx_facts t
  show x4 V c (((cfg0.win 4).blk t).view.emb (ix2 p j)) = _
  refine congrArg (x4 V c) (funext fun a => Fin.ext ?_)
  match a with
  | ⟨0, _⟩ => show win0_4.index t (0 : Fin 2) * 128 + 1 * p.val = p.val; rw [e0]; omega
  | ⟨1, _⟩ => show win0_4.index t (1 : Fin 2) * 128 + 1 * j.val = j.val; rw [e1]; omega

theorem iblk0_5_apply (c : Dev nD) (t : Fin cfg0.N) (j : Fin 128) :
    (iblk0 V c 5 t : Vec Ideal S128 .f32) (ix1 j) = x5 V c (ix1 j) := by
  obtain ⟨-, -, -, -, -, -, -, -, -, -, e0, -⟩ := idx_facts t
  show x5 V c (((cfg0.win 5).blk t).view.emb (ix1 j)) = _
  refine congrArg (x5 V c) (funext fun a => Fin.ext ?_)
  match a with
  | ⟨0, _⟩ => show win0_5.index t (0 : Fin 1) * 128 + 1 * j.val = j.val; rw [e0]; omega

/-! ## The region's three results -/

/-- The activation over all 40000 rows, from the six arrays: the neighbour features times the reciprocal degree stand for
    the neighbour mean. -/
def uOf (x0 x1 : S40000x128.Idx → EReal) (x2 : S40000x2.Idx → EReal) (x3 x4 : S128x128.Idx → EReal) (x5 : S128.Idx → EReal) :
    Fin 40000 → Fin 128 → EReal :=
  Cert.Sage.act (Cert.Sage.c2 x0) (fun n => x2 (ValueIdx.ix2 n (0 : Fin 2))) (Cert.Sage.c2 x3) (Cert.Sage.c2 x4) (Cert.Sage.c1 x5)
    (fun n j => x1 (ValueIdx.ix2 n j) * x2 (ValueIdx.ix2 n (1 : Fin 2)))

/-- The body's activation at row p of block t is the whole-array activation at row 5000t + p. -/
theorem act_block (c : Dev nD) (t : Fin cfg0.N) (p : Fin 5000) (q : Fin 128) :
    k0_pay1 (iblk0 V c 0 t) (iblk0 V c 2 t) (iblk0 V c 1 t) (iblk0 V c 3 t) (iblk0 V c 4 t) (iblk0 V c 5 t) (ix2 p q)
      = uOf (x0 V c) (x1 V c) (x2 V c) (x3 V c) (x4 V c) (x5 V c) (Cert.Sage.blockRow (blockOf t) p) q := by
  refine (pay1_apply (iblk0 V c 0 t) (iblk0 V c 2 t) (iblk0 V c 1 t) (iblk0 V c 3 t) (iblk0 V c 4 t) (iblk0 V c 5 t) p q).trans ?_
  unfold uOf Cert.Sage.act Cert.Sage.c2 Cert.Sage.c1
  simp only [iblk0_0_apply V c t, iblk0_1_apply V c t, iblk0_2_apply V c t, iblk0_3_apply V c t, iblk0_4_apply V c t, iblk0_5_apply V c t]

end Cert.KernelIdeal.Region0

end
-- ==== Proof.KRegion0Act.lean ====
/-
  The first result of the first region: after the 8 write-backs the [40000, 128] array holds the activation entry by entry.

  Point t writes back its block of activations to rows 5000t … 5000t + 4999, which is block t of the whole-array activation;
  row r lies in the block of point r / 5000, so the 8 blocks cover the array.
-/
import proofs.«110230_j58609123721516_2_alg».proof.Proof.KRegion0Blocks

set_option maxRecDepth 16384

open scoped BigOperators

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Window 6: the activation array -/

/-- The array the first result ends holding: the activation at (row, lane). -/
def G6 (c : Dev nD) : S40000x128.Idx → EReal := fun i =>
  uOf (x0 V c) (x1 V c) (x2 V c) (x3 V c) (x4 V c) (x5 V c) ⟨(i 0).val, idx2_lt0 i⟩ ⟨(i 1).val, idx2_lt1 i⟩

/-- What point t writes back is block t of that array. -/
theorem flushed6_eq (c : Dev nD) (t : Fin cfg0.N) :
    (dat0 (F := Ideal) V c).flushed 6 t = ((cfg0.win 6).blk t).view.read (Elt Ideal) (G6 V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x2) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k0_pay1 (iblk0 V c 0 t) (iblk0 V c 2 t) (iblk0 V c 1 t) (iblk0 V c 3 t) (iblk0 V c 4 t) (iblk0 V c 5 t) (ix2 p q)
    = G6 V c (((cfg0.win 6).blk t).view.emb (ix2 p q))
  refine (act_block V c t p q).trans ?_
  obtain ⟨-, -, -, -, -, -, -, -, -, -, -, e0, e1, -⟩ := idx_facts t
  unfold G6
  refine congrArg₂ (uOf (x0 V c) (x1 V c) (x2 V c) (x3 V c) (x4 V c) (x5 V c)) (Fin.ext ?_) (Fin.ext ?_)
  · show t.val * 5000 + p.val = win0_6.index t (0 : Fin 2) * 5000 + 1 * p.val; rw [e0]; omega
  · show q.val = win0_6.index t (1 : Fin 2) * 128 + 1 * q.val; rw [e1]; omega

/-- An index of the array is in point t's block iff each coordinate is in the block's range on its axis. -/
theorem mem_blk6 (t : Fin cfg0.N) (i : S40000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v30_0).slice (win0_6.rect t)).set ↔ _
  rw [View.set_slice_whole, Rect.mem_set_unit]
  exact Iff.rfl

/-- Row r lies in the block of point r / 5000. -/
theorem cover6 (i : S40000x128.Idx) : ∃ t : Fin cfg0.N, (cfg0.win 6).flush t = true ∧ i ∈ ((cfg0.win 6).blk t).view.set := by
  have hi0 : (i 0).val < 40000 := idx2_lt0 i
  have hi1 : (i 1).val < 128 := idx2_lt1 i
  have hN : cfg0.N = 8 := N_0
  refine ⟨⟨(i 0).val / 5000, by rw [hN]; omega⟩, flush0_6 _, ?_⟩
  rw [mem_blk6]
  obtain ⟨-, -, -, -, -, -, -, -, -, -, -, e0, e1, -⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- THE FIRST RESULT after the region: the activation, entry by entry. -/
theorem arr6 (c : Dev nD) (n : Fin 40000) (k : Fin 128) :
    (dat0 (F := Ideal) V c).arrAt 6 cfg0.N (ix2 n k) = uOf (x0 V c) (x1 V c) (x2 V c) (x3 V c) (x4 V c) (x5 V c) n k :=
  congrFun ((dat0 (F := Ideal) V c).arrAt_eq_of_cover 6 (G6 V c) (fun t _ => flushed6_eq V c t) cover6) (ix2 n k)

end Cert.KernelIdeal.Region0

end
-- ==== Proof.KRegion0Sums.lean ====
/-
  The second and third results of the first region: per block of 5000 rows, the column sums of the activation and of its
  square.

  Point t reduces its block's activation over the 5000 rows, lane by lane, and writes the [1, 1, 128] result back as row t of an
  [8, 1, 128] array; by the block-to-array reading of the activation, lane k of row t is the sum over r < 5000 of the
  whole-array activation (or its square) at row 5000t + r. Row t of the array is exactly the block of point t, so the 8 blocks
  cover it.
-/
import proofs.«110230_j58609123721516_2_alg».proof.Proof.KRegion0Blocks

set_option maxRecDepth 16384

open scoped BigOperators

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Window 7: the blocks' column sums -/

/-- The [8, 1, 128] array the result ends holding: at (t, 0, k), block t's sum of activations in lane k. -/
def G7 (c : Dev nD) : S8x1x128.Idx → EReal := fun i =>
  Cert.Sage.blockSum (uOf (x0 V c) (x1 V c) (x2 V c) (x3 V c) (x4 V c) (x5 V c)) ⟨(i 0).val, (i 0).isLt⟩ ⟨(i 2).val, (i 2).isLt⟩

/-- What point t writes back is block t of that array. -/
theorem flushed7_eq (c : Dev nD) (t : Fin cfg0.N) :
    (dat0 (F := Ideal) V c).flushed 7 t = ((cfg0.win 7).blk t).view.read (Elt Ideal) (G7 V c) := by
  show (cfg0.win 7).cut (grid0.coords t) ((dat0 V c).after 7 t) = _
  rw [after0_7]
  unfold out0_7
  rw [View.canon_unit_zero hz3]
  simp only [View.ld_unit_zero (S := S5000x128) hz2, View.ld_unit_zero (S := S5000x2) hz2, View.ld_unit_zero (S := S128x128) hz2, View.ld_unit_zero (S := S128) hz1]
  funext j
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show k0_pay2 (iblk0 V c 0 t) (iblk0 V c 2 t) (iblk0 V c 1 t) (iblk0 V c 3 t) (iblk0 V c 4 t) (iblk0 V c 5 t) (ix3 (0 : Fin 1) (0 : Fin 1) q)
    = G7 V c (((cfg0.win 7).blk t).view.emb (ix3 (0 : Fin 1) (0 : Fin 1) q))
  refine (pay2_apply (iblk0 V c 0 t) (iblk0 V c 2 t) (iblk0 V c 1 t) (iblk0 V c 3 t) (iblk0 V c 4 t) (iblk0 V c 5 t) q).trans ?_
  obtain ⟨-, -, -, -, -, -, -, -, -, -, -, -, -, e0, e1, e2, -⟩ := idx_facts t
  unfold G7 Cert.Sage.blockSum
  refine Finset.sum_congr rfl fun p _ => ?_
  rw [act_block V c t p q]
  have hrow : Cert.Sage.blockRow (blockOf t) p
      = Cert.Sage.blockRow ⟨((((cfg0.win 7).blk t).view.emb (ix3 (0 : Fin 1) (0 : Fin 1) q)) 0).val, ((((cfg0.win 7).blk t).view.emb (ix3 (0 : Fin 1) (0 : Fin 1) q)) 0).isLt⟩ p := by
    refine congrArg (fun b => Cert.Sage.blockRow b p) (Fin.ext ?_)
    show t.val = win0_7.index t (0 : Fin 3) * 1 + 1 * 0; rw [e0]; omega
  have hlane : q = ⟨((((cfg0.win 7).blk t).view.emb (ix3 (0 : Fin 1) (0 : Fin 1) q)) 2).val, ((((cfg0.win 7).blk t).view.emb (ix3 (0 : Fin 1) (0 : Fin 1) q)) 2).isLt⟩ := by
    refine Fin.ext ?_
    show q.val = win0_7.index t (2 : Fin 3) * 128 + 1 * q.val; rw [e2]; omega
  rw [← hrow, ← hlane]

/-- An index of the array is in point t's block iff each coordinate is in the block's range on its axis. -/
theorem mem_blk7 (t : Fin cfg0.N) (i : S8x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v30_1).slice (win0_7.rect t)).set ↔ _
  rw [View.set_slice_whole, Rect.mem_set_unit]
  exact Iff.rfl

/-- Row t of the array is the block of point t. -/
theorem cover7 (i : S8x1x128.Idx) : ∃ t : Fin cfg0.N, (cfg0.win 7).flush t = true ∧ i ∈ ((cfg0.win 7).blk t).view.set := by
  have hi0 : (i 0).val < 8 := (i 0).isLt
  have hi1 : (i 1).val < 1 := (i 1).isLt
  have hi2 : (i 2).val < 128 := (i 2).isLt
  have hN : cfg0.N = 8 := N_0
  refine ⟨⟨(i 0).val, by rw [hN]; exact hi0⟩, flush0_7 _, ?_⟩
  rw [mem_blk7]
  obtain ⟨-, -, -, -, -, -, -, -, -, -, -, -, -, e0, e1, e2, -⟩ := idx_facts ⟨(i 0).val, by rw [hN]; exact hi0⟩
  intro a
  match a with
  | ⟨0, _⟩ =>
    show win0_7.index _ (0 : Fin 3) * 1 ≤ (i 0).val ∧ (i 0).val < win0_7.index _ (0 : Fin 3) * 1 + 1
    rw [e0]; show (i 0).val * 1 ≤ (i 0).val ∧ (i 0).val < (i 0).val * 1 + 1; omega
  | ⟨1, _⟩ =>
    show win0_7.index _ (1 : Fin 3) * 1 ≤ (i 1).val ∧ (i 1).val < win0_7.index _ (1 : Fin 3) * 1 + 1
    rw [e1]; omega
  | ⟨2, _⟩ =>
    show win0_7.index _ (2 : Fin 3) * 128 ≤ (i 2).val ∧ (i 2).val < win0_7.index _ (2 : Fin 3) * 128 + 128
    rw [e2]; omega

/-- THE SECOND RESULT after the region: each block's column sums of the activation. -/
theorem arr7 (c : Dev nD) (t : Fin 8) (k : Fin 128) :
    (dat0 (F := Ideal) V c).arrAt 7 cfg0.N (ix3 t (0 : Fin 1) k)
      = Cert.Sage.blockSum (uOf (x0 V c) (x1 V c) (x2 V c) (x3 V c) (x4 V c) (x5 V c)) t k :=
  congrFun ((dat0 (F := Ideal) V c).arrAt_eq_of_cover 7 (G7 V c) (fun t _ => flushed7_eq V c t) cover7) (ix3 t (0 : Fin 1) k)

/-! ## Window 8: the blocks' column sums of squares -/

/-- The [8, 1, 128] array the result ends holding: at (t, 0, k), block t's sum of squared activations in lane k. -/
def G8 (c : Dev nD) : S8x1x128.Idx → EReal := fun i =>
  Cert.Sage.blockSumSq (uOf (x0 V c) (x1 V c) (x2 V c) (x3 V c) (x4 V c) (x5 V c)) ⟨(i 0).val, (i 0).isLt⟩ ⟨(i 2).val, (i 2).isLt⟩

/-- What point t writes back is block t of that array. -/
theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 V c).after 8 t) = _
  rw [after0_8]
  unfold out0_8
  rw [View.canon_unit_zero hz3]
  simp only [View.ld_unit_zero (S := S5000x128) hz2, View.ld_unit_zero (S := S5000x2) hz2, View.ld_unit_zero (S := S128x128) hz2, View.ld_unit_zero (S := S128) hz1]
  funext j
  obtain ⟨a, b, q, rfl⟩ : ∃ (a : Fin 1) (b : Fin 1) (q : Fin 128), j = ix3 a b q := ⟨j 0, j 1, j 2, eq_ix3 j⟩
  obtain rfl : a = 0 := Subsingleton.elim _ _
  obtain rfl : b = 0 := Subsingleton.elim _ _
  show k0_pay3 (iblk0 V c 0 t) (iblk0 V c 2 t) (iblk0 V c 1 t) (iblk0 V c 3 t) (iblk0 V c 4 t) (iblk0 V c 5 t) (ix3 (0 : Fin 1) (0 : Fin 1) q)
    = G8 V c (((cfg0.win 8).blk t).view.emb (ix3 (0 : Fin 1) (0 : Fin 1) q))
  refine (pay3_apply (iblk0 V c 0 t) (iblk0 V c 2 t) (iblk0 V c 1 t) (iblk0 V c 3 t) (iblk0 V c 4 t) (iblk0 V c 5 t) q).trans ?_
  obtain ⟨-, -, -, -, -, -, -, -, -, -, -, -, -, -, -, -, e0, e1, e2⟩ := idx_facts t
  unfold G8 Cert.Sage.blockSumSq
  refine Finset.sum_congr rfl fun p _ => ?_
  rw [act_block V c t p q]
  have hrow : Cert.Sage.blockRow (blockOf t) p
      = Cert.Sage.blockRow ⟨((((cfg0.win 8).blk t).view.emb (ix3 (0 : Fin 1) (0 : Fin 1) q)) 0).val, ((((cfg0.win 8).blk t).view.emb (ix3 (0 : Fin 1) (0 : Fin 1) q)) 0).isLt⟩ p := by
    refine congrArg (fun b => Cert.Sage.blockRow b p) (Fin.ext ?_)
    show t.val = win0_8.index t (0 : Fin 3) * 1 + 1 * 0; rw [e0]; omega
  have hlane : q = ⟨((((cfg0.win 8).blk t).view.emb (ix3 (0 : Fin 1) (0 : Fin 1) q)) 2).val, ((((cfg0.win 8).blk t).view.emb (ix3 (0 : Fin 1) (0 : Fin 1) q)) 2).isLt⟩ := by
    refine Fin.ext ?_
    show q.val = win0_8.index t (2 : Fin 3) * 128 + 1 * q.val; rw [e2]; omega
  rw [← hrow, ← hlane]

/-- An index of the array is in point t's block iff each coordinate is in the block's range on its axis. -/
theorem mem_blk8 (t : Fin cfg0.N) (i : S8x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v30_2).slice (win0_8.rect t)).set ↔ _
  rw [View.set_slice_whole, Rect.mem_set_unit]
  exact Iff.rfl

/-- Row t of the array is the block of point t. -/
theorem cover8 (i : S8x1x128.Idx) : ∃ t : Fin cfg0.N, (cfg0.win 8).flush t = true ∧ i ∈ ((cfg0.win 8).blk t).view.set := by
  have hi0 : (i 0).val < 8 := (i 0).isLt
  have hi1 : (i 1).val < 1 := (i 1).isLt
  have hi2 : (i 2).val < 128 := (i 2).isLt
  have hN : cfg0.N = 8 := N_0
  refine ⟨⟨(i 0).val, by rw [hN]; exact hi0⟩, flush0_8 _, ?_⟩
  rw [mem_blk8]
  obtain ⟨-, -, -, -, -, -, -, -, -, -, -, -, -, -, -, -, e0, e1, e2⟩ := idx_facts ⟨(i 0).val, by rw [hN]; exact hi0⟩
  intro a
  match a with
  | ⟨0, _⟩ =>
    show win0_8.index _ (0 : Fin 3) * 1 ≤ (i 0).val ∧ (i 0).val < win0_8.index _ (0 : Fin 3) * 1 + 1
    rw [e0]; show (i 0).val * 1 ≤ (i 0).val ∧ (i 0).val < (i 0).val * 1 + 1; omega
  | ⟨1, _⟩ =>
    show win0_8.index _ (1 : Fin 3) * 1 ≤ (i 1).val ∧ (i 1).val < win0_8.index _ (1 : Fin 3) * 1 + 1
    rw [e1]; omega
  | ⟨2, _⟩ =>
    show win0_8.index _ (2 : Fin 3) * 128 ≤ (i 2).val ∧ (i 2).val < win0_8.index _ (2 : Fin 3) * 128 + 128
    rw [e2]; omega

/-- THE THIRD RESULT after the region: each block's column sums of the squared activation. -/
theorem arr8 (c : Dev nD) (t : Fin 8) (k : Fin 128) :
    (dat0 (F := Ideal) V c).arrAt 8 cfg0.N (ix3 t (0 : Fin 1) k)
      = Cert.Sage.blockSumSq (uOf (x0 V c) (x1 V c) (x2 V c) (x3 V c) (x4 V c) (x5 V c)) t k :=
  congrFun ((dat0 (F := Ideal) V c).arrAt_eq_of_cover 8 (G8 V c) (fun t _ => flushed8_eq V c t) cover8) (ix3 t (0 : Fin 1) k)

end Cert.KernelIdeal.Region0

end
-- ==== Proof.KRegion0.lean ====
/-
  The first region of the kernel program, read as values: after its 8 grid points the three result arrays hold, entry by entry,
  the layer's activation over all 40000 rows (`arr6`), each block's column sums of it (`arr7`) and each block's column sums of
  its square (`arr8`), as functions of the six input arrays as the region finds them. The pieces: one block's arithmetic
  (KRegion0Payload), the input blocks as rows of their arrays (KRegion0Blocks), and the write-backs assembled into the arrays
  (KRegion0Act, KRegion0Sums).
-/
import proofs.«110230_j58609123721516_2_alg».proof.Proof.KRegion0Payload
import proofs.«110230_j58609123721516_2_alg».proof.Proof.KRegion0Blocks
import proofs.«110230_j58609123721516_2_alg».proof.Proof.KRegion0Act
import proofs.«110230_j58609123721516_2_alg».proof.Proof.KRegion0Sums
-- ==== Proof.KRegion1.lean ====
/-
  The second region of the kernel program, read as one function of its inputs.

  The region walks 8 grid points; point t stages rows 5000·t … 5000·t + 4999 of two [40000, 128] arrays (the
  activation u and the node features h), the one row of a [1, 128] scale and the one row of a [1, 128] shift, and
  writes back rows 5000·t … of the result. The body is pointwise: entry (p, q) of the block it stores is
  (u(p, q) · scale(0, q) + shift(0, q)) + h(p, q). Since the 8 row blocks tile the 40000 rows, the result array after
  the region is, at every (n, k), (u(n, k) · scale(0, k) + shift(0, k)) + h(n, k) of the four arrays as the region
  finds them. A block's row coordinate in the array is always (block index) · 5000 + 1 · (row inside the block);
  the row n lies in the block of point n / 5000.
-/
import proofs.«110230_j58609123721516_2_alg».proof.Proof.Gen.KernelIdeal.Frame
import proofs.«110230_j58609123721516_2_alg».proof.Proof.Spec
import Idealize.ShloMosaic.Lib.ValueIdx
import Idealize.ShloMosaic.Lib.Pipeline.Value
import Idealize.ShloMosaic.Lib.ValueLayout

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

/-- The two zero offsets of a whole-block access, as the constant function. -/
theorem hz : (![0, 0] : Fin 2 → Nat) = fun _ => 0 := funext fun a => by fin_cases a <;> rfl

/-- One entry of the result from one entry of each operand. -/
def comb (a b c d : EReal) : EReal := (a * b + c) + d

/-- The body's arithmetic at one entry of a block. -/
theorem pay_apply (x0 x1 : Vec Ideal S5000x128 .f32) (x2 x3 : Vec Ideal S1x128 .f32) (p : Fin 5000) (q : Fin 128) :
    Gen.k1_pay1 x0 x2 x3 x1 (ix2 p q)
      = comb (x0 (ix2 p q)) (x2 (ix2 (0 : Fin 1) q)) (x3 (ix2 (0 : Fin 1) q)) (x1 (ix2 p q)) := by
  unfold Gen.k1_pay1 comb
  simp only [shapeCast_self]
  rw [addf_apply, addf_apply, mulf_apply, broadcastTo_1b_ab_apply, broadcastTo_1b_ab_apply]

/-- The same at an index not yet split into coordinates. -/
theorem pay_at (x0 x1 : Vec Ideal S5000x128 .f32) (x2 x3 : Vec Ideal S1x128 .f32) (j : S5000x128.Idx) :
    Gen.k1_pay1 x0 x2 x3 x1 j
      = comb (x0 j) (x2 (ix2 (0 : Fin 1) (j 1 : Fin 128))) (x3 (ix2 (0 : Fin 1) (j 1 : Fin 128))) (x1 j) := by
  obtain ⟨p, q, rfl⟩ : ∃ (p : Fin 5000) (q : Fin 128), j = ix2 p q := ⟨j 0, j 1, eq_ix2 j⟩
  exact pay_apply x0 x1 x2 x3 p q

/-- The result array as a function of the four input arrays: entry (n, k) from u(n, k), the scale and the shift at
    column k, and h(n, k). -/
def G (a0 a1 : S40000x128.Idx → EReal) (a2 a3 : S1x128.Idx → EReal) : S40000x128.Idx → EReal :=
  fun i => comb (a0 i) (a2 (ix2 (0 : Fin 1) (i 1 : Fin 128))) (a3 (ix2 (0 : Fin 1) (i 1 : Fin 128))) (a1 i)

/-- Equal operands give equal entries. -/
theorem comb_congr {a a' b b' c c' d d' : EReal} (ha : a = a') (hb : b = b') (hc : c = c') (hd : d = d') :
    comb a b c d = comb a' b' c' d' := by subst ha hb hc hd; rfl

/-- The block indices over the grid: the two big inputs move with the output (block t along the rows, block 0 along the
    columns), the scale and the shift stay at block (0, 0). -/
theorem idx_facts : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- A block of the first operand read where the output's block reads: the same rows of the array. -/
theorem read0 (c : Dev nD) (t : Fin cfg1.N) (j : ((win1 4).xblock (grid1.coords t)).Idx) :
    Gen.iblk1 V c 0 t ((win1 4).xinj (grid1.coords t) j) = V c (Pipeline.arrRef spec1 0) (((cfg1.win 4).blk t).view.emb j) := by
  obtain ⟨e00, e01, e10, e11, e20, e21, e30, e31, e40, e41⟩ := idx_facts t
  show V c (Pipeline.arrRef spec1 0) (((cfg1.win 0).blk t).view.emb ((win1 4).xinj (grid1.coords t) j)) = V c (Pipeline.arrRef spec1 0) (((cfg1.win 4).blk t).view.emb j)
  refine congrArg (V c (Pipeline.arrRef spec1 0)) ?_
  funext a; apply Fin.ext
  match a with
  | ⟨0, _⟩ => show win1_0.index t (0 : Fin 2) * 5000 + 1 * (j 0).val = win1_4.index t (0 : Fin 2) * 5000 + 1 * (j 0).val; rw [e00]
  | ⟨1, _⟩ => show win1_0.index t (1 : Fin 2) * 128 + 1 * (j 1).val = win1_4.index t (1 : Fin 2) * 128 + 1 * (j 1).val; rw [e01]

/-- A block of the residual operand read where the output's block reads: the same rows of the array. -/
theorem read1 (c : Dev nD) (t : Fin cfg1.N) (j : ((win1 4).xblock (grid1.coords t)).Idx) :
    Gen.iblk1 V c 1 t ((win1 4).xinj (grid1.coords t) j) = V c (Pipeline.arrRef spec1 1) (((cfg1.win 4).blk t).view.emb j) := by
  obtain ⟨e00, e01, e10, e11, e20, e21, e30, e31, e40, e41⟩ := idx_facts t
  show V c (Pipeline.arrRef spec1 1) (((cfg1.win 1).blk t).view.emb ((win1 4).xinj (grid1.coords t) j)) = V c (Pipeline.arrRef spec1 1) (((cfg1.win 4).blk t).view.emb j)
  refine congrArg (V c (Pipeline.arrRef spec1 1)) ?_
  funext a; apply Fin.ext
  match a with
  | ⟨0, _⟩ => show win1_1.index t (0 : Fin 2) * 5000 + 1 * (j 0).val = win1_4.index t (0 : Fin 2) * 5000 + 1 * (j 0).val; rw [e10]
  | ⟨1, _⟩ => show win1_1.index t (1 : Fin 2) * 128 + 1 * (j 1).val = win1_4.index t (1 : Fin 2) * 128 + 1 * (j 1).val; rw [e11]

/-- The one row of the scale, read at the output entry's column: every point stages the same row. -/
theorem read2 (c : Dev nD) (t : Fin cfg1.N) (j : ((win1 4).xblock (grid1.coords t)).Idx) :
    Gen.iblk1 V c 2 t (ix2 (0 : Fin 1) ((win1 4).xinj (grid1.coords t) j 1 : Fin 128))
      = V c (Pipeline.arrRef spec1 2) (ix2 (0 : Fin 1) ((((cfg1.win 4).blk t).view.emb j) 1 : Fin 128)) := by
  obtain ⟨e00, e01, e10, e11, e20, e21, e30, e31, e40, e41⟩ := idx_facts t
  show V c (Pipeline.arrRef spec1 2) (((cfg1.win 2).blk t).view.emb (ix2 (0 : Fin 1) ((win1 4).xinj (grid1.coords t) j 1 : Fin 128))) = V c (Pipeline.arrRef spec1 2) (ix2 (0 : Fin 1) ((((cfg1.win 4).blk t).view.emb j) 1 : Fin 128))
  refine congrArg (V c (Pipeline.arrRef spec1 2)) ?_
  funext a; apply Fin.ext
  match a with
  | ⟨0, _⟩ => show win1_2.index t (0 : Fin 2) * 1 + 1 * 0 = 0; rw [e20]
  | ⟨1, _⟩ => show win1_2.index t (1 : Fin 2) * 128 + 1 * (j 1).val = win1_4.index t (1 : Fin 2) * 128 + 1 * (j 1).val; rw [e21, e41]

/-- The one row of the shift, read at the output entry's column. -/
theorem read3 (c : Dev nD) (t : Fin cfg1.N) (j : ((win1 4).xblock (grid1.coords t)).Idx) :
    Gen.iblk1 V c 3 t (ix2 (0 : Fin 1) ((win1 4).xinj (grid1.coords t) j 1 : Fin 128))
      = V c (Pipeline.arrRef spec1 3) (ix2 (0 : Fin 1) ((((cfg1.win 4).blk t).view.emb j) 1 : Fin 128)) := by
  obtain ⟨e00, e01, e10, e11, e20, e21, e30, e31, e40, e41⟩ := idx_facts t
  show V c (Pipeline.arrRef spec1 3) (((cfg1.win 3).blk t).view.emb (ix2 (0 : Fin 1) ((win1 4).xinj (grid1.coords t) j 1 : Fin 128))) = V c (Pipeline.arrRef spec1 3) (ix2 (0 : Fin 1) ((((cfg1.win 4).blk t).view.emb j) 1 : Fin 128))
  refine congrArg (V c (Pipeline.arrRef spec1 3)) ?_
  funext a; apply Fin.ext
  match a with
  | ⟨0, _⟩ => show win1_3.index t (0 : Fin 2) * 1 + 1 * 0 = 0; rw [e30]
  | ⟨1, _⟩ => show win1_3.index t (1 : Fin 2) * 128 + 1 * (j 1).val = win1_4.index t (1 : Fin 2) * 128 + 1 * (j 1).val; rw [e31, e41]

/-- What point `t` writes back is block `t` of `G` of the four arrays as the region finds them. -/
theorem flushed_eq (c : Dev nD) (t : Fin cfg1.N) :
    (Gen.dat1 (F := Ideal) V c).flushed 4 t
      = ((cfg1.win 4).blk t).view.read (Elt Ideal)
          (G (V c (Pipeline.arrRef spec1 0)) (V c (Pipeline.arrRef spec1 1)) (V c (Pipeline.arrRef spec1 2)) (V c (Pipeline.arrRef spec1 3))) := by
  show (cfg1.win 4).cut (grid1.coords t) ((Gen.dat1 V c).after 4 t) = _
  rw [Gen.after1_4]
  unfold Gen.out1_4
  rw [View.canon_unit_zero hz]
  simp only [View.ld_unit_zero (S := S5000x128) hz, View.ld_unit_zero (S := S1x128) hz]
  funext j
  refine (pay_at (Gen.iblk1 V c 0 t) (Gen.iblk1 V c 1 t) (Gen.iblk1 V c 2 t) (Gen.iblk1 V c 3 t) ((win1 4).xinj (grid1.coords t) j)).trans ?_
  exact comb_congr (read0 V c t j) (read2 V c t j) (read3 V c t j) (read1 V c t j)

/-- An index of the array is in point `t`'s block iff each coordinate is in the block's range on its axis. -/
theorem mem_blk (t : Fin cfg1.N) (i : S40000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v52).slice (win1_4.rect t)).set ↔ _
  rw [View.set_slice_whole, Rect.mem_set_unit]
  exact Iff.rfl

/-- Every row lies in the block of the point numbered by its quotient by 5000. -/
theorem cover (i : S40000x128.Idx) : ∃ t : Fin cfg1.N, (cfg1.win 4).flush t = true ∧ i ∈ ((cfg1.win 4).blk t).view.set := by
  have hi0 : (i 0).val < 40000 := (i 0).isLt
  have hi1 : (i 1).val < 128 := (i 1).isLt
  have hN : cfg1.N = 8 := Gen.N_1
  let t : Fin cfg1.N := ⟨(i 0).val / 5000, by rw [hN]; omega⟩
  obtain ⟨e00, e01, e10, e11, e20, e21, e30, e31, e40, e41⟩ := idx_facts t
  refine ⟨t, Gen.flush1_4 t, ?_⟩
  rw [mem_blk]
  intro a
  match a with
  | ⟨0, _⟩ => show win1_4.index t (0 : Fin 2) * 5000 ≤ (i 0).val ∧ (i 0).val < win1_4.index t (0 : Fin 2) * 5000 + 5000; rw [e40]; show (i 0).val / 5000 * 5000 ≤ (i 0).val ∧ (i 0).val < (i 0).val / 5000 * 5000 + 5000; omega
  | ⟨1, _⟩ => show win1_4.index t (1 : Fin 2) * 128 ≤ (i 1).val ∧ (i 1).val < win1_4.index t (1 : Fin 2) * 128 + 128; rw [e41]; omega

/-- The result array after the region, as one function of the four input arrays. -/
theorem arr4_fun (c : Dev nD) :
    (Gen.dat1 (F := Ideal) V c).arrAt 4 cfg1.N
      = G (V c (Pipeline.arrRef spec1 0)) (V c (Pipeline.arrRef spec1 1)) (V c (Pipeline.arrRef spec1 2)) (V c (Pipeline.arrRef spec1 3)) :=
  (Gen.dat1 (F := Ideal) V c).arrAt_eq_of_cover 4 _ (fun t _ => flushed_eq V c t) cover

/-- The four input arrays as the region finds them, at their plain types. -/
abbrev y0 (c : Dev nD) : S40000x128.Idx → EReal := V c (Pipeline.arrRef spec1 0)
abbrev y1 (c : Dev nD) : S40000x128.Idx → EReal := V c (Pipeline.arrRef spec1 1)
abbrev y2 (c : Dev nD) : S1x128.Idx → EReal := V c (Pipeline.arrRef spec1 2)
abbrev y3 (c : Dev nD) : S1x128.Idx → EReal := V c (Pipeline.arrRef spec1 3)

/-- Entry (n, k) of the result array after the region, the four input arrays named by the caller. -/
theorem arr4_of (c : Dev nD) (a0 a1 : S40000x128.Idx → EReal) (a2 a3 : S1x128.Idx → EReal)
    (h0 : a0 = V c (Pipeline.arrRef spec1 0)) (h1 : a1 = V c (Pipeline.arrRef spec1 1))
    (h2 : a2 = V c (Pipeline.arrRef spec1 2)) (h3 : a3 = V c (Pipeline.arrRef spec1 3)) (n : Fin 40000) (k : Fin 128) :
    (Gen.dat1 (F := Ideal) V c).arrAt 4 cfg1.N (ValueIdx.ix2 n k)
      = (a0 (ValueIdx.ix2 n k) * a2 (ValueIdx.ix2 (0 : Fin 1) k) + a3 (ValueIdx.ix2 (0 : Fin 1) k)) + a1 (ValueIdx.ix2 n k) := by
  subst h0 h1 h2 h3
  exact congrFun (arr4_fun V c) (ValueIdx.ix2 n k)

/-- Entry (n, k) of the result array after the region. -/
theorem arr4 (c : Dev nD) (n : Fin 40000) (k : Fin 128) :
    (Gen.dat1 (F := Ideal) V c).arrAt 4 cfg1.N (ValueIdx.ix2 n k)
      = (y0 V c (ValueIdx.ix2 n k) * y2 V c (ValueIdx.ix2 (0 : Fin 1) k) + y3 V c (ValueIdx.ix2 (0 : Fin 1) k)) + y1 V c (ValueIdx.ix2 n k) :=
  arr4_of V c _ _ _ _ rfl rfl rfl rfl n k

end Cert.KernelIdeal.Region1

end
-- ==== Proof.KernelValue.lean ====
/-
  The kernel program's result, entry by entry, as the layer's block-sum arrangement of the launch memory.

  The second grid writes, at row n and column k, pre(n, k) · scale(k) + shift(k) + h(n, k). Its inputs are: pre, the
  first grid's first output, which is the activation u of the launched arrays (with the neighbour mean taken by the
  reciprocal of the clamped degree, the degree and the aggregate being the host's scatter-adds along the wrapped
  target list); h, the launched features; and scale and shift, which the host computes between the grids from the
  first grid's block sums of u and of u². Substituting each into the next gives the block-sum arrangement of the layer.
-/
import proofs.«110230_j58609123721516_2_alg».proof.Proof.KEntry
import proofs.«110230_j58609123721516_2_alg».proof.Proof.KHost1
import proofs.«110230_j58609123721516_2_alg».proof.Proof.KRegion0
import proofs.«110230_j58609123721516_2_alg».proof.Proof.KRegion1

set_option maxRecDepth 16384

noncomputable section

namespace Cert.KernelIdeal.Value

open Idealize.ShloMosaic Idealize.ShloMosaic.TcCoe Idealize.ShloMosaic.StableHlo Idealize.ShloMosaic.ValueIdx
open Cert.KernelIdeal Cert.KernelIdeal.Gen Cert.Sage

variable (m : (ℓ : Loc nD τ sig) → Buf (Elt Ideal) ℓ) (ρ : Dev nD → PrngReg) (c : Dev nD)

/-- The aggregate of the launched features along the launched edge lists, the target list wrapped. -/
def aggK : S40000x128.Idx → EReal :=
  aggArr (m ((c : Thread nD τ).loc main_arg0)) (m ((c : Thread nD τ).loc main_arg7)) (wrapIdx (m ((c : Thread nD τ).loc main_arg8)))
/-- The in-degree along the wrapped target list. -/
def degK : S40000.Idx → EReal := degArr (wrapIdx (m ((c : Thread nD τ).loc main_arg8)))

/-- The activation of the launched arrays, the neighbour mean taken by the reciprocal. -/
def uK : Fin 40000 → Fin 128 → EReal :=
  act (c2 (m ((c : Thread nD τ).loc main_arg0))) (c21 (m ((c : Thread nD τ).loc main_arg1)))
    (c2 (m ((c : Thread nD τ).loc main_arg2))) (c2 (m ((c : Thread nD τ).loc main_arg3))) (c1 (m ((c : Thread nD τ).loc main_arg4)))
    (hnRecip (c2 (aggK m c)) (c1 (degK m c)))

/-! ## The first grid's entry arrays, typed -/

theorem e0 : Region0.x0 (V1 m ρ) c = m ((c : Thread nD τ).loc main_arg0) := Entry.x0_eq m ρ c
theorem e1 : Region0.x1 (V1 m ρ) c = aggK m c := Entry.x1_eq m ρ c
theorem e3 : Region0.x3 (V1 m ρ) c = m ((c : Thread nD τ).loc main_arg2) := Entry.x3_eq m ρ c
theorem e4 : Region0.x4 (V1 m ρ) c = m ((c : Thread nD τ).loc main_arg3) := Entry.x4_eq m ρ c
theorem e5 : Region0.x5 (V1 m ρ) c = m ((c : Thread nD τ).loc main_arg4) := Entry.x5_eq m ρ c
/-- Column 0 of the packed pair is the per-node factor. -/
theorem e2_0 (n : Fin 40000) : Region0.x2 (V1 m ρ) c (ix2 n (0 : Fin 2))
    = (m ((c : Thread nD τ).loc main_arg1) : S40000x1.Idx → EReal) (ix2 n (0 : Fin 1)) := Host0.packed0 (W0 m ρ c) n
/-- Column 1 is the reciprocal of the degree clamped below at one. -/
theorem e2_1 (n : Fin 40000) : Region0.x2 (V1 m ρ) c (ix2 n (1 : Fin 2))
    = Ideal.div one (max (degK m c (ix1 n)) one) := Host0.packed1 (W0 m ρ c) n

/-- The first grid's activation, read off its entry arrays, is that activation. -/
theorem uOf_eq :
    Region0.uOf (Region0.x0 (V1 m ρ) c) (Region0.x1 (V1 m ρ) c) (Region0.x2 (V1 m ρ) c)
      (Region0.x3 (V1 m ρ) c) (Region0.x4 (V1 m ρ) c) (Region0.x5 (V1 m ρ) c) = uK m c := by
  rw [e0, e1, e3, e4, e5]
  funext n k
  unfold Region0.uOf uK act hnRecip c2 c1 c21
  beta_reduce
  rw [e2_0 m ρ c n, e2_1 m ρ c n]

/-! ## The first grid's outputs at its exit -/

theorem W2_pre (n : Fin 40000) (k : Fin 128) :
    (W2 m ρ c (Proc.devRef .tc main_v30_0) : S40000x128.Idx → EReal) (ix2 n k) = uK m c n k := by
  rw [← uOf_eq m ρ c]
  exact (congrFun (W2_arr m ρ c 6) (ix2 n k)).trans (Region0.arr6 (V1 m ρ) c n k)

theorem W2_sum (t : Fin 8) (k : Fin 128) :
    (W2 m ρ c (Proc.devRef .tc main_v30_1) : S8x1x128.Idx → EReal) (ix3 t (0 : Fin 1) k) = blockSum (uK m c) t k := by
  rw [← uOf_eq m ρ c]
  exact (congrFun (W2_arr m ρ c 7) (ix3 t (0 : Fin 1) k)).trans (Region0.arr7 (V1 m ρ) c t k)

theorem W2_sumsq (t : Fin 8) (k : Fin 128) :
    (W2 m ρ c (Proc.devRef .tc main_v30_2) : S8x1x128.Idx → EReal) (ix3 t (0 : Fin 1) k) = blockSumSq (uK m c) t k := by
  rw [← uOf_eq m ρ c]
  exact (congrFun (W2_arr m ρ c 8) (ix3 t (0 : Fin 1) k)).trans (Region0.arr8 (V1 m ρ) c t k)

/-! ## The second grid's input arrays at its entry -/

theorem y0_eq (n : Fin 40000) (k : Fin 128) :
    Region1.y0 (V3 m ρ) c (ix2 n k) = uK m c n k :=
  (congrFun (Host1.keep_v30_0 (W2 m ρ c)) (ix2 n k)).trans (W2_pre m ρ c n k)

theorem y1_eq : Region1.y1 (V3 m ρ) c = m ((c : Thread nD τ).loc main_arg0) :=
  (Host1.keep_arg0 (W2 m ρ c)).trans (Entry.W2_arg0 m ρ c)

theorem y2_eq (k : Fin 128) :
    Region1.y2 (V3 m ρ) c (ix2 (0 : Fin 1) k)
      = scale (c1 (m ((c : Thread nD τ).loc main_arg5))) (uK m c) k := by
  have h := Host1.scale_eq (W2 m ρ c) (uK m c) (W2_sum m ρ c) (W2_sumsq m ρ c) k
  rw [Entry.W2_arg5 m ρ c] at h
  exact h

theorem y3_eq (k : Fin 128) :
    Region1.y3 (V3 m ρ) c (ix2 (0 : Fin 1) k)
      = shift (c1 (m ((c : Thread nD τ).loc main_arg5))) (c1 (m ((c : Thread nD τ).loc main_arg6))) (uK m c) k := by
  have h := Host1.shift_eq (W2 m ρ c) (uK m c) (W2_sum m ρ c) (W2_sumsq m ρ c) k
  rw [Entry.W2_arg5 m ρ c, Entry.W2_arg6 m ρ c] at h
  exact h

/-! ## The result -/

/-- The result buffer at the last boundary, at row n and column k, is the block-sum arrangement of the layer on the
    launched arrays, the aggregate and the degree taken along the wrapped target list. -/
theorem result_eq (n : Fin 40000) (k : Fin 128) :
    (W4 m ρ c (Proc.devRef .tc main_v52) : S40000x128.Idx → EReal) (ix2 n k)
      = layerBlocks (c2 (m ((c : Thread nD τ).loc main_arg0))) (c21 (m ((c : Thread nD τ).loc main_arg1)))
          (c2 (m ((c : Thread nD τ).loc main_arg2))) (c2 (m ((c : Thread nD τ).loc main_arg3))) (c1 (m ((c : Thread nD τ).loc main_arg4)))
          (c1 (m ((c : Thread nD τ).loc main_arg5))) (c1 (m ((c : Thread nD τ).loc main_arg6)))
          (c2 (aggK m c)) (c1 (degK m c)) n k := by
  refine (congrFun (W4_arr m ρ c 4) (ix2 n k)).trans ((Region1.arr4 (V3 m ρ) c n k).trans ?_)
  rw [y0_eq, y1_eq, y2_eq, y3_eq]
  rfl

end Cert.KernelIdeal.Value

end
-- ==== Proof.LibIdealReal.lean ====
/-
  The ideal float instance on finite values, read as real arithmetic.

  At the ideal instance a float is an extended real and every operation is the exact one.  On values that are
  coercions of reals the operations stay inside the reals: sums, products, differences, maxima, quotients by a
  nonzero real, exponentials and square roots of nonnegative reals all are the coercion of the real operation.
  This file states those facts in the spellings programs use (the scalar field of the instance, the vector
  operation read at an index, the host's variant of the operation), gives the extended reals that four binary32
  words denote, the behaviour of the operations at the bottom element (the value a running maximum starts
  from), and reads a maximum taken by folding `max` from the bottom element over finitely many coerced reals
  as the coercion of the real maximum.

  General: nothing here mentions a program.  It imports only the library's ideal instance (PureOps/Ideal.lean), the laws
  of that instance (PureOps/Ideal/Laws.lean: reductions over one axis as folds and sums) and indices by coordinates
  (Lib/ValueIdx.lean).

  Contents (namespace Cert.IdealReal):
    coe_sum, coe_sum_univ          coercion commutes with finite sums
    coe_mul', coe_add', coe_sub', coe_max'   the arithmetic on coerced reals, oriented towards the reals
    div_coe_coe                    Ideal.div ↑a ↑b = ↑(a / b) for b ≠ 0
    exp_coe', exp_bot', sqrt_coe_nonneg       exponential and square root on coerced reals
    bot_sub_coe, max_bot_left, max_bot_right, coe_sub_bot …    the bottom element
    *_apply                        vector operations read at an index
    ofBits_eps, ofBits_sixteenth, ofBits_neg_inf, ofBits_zero  four binary32 words
    fold_max_bot_coe               the fold of max from ⊥ over coerced reals is the coerced real maximum
    exp_bot_sub_coe, sum_coe_mul_coe, sqrt_sum_mul_self       small compositions of the above
    sup'_univ_split, sum_univ_split, exp_sub_mul_sum_exp, exp_sub_mul_sum_exp_mul
                                   a maximum or sum over a range cut in two; rescaled sums of exponentials
    multiReduction_maximumf_coe, multiReduction_add_coe, hostReduce_maximumf_coe, hostReduceAdd_coe
                                   a maximum / sum reduction over one axis whose source elements are coerced reals
-/
import Idealize.ShloMosaic.PureOps.Ideal
import Idealize.ShloMosaic.PureOps.Ideal.Laws
import Idealize.ShloMosaic.Lib.ValueIdx

noncomputable section

namespace Cert.IdealReal

open Idealize.ShloMosaic

/-! ## Sums -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ i, f i : ℝ) : EReal) = ∑ i, ((f i : ℝ) : EReal) := coe_sum Finset.univ f

/-! ## Arithmetic on coerced reals, oriented towards the reals -/

theorem coe_mul' (a b : ℝ) : ((a : ℝ) : EReal) * ((b : ℝ) : EReal) = ((a * b : ℝ) : EReal) := (EReal.coe_mul a b).symm
theorem coe_add' (a b : ℝ) : ((a : ℝ) : EReal) + ((b : ℝ) : EReal) = ((a + b : ℝ) : EReal) := (EReal.coe_add a b).symm
theorem coe_sub' (a b : ℝ) : ((a : ℝ) : EReal) - ((b : ℝ) : EReal) = ((a - b : ℝ) : EReal) := (EReal.coe_sub a b).symm
theorem coe_max' (a b : ℝ) : max ((a : ℝ) : EReal) ((b : ℝ) : EReal) = ((max a b : ℝ) : EReal) :=
  (EReal.coe_strictMono.monotone.map_max (a := a) (b := b)).symm

/-- The ideal instance's division of a real by a nonzero real is the real quotient. -/
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]

/-- The exponential of a real. -/
theorem exp_coe' (a : ℝ) : Ideal.exp ((a : ℝ) : EReal) = ((Real.exp a : ℝ) : EReal) := rfl
/-- The exponential of the bottom element is zero. -/
theorem exp_bot' : Ideal.exp ⊥ = 0 := rfl
/-- The square root of a nonnegative real. -/
theorem sqrt_coe_nonneg {a : ℝ} (ha : 0 ≤ a) : Ideal.sqrt ((a : ℝ) : EReal) = ((Real.sqrt a : ℝ) : EReal) := by
  rw [Ideal.sqrt_coe, if_neg (not_lt.mpr ha)]

/-! ## The bottom element -/

theorem bot_sub_coe (a : ℝ) : (⊥ : EReal) - ((a : ℝ) : EReal) = ⊥ := EReal.bot_sub _
theorem max_bot_left (x : EReal) : max ⊥ x = x := max_eq_right bot_le
theorem max_bot_right (x : EReal) : max x ⊥ = x := max_eq_left bot_le

/-! ## Vector operations read at an index (the ones Lib/ValueIdx.lean does not list) -/

section Apply
variable {s : Shape} {φ : FTy}

theorem exp_apply (x : FVec Ideal s φ) (i : s.Idx) : exp x i = Ideal.exp (x i) := rfl
theorem sqrt_apply (x : FVec Ideal s φ) (i : s.Idx) : sqrt x i = Ideal.sqrt (x i) := rfl
theorem hostExp_apply (x : FVec Ideal s φ) (i : s.Idx) : Host.exp x i = Ideal.exp (x i) := rfl
theorem hostSqrt_apply (x : FVec Ideal s φ) (i : s.Idx) : Host.sqrt x i = Ideal.sqrt (x i) := rfl
theorem hostDivf_apply (x y : FVec Ideal s φ) (i : s.Idx) : Host.divf x y i = Ideal.div (x i) (y i) := rfl
theorem hostAbsf_apply (x : FVec Ideal s φ) (i : s.Idx) : Host.absf x i = max (x i) (-(x i)) := rfl
theorem broadcast_ofBits_apply (b : BitVec φ.bits) (i : s.Idx) :
    broadcast s (Scalar.ofBits (F := Ideal) φ b) i = Ideal.ofBits φ b := rfl
theorem scalar_ofBits (b : BitVec φ.bits) : Scalar.ofBits (F := Ideal) φ b = Ideal.ofBits φ b := rfl

end Apply

/-! ## Four binary32 words -/

/-- The word 0x2B8CBCCC: exponent field 87, fraction 834764, so (2²³ + 834764) · 2^(87 − 127 − 23) = 9223372 · 2⁻⁶³. -/
theorem ofBits_eps : Ideal.ofBits .f32 0x2B8CBCCC#32 = (((9223372 : ℝ) / 2 ^ 63 : ℝ) : EReal) := by
  simp [Ideal.ofBits, Ideal.ieee, -EReal.coe_mul]; norm_num

/-- The word 0x3D800000: exponent field 123, fraction 0, so 2²³ · 2^(123 − 127 − 23) = 2⁻⁴. -/
theorem ofBits_sixteenth : Ideal.ofBits .f32 0x3D800000#32 = (((1 : ℝ) / 16 : ℝ) : EReal) := by
  simp [Ideal.ofBits, Ideal.ieee, -EReal.coe_mul]; norm_num

/-- The word 0xFF800000 is the negative infinity: the bottom element. -/
theorem ofBits_neg_inf : Ideal.ofBits .f32 0xFF800000#32 = ⊥ := by
  simp [Ideal.ofBits, Ideal.ieee]

/-- The word 0x7F800000 is the positive infinity: the top element. -/
theorem ofBits_pos_inf : Ideal.ofBits .f32 0x7F800000#32 = ⊤ := by
  simp [Ideal.ofBits, Ideal.ieee]

/-- The zero word is zero. -/
theorem ofBits_zero : Ideal.ofBits .f32 0x00000000#32 = 0 := Ideal.ofBits_zero_f32

/-! ## Maxima and sums over one axis, on coerced reals -/

/-- Folding `max` from the bottom element over finitely many coerced reals gives the coercion of their real maximum. -/
theorem fold_max_bot_coe {ι : Type} (s : Finset ι) (hs : s.Nonempty) (f : ι → ℝ) :
    s.fold max (⊥ : EReal) (fun j => ((f j : ℝ) : EReal)) = ((s.sup' hs f : ℝ) : EReal) := by
  classical
  induction hs using Finset.Nonempty.cons_induction with
  | singleton a => simp
  | cons a s ha hs ih =>
    rw [Finset.fold_cons, ih, Finset.sup'_cons hs]
    exact (EReal.coe_strictMono.monotone.map_max).symm

/-- A binary32 maximum reduction over one axis, started from the negative infinity, read at a result index at which
    every source element along the axis is a coerced real: the coercion of the real maximum over the axis. -/
theorem multiReduction_maximumf_coe {s t : Shape} {a : Fin s.rank} (src : FVec Ideal s .f32)
    (h : s.Reduces [a] t) (hφ : FKind.Formats .f32) (hacc : (0xFF800000#32 : BitVec 32) = FKind.maximumf.neutral .f32 hφ) (j : t.Idx)
    (H : (Finset.univ : Finset (Fin (s.size a))).Nonempty) (f : Fin (s.size a) → ℝ)
    (hf : ∀ k, src (h.lift j k) = ((f k : ℝ) : EReal)) :
    multiReduction .maximumf [a] t src 0xFF800000#32 h hφ hacc j = ((Finset.univ.sup' H f : ℝ) : EReal) := by
  rw [Ideal.multiReduction_maximumf_single]
  have e : (src ∘ h.lift j) = fun k => ((f k : ℝ) : EReal) := funext hf
  rw [e, Ideal.ofBits_def, ofBits_neg_inf]
  exact fold_max_bot_coe _ H f

/-- A binary32 sum reduction over one axis, read at a result index at which every source element along the axis is a
    coerced real: the coercion of the real sum over the axis. -/
theorem multiReduction_add_coe {s t : Shape} {a : Fin s.rank} (src : FVec Ideal s .f32)
    (h : s.Reduces [a] t) (hφ : FKind.Formats .f32) (hacc : (0x00000000#32 : BitVec 32) = FKind.add.neutral .f32 hφ) (j : t.Idx)
    (f : Fin (s.size a) → ℝ) (hf : ∀ k, src (h.lift j k) = ((f k : ℝ) : EReal)) :
    multiReduction .add [a] t src 0x00000000#32 h hφ hacc j = ((∑ k, f k : ℝ) : EReal) := by
  rw [Ideal.multiReduction_add_single, coe_sum_univ]
  exact Finset.sum_congr rfl fun k _ => hf k

/-- The host's maximum reduction over one axis from an initial value that is the bottom element, likewise. -/
theorem hostReduce_maximumf_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = ⊥)
    (H : (Finset.univ : Finset (Fin (s.size a))).Nonempty) (f : Fin (s.size a) → ℝ)
    (hf : ∀ k, x (h.lift j k) = ((f k : ℝ) : EReal)) :
    Host.reduce (FloatOps.maximumf (F := Ideal) (φ := .f32)) x init h' hu j = ((Finset.univ.sup' H f : ℝ) : EReal) := by
  rw [Host.reduce_eq_fold_single _ x init h' h hu j]
  have e : (x ∘ h.lift j) = fun k => ((f k : ℝ) : EReal) := funext hf
  rw [e, hinit]
  exact fold_max_bot_coe _ H f

/-- The host's sum reduction over one axis from an initial value that is zero, likewise. -/
theorem hostReduceAdd_coe {s t u : Shape} {a : Fin s.rank} (x : FVec Ideal s .f32) (init : FVec Ideal u .f32)
    (h' : s.ReducesTo [a] t) (h : s.Reduces [a] t) (hu : 0 < u.numel) (j : t.Idx)
    (hinit : init (Shape.Idx.first hu) = 0)
    (f : Fin (s.size a) → ℝ) (hf : ∀ k, x (h.lift j k) = ((f k : ℝ) : EReal)) :
    Host.reduceAdd x init h' hu j = ((∑ k, f k : ℝ) : EReal) := by
  unfold Host.reduceAdd
  rw [Ideal.hostReduceAdd_def, Ideal.hostReduceAdd_single h' h, hinit, zero_add, coe_sum_univ]
  exact Finset.sum_congr rfl fun k _ => hf k

/-- The exponential of the bottom element minus a real is zero (the rescaling factor of a running sum whose running
    maximum is still the bottom element). -/
theorem exp_bot_sub_coe (a : ℝ) : Ideal.exp ((⊥ : EReal) - ((a : ℝ) : EReal)) = 0 := by
  rw [bot_sub_coe]; rfl

/-- A sum of products of coerced reals is the coercion of the real sum of products (a contraction read on reals). -/
theorem sum_coe_mul_coe {ι : Type} [Fintype ι] (f g : ι → ℝ) :
    ∑ k, ((f k : ℝ) : EReal) * ((g k : ℝ) : EReal) = ((∑ k, f k * g k : ℝ) : EReal) := by
  rw [coe_sum_univ]; exact Finset.sum_congr rfl fun k _ => coe_mul' _ _

/-- The square root of a coerced sum of squares. -/
theorem sqrt_sum_mul_self {ι : Type} [Fintype ι] (f : ι → ℝ) :
    Ideal.sqrt ((∑ d, f d * f d : ℝ) : EReal) = ((Real.sqrt (∑ d, f d * f d) : ℝ) : EReal) :=
  sqrt_coe_nonneg (Finset.sum_nonneg fun d _ => mul_self_nonneg _)

/-! ## An index range cut in two, and rescaled sums of exponentials (real arithmetic) -/

/-- The maximum over an index range cut in two is the larger of the two parts' maxima. -/
theorem sup'_univ_split {m n N : ℕ} (hN : m + n = N) (f : Fin N → ℝ)
    (H : (Finset.univ : Finset (Fin N)).Nonempty) (H1 : (Finset.univ : Finset (Fin m)).Nonempty)
    (H2 : (Finset.univ : Finset (Fin n)).Nonempty) :
    Finset.univ.sup' H f
      = max (Finset.univ.sup' H1 fun i : Fin m => f ⟨i.val, by omega⟩)
            (Finset.univ.sup' H2 fun i : Fin n => f ⟨m + i.val, by omega⟩) := by
  subst hN
  apply le_antisymm
  · apply Finset.sup'_le
    intro i _
    refine Fin.addCases (motive := fun i => f i ≤ _) (fun i => ?_) (fun i => ?_) i
    · exact le_max_of_le_left (Finset.le_sup' (fun i : Fin m => f ⟨i.val, by omega⟩) (Finset.mem_univ i))
    · exact le_max_of_le_right (Finset.le_sup' (fun i : Fin n => f ⟨m + i.val, by omega⟩) (Finset.mem_univ i))
  · apply max_le
    · apply Finset.sup'_le
      intro i _
      exact Finset.le_sup' f (Finset.mem_univ _)
    · apply Finset.sup'_le
      intro i _
      exact Finset.le_sup' f (Finset.mem_univ _)

/-- A sum over an index range cut in two is the sum of the two parts' sums. -/
theorem sum_univ_split {M : Type} [AddCommMonoid M] {m n N : ℕ} (hN : m + n = N) (f : Fin N → M) :
    ∑ k, f k = (∑ i : Fin m, f ⟨i.val, by omega⟩) + ∑ i : Fin n, f ⟨m + i.val, by omega⟩ := by
  subst hN
  rw [Fin.sum_univ_add]
  rfl

/-- Moving a sum of exponentials from the reference point a to the reference point b multiplies it by exp (a − b). -/
theorem exp_sub_mul_sum_exp {ι : Type} (s : Finset ι) (g : ι → ℝ) (a b : ℝ) :
    Real.exp (a - b) * ∑ j ∈ s, Real.exp (g j - a) = ∑ j ∈ s, Real.exp (g j - b) := by
  rw [Finset.mul_sum]
  refine Finset.sum_congr rfl fun j _ => ?_
  rw [← Real.exp_add]
  congr 1; ring

/-- The same for a sum of exponentials weighted by further factors. -/
theorem exp_sub_mul_sum_exp_mul {ι : Type} (s : Finset ι) (g v : ι → ℝ) (a b : ℝ) :
    Real.exp (a - b) * ∑ j ∈ s, Real.exp (g j - a) * v j = ∑ j ∈ s, Real.exp (g j - b) * v j := by
  rw [Finset.mul_sum]
  refine Finset.sum_congr rfl fun j _ => ?_
  rw [← mul_assoc, ← Real.exp_add]
  congr 2; ring

end Cert.IdealReal

end
-- ==== Proof.RefStages.lean ====
/-
  The reference's stages read at an index, at the ideal values.

  Each stage of the reference's result (the neighbour mean, the activation, the column mean, the column variance,
  the normalised output) is a composition of pointwise operations, broadcasts along one axis, column sums over all
  40000 rows and two matrix products contracting the 128 features.  Read at one entry, a broadcast reads its operand
  at the kept coordinate, a column sum is its initial value plus the sum over the rows, a product is the sum over the
  contracted feature, and the pointwise operations are the extended reals' own.  The variance divides by 40000 minus
  the conversion of the integer zero, which is 40000 itself, and is guarded by a select on that divisor being
  positive: 40000 is positive, so the select returns the quotient and its other branch is never read.
-/
import proofs.«110230_j58609123721516_2_alg».proof.Proof.RefTerm
import proofs.«110230_j58609123721516_2_alg».proof.Proof.Spec
import proofs.«110230_j58609123721516_2_alg».proof.Proof.AggDefs
import proofs.«110230_j58609123721516_2_alg».proof.Proof.LibIdealReal
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

open scoped BigOperators

noncomputable section

namespace Cert.ReferenceIdeal.RefStages

open Idealize.ShloMosaic Idealize.ShloMosaic.ValueIdx
open Cert.ReferenceIdeal Cert.ReferenceIdeal.Gen Cert.ReferenceIdeal.RefTerm

/-! ## Broadcasts along one axis, read at an entry -/

section Layout
variable {α : Type}

/-- A column [40000, 1] broadcast to [40000, 128] reads, at (n, k), the column at row n. -/
theorem bcast_col_apply (h : S40000x1.BroadcastsInDim S40000x128 ![0, 1]) (x : S40000x1.Idx → α) (n : Fin 40000) (k : Fin 128) :
    broadcastInDim S40000x128 ![0, 1] h x (ix2 n k) = x (ix2 n (0 : Fin 1)) := by
  refine broadcastInDim_apply ![0, 1] h x (ix2 n k) (ix2 n (0 : Fin 1)) fun a => ?_
  match a with
  | ⟨0, _⟩ => rfl
  | ⟨1, _⟩ => rfl

/-- A row [1, 128] broadcast to [40000, 128] reads, at (n, k), the row at column k. -/
theorem bcast_row_apply (h : S1x128.BroadcastsInDim S40000x128 ![0, 1]) (y : S1x128.Idx → α) (n : Fin 40000) (k : Fin 128) :
    broadcastInDim S40000x128 ![0, 1] h y (ix2 n k) = y (ix2 (0 : Fin 1) k) := by
  refine broadcastInDim_apply ![0, 1] h y (ix2 n k) (ix2 (0 : Fin 1) k) fun a => ?_
  match a with
  | ⟨0, _⟩ => rfl
  | ⟨1, _⟩ => rfl

/-- A vector [128] laid out as the row [1, 128] reads, at (0, k), the vector at k. -/
theorem bcast_vec_row_apply (h : S128.BroadcastsInDim S1x128 ![1]) (v : S128.Idx → α) (k : Fin 128) :
    broadcastInDim S1x128 ![1] h v (ix2 (0 : Fin 1) k) = v (ix1 k) := by
  refine broadcastInDim_apply ![1] h v (ix2 (0 : Fin 1) k) (ix1 k) fun a => ?_
  match a with
  | ⟨0, _⟩ => rfl

/-- A vector [40000] laid out as the column [40000, 1] reads, at (n, 0), the vector at n. -/
theorem bcast_vec_col_apply (h : S40000.BroadcastsInDim S40000x1 ![0]) (v : S40000.Idx → α) (n : Fin 40000) :
    broadcastInDim S40000x1 ![0] h v (ix2 n (0 : Fin 1)) = v (ix1 n) := by
  refine broadcastInDim_apply ![0] h v (ix2 n (0 : Fin 1)) (ix1 n) fun a => ?_
  match a with
  | ⟨0, _⟩ => rfl

/-- A vector [128] broadcast down the 40000 rows reads, at (n, k), the vector at k. -/
theorem bcast_vec_table_apply (v : S128.Idx → α) (n : Fin 40000) (k : Fin 128) :
    broadcastInDim S40000x128 ![0, 1] bcast_S1x128_S40000x128_0_1 (broadcastInDim S1x128 ![1] bcast_S128_S1x128_1 v) (ix2 n k)
      = v (ix1 k) :=
  (bcast_row_apply _ _ n k).trans (bcast_vec_row_apply _ v k)

end Layout

/-! ## A column sum and a matrix product, read at an entry -/

/-- The sum over all rows from an initial scalar: at column k, the scalar plus the sum of the column. -/
theorem colsum_apply (x : FVec Ideal S40000x128 .f32) (init : FVec Ideal S_ .f32) (k : Fin 128) :
    Host.reduceAdd (F := Ideal) x init reducesTo_S40000x128_S128_d0 h_S_ (ix1 k) = init ix0 + ∑ n : Fin 40000, x (ix2 n k) := by
  simp only [Host.reduceAdd, Ideal.hostReduceAdd_def]
  rw [Ideal.hostReduceAdd_single reducesTo_S40000x128_S128_d0 (by decide)]
  refine congrArg₂ (· + ·) (congrArg init (funext fun a => a.elim0)) (Finset.sum_congr rfl fun n _ => ?_)
  exact congrArg x (funext fun a => Fin.ext (by match a with | ⟨0, _⟩ => rfl | ⟨1, _⟩ => rfl))

/-- The product's dimension numbers: rows by features times features by columns. -/
abbrev D : DotDims S40000x128 S128x128 S40000x128 := dot_S40000x128_S128x128_S40000x128_1_0_0_1_n_n

theorem lhs_0 (i : S40000x128.Idx) (q : D.contr.Idx) : (D.lhsIdx i q 0).val = (i 0).val := by
  unfold DotDims.lhsIdx
  rw [dif_neg (show ¬(0 : Fin S40000x128.rank) ∈ D.lhsBatch by decide), dif_pos (show (0 : Fin S40000x128.rank) ∈ D.lhsNonContracting by decide)]
  rfl
theorem lhs_1 (i : S40000x128.Idx) (q : D.contr.Idx) : (D.lhsIdx i q 1).val = (q ⟨0, by decide⟩).val :=
  D.lhsIdx_val_of_single rfl i q
theorem rhs_0 (i : S40000x128.Idx) (q : D.contr.Idx) : (D.rhsIdx i q 0).val = (q ⟨0, by decide⟩).val :=
  D.rhsIdx_val_of_single rfl i q
theorem rhs_1 (i : S40000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The matrix product at (n, k): the sum over the contracted feature j of the left at (n, j) times the right at (j, k). -/
theorem dot_apply (l : FVec Ideal S40000x128 .f32) (r : FVec Ideal S128x128 .f32) (n : Fin 40000) (k : Fin 128) :
    Host.dotGeneral (F := Ideal) D none l r (ix2 n k) = ∑ j : Fin 128, l (ix2 n j) * r (ix2 j k) := by
  simp only [Host.dotGeneral]
  rw [Ideal.dotGeneral_apply, ← Equiv.sum_comp (contrEquiv1 D 128 rfl rfl).symm]
  refine Finset.sum_congr rfl fun j _ => ?_
  have hk := contrEquiv1_symm_val D 128 rfl rfl j
  have el : D.lhsIdx (ix2 n k) ((contrEquiv1 D 128 rfl rfl).symm j) = ix2 n j := funext fun a => Fin.ext (by
    match a with
    | ⟨0, _⟩ => exact lhs_0 _ _
    | ⟨1, _⟩ => exact (lhs_1 _ _).trans hk)
  have er : D.rhsIdx (ix2 n k) ((contrEquiv1 D 128 rfl rfl).symm j) = ix2 j k := funext fun a => Fin.ext (by
    match a with
    | ⟨0, _⟩ => exact (rhs_0 _ _).trans hk
    | ⟨1, _⟩ => exact rhs_1 _ _)
  rw [el, er]

/-! ## Two literal words and the converted integer zero -/

/-- The word 0x471C4000: exponent field 142, fraction 1851392, so (2²³ + 1851392) · 2^(142 − 127 − 23) = 40000. -/
theorem cnt_eq : Cert.Sage.cnt = ((40000 : ℝ) : EReal) := by
  unfold Cert.Sage.cnt
  simp [Ideal.ofBits, Ideal.ieee, -EReal.coe_mul]; norm_num

/-- The integer zero converted to a float is zero. -/
theorem sitofp_zero' : FloatOps.sitofp (F := Ideal) .f32 (0#32 : BitVec 32) = 0 := by
  show ((((0#32 : BitVec 32).toInt : ℤ) : ℝ) : EReal) = 0
  simp

/-- The variance's divisor, 40000 minus the converted zero, is 40000. -/
theorem cnt_sub_zero : Cert.Sage.cnt - FloatOps.sitofp (F := Ideal) .f32 (0#32 : BitVec 32) = Cert.Sage.cnt := by
  rw [sitofp_zero', sub_zero]

/-- 40000 is above zero, so the guard's comparison is the bit one. -/
theorem cnt_gt_zero : Ideal.cmp .ogt Cert.Sage.cnt 0 = 1#1 := by
  have h : (0 : EReal) < Cert.Sage.cnt := by rw [cnt_eq]; exact_mod_cast (by norm_num : (0 : ℝ) < 40000)
  unfold Ideal.cmp
  simp [h]

/-! ## The stages at an entry -/

section Stages
open Cert.Sage

/-- The neighbour mean at (n, j): the aggregate divided by the degree clamped below at one. -/
theorem hnT_apply (agg : FVec Ideal S40000x128 .f32) (deg : FVec Ideal S40000 .f32) (n : Fin 40000) (j : Fin 128) :
    hnT (F := Ideal) agg deg (ix2 n j) = Ideal.div (agg (ix2 n j)) (max (deg (ix1 n)) one) := by
  unfold hnT
  dsimp only
  rw [IdealReal.hostDivf_apply, bcast_col_apply, bcast_vec_col_apply, maximumf_apply, broadcastInDim_scalar_apply, constant_apply]
  rfl

/-- The activation at (n, k). -/
theorem actT_apply (a0 : FVec Ideal S40000x128 .f32) (a1 : FVec Ideal S40000x1 .f32) (a2 a3 : FVec Ideal S128x128 .f32)
    (a4 : FVec Ideal S128 .f32) (hn : FVec Ideal S40000x128 .f32) (n : Fin 40000) (k : Fin 128) :
    actT (F := Ideal) a0 a1 a2 a3 a4 hn (ix2 n k) = act (c2 a0) (c21 a1) (c2 a2) (c2 a3) (c1 a4) (c2 hn) n k := by
  unfold actT
  dsimp only
  rw [mulf_apply, maximumf_apply, addf_apply, addf_apply, dot_apply, dot_apply, bcast_vec_table_apply, bcast_col_apply,
    broadcastInDim_scalar_apply, constant_apply, Ideal.ofBits_zero_f32]
  rfl

/-- The column mean at k. -/
theorem meanT_apply (u : FVec Ideal S40000x128 .f32) (k : Fin 128) :
    meanT (F := Ideal) u (ix1 k) = meanAllRows (c2 u) k := by
  unfold meanT
  dsimp only
  rw [IdealReal.hostDivf_apply, colsum_apply, broadcastInDim_scalar_apply, constant_apply, constant_apply, Ideal.ofBits_zero_f32]
  rfl

/-- The column variance at k: the guard holds, so the select returns the quotient. -/
theorem varT_apply (u : FVec Ideal S40000x128 .f32) (k : Fin 128) :
    varT (F := Ideal) u (ix1 k) = varAllRows (c2 u) k := by
  unfold varT
  dsimp only
  rw [select_apply, broadcastInDim_scalar_apply, cmpf_apply, subf_apply, constant_apply, constant_apply, sitofp_apply,
    show (Ideal.ofBits FTy.f32 0x471C4000#32 - FloatOps.sitofp (F := Ideal) FTy.f32 (constantI S_ 32 (0#32) ix0)) = cnt from cnt_sub_zero,
    Ideal.ofBits_zero_f32, Ideal.cmpf_def, cnt_gt_zero, select_one,
    IdealReal.hostDivf_apply, colsum_apply, broadcastInDim_scalar_apply, subf_apply, constant_apply, constant_apply, sitofp_apply,
    show (Ideal.ofBits FTy.f32 0x471C4000#32 - FloatOps.sitofp (F := Ideal) FTy.f32 (constantI S_ 32 (0#32) ix0)) = cnt from cnt_sub_zero,
    Ideal.ofBits_zero_f32]
  unfold varAllRows meanAllRows c2
  refine congrArg (fun s => Ideal.div (0 + s) cnt) (Finset.sum_congr rfl fun n _ => ?_)
  rw [mulf_apply, subf_apply, bcast_row_apply, IdealReal.hostDivf_apply, bcast_vec_row_apply, colsum_apply,
    broadcastInDim_scalar_apply, constant_apply, constant_apply, Ideal.ofBits_zero_f32]
  rfl

/-- The output at (n, k): the residual plus the centred activation times the reciprocal root of variance plus ε, scaled
    and shifted. -/
theorem outT_apply (a0 : FVec Ideal S40000x128 .f32) (a5 a6 : FVec Ideal S128 .f32) (u : FVec Ideal S40000x128 .f32)
    (mean var : FVec Ideal S128 .f32) (n : Fin 40000) (k : Fin 128) :
    outT (F := Ideal) a0 a5 a6 u mean var (ix2 n k)
      = a0 (ix2 n k) + (((u (ix2 n k) - mean (ix1 k)) * Ideal.rsqrt (var (ix1 k) + eps)) * a5 (ix1 k) + a6 (ix1 k)) := by
  unfold outT
  dsimp only
  rw [addf_apply, addf_apply, mulf_apply, mulf_apply, subf_apply, bcast_vec_table_apply, bcast_vec_table_apply,
    bcast_vec_table_apply, bcast_vec_table_apply]
  rfl

end Stages

end Cert.ReferenceIdeal.RefStages

end
-- ==== Proof.RefValue.lean ====
/-
  The reference's result at an entry is the layer computed by division, with moments over all rows.

  The aggregate and the degree the reference computes are, operation for operation, the neutral edge-level terms
  (rows gathered at the wrapped source list and scatter-added at the target list as given; ones scatter-added at the
  target list): the gather and the scatter-adds are never opened, the two spellings differ only in how the dimension
  numbers and the shape facts are named.  With them identified, the stages read at an entry compose to the layer: the
  neighbour mean by division feeds the activation, whose column mean and variance over all 40000 rows normalise it
  before the scale, the shift and the residual.
-/
import proofs.«110230_j58609123721516_2_alg».proof.Proof.RefTerm
import proofs.«110230_j58609123721516_2_alg».proof.Proof.RefStages
import proofs.«110230_j58609123721516_2_alg».proof.Proof.Spec
import proofs.«110230_j58609123721516_2_alg».proof.Proof.AggDefs

open scoped BigOperators

noncomputable section

namespace Cert.ReferenceIdeal.RefValue

open Idealize.ShloMosaic Idealize.ShloMosaic.ValueIdx
open Cert.ReferenceIdeal Cert.ReferenceIdeal.Gen Cert.ReferenceIdeal.RefStages Cert.Sage

attribute [local irreducible] Host.gather Host.scatterAdd

/-- The reference's aggregate is the neutral one at the source list wrapped and the target list as given. -/
theorem aggT_eq (a0 : FVec Ideal S40000x128 .f32) (a7 a8 : IVec S640000 32) :
    RefTerm.aggT (F := Ideal) a0 a7 a8 = aggArr a0 a7 a8 := rfl

/-- The reference's degree is the neutral one at the target list as given. -/
theorem degT_eq (a8 : IVec S640000 32) : RefTerm.degT (F := Ideal) a8 = degArr a8 := rfl

/-- The reference's activation, as an array read by row and column, is the layer's activation on the neighbour mean
    by division. -/
theorem uT_eq (a0 : FVec Ideal S40000x128 .f32) (a1 : FVec Ideal S40000x1 .f32) (a2 a3 : FVec Ideal S128x128 .f32)
    (a4 : FVec Ideal S128 .f32) (a7 a8 : IVec S640000 32) :
    c2 (RefTerm.uT (F := Ideal) a0 a1 a2 a3 a4 a7 a8)
      = act (c2 a0) (c21 a1) (c2 a2) (c2 a3) (c1 a4) (hnDiv (c2 (aggArr a0 a7 a8)) (c1 (degArr a8))) := by
  funext n k
  have hhn : c2 (RefTerm.hnT (F := Ideal) (RefTerm.aggT a0 a7 a8) (RefTerm.degT a8))
      = hnDiv (c2 (aggArr a0 a7 a8)) (c1 (degArr a8)) := by
    funext m j
    show RefTerm.hnT (F := Ideal) (RefTerm.aggT a0 a7 a8) (RefTerm.degT a8) (ix2 m j) = _
    rw [hnT_apply, aggT_eq, degT_eq]
    rfl
  show RefTerm.uT (F := Ideal) a0 a1 a2 a3 a4 a7 a8 (ix2 n k) = _
  unfold RefTerm.uT
  rw [actT_apply, hhn]

theorem refOut_apply (a0 : FVec Ideal S40000x128 .f32) (a1 : FVec Ideal S40000x1 .f32) (a2 a3 : FVec Ideal S128x128 .f32)
    (a4 a5 a6 : FVec Ideal S128 .f32) (a7 a8 : IVec S640000 32) (n : Fin 40000) (k : Fin 128) :
    RefTerm.refOut (F := Ideal) a0 a1 a2 a3 a4 a5 a6 a7 a8 (ValueIdx.ix2 n k)
      = Cert.Sage.layerAllRows (Cert.Sage.c2 a0) (Cert.Sage.c21 a1) (Cert.Sage.c2 a2) (Cert.Sage.c2 a3) (Cert.Sage.c1 a4) (Cert.Sage.c1 a5) (Cert.Sage.c1 a6)
          (Cert.Sage.c2 (Cert.Sage.aggArr a0 a7 a8)) (Cert.Sage.c1 (Cert.Sage.degArr a8)) n k := by
  unfold RefTerm.refOut
  rw [outT_apply, meanT_apply, varT_apply]
  unfold layerAllRows outAllRows
  rw [← uT_eq]
  rfl

end Cert.ReferenceIdeal.RefValue

end
-- ==== Proof.LibERealBridge.lean ====
/-
  The float operations of the extended-real ("ideal") instance, at real arguments, are the real operations.

  An extended real is -∞, +∞ or a real. The instance's exp, tanh and quotient are defined by cases on that, and the sums,
  products and maxima are those of the extended reals; at reals every one of them is the real operation, carried into the
  extended reals by the inclusion. These are the lemmas that move a formula whose inputs are all real from the extended reals
  down to the reals, one operation at a time: the exponential, the hyperbolic tangent, a quotient with a nonzero denominator,
  a finite sum, a finite sum of products, a maximum (of two, and of a nonempty finite family folded from -∞), an absolute
  value written as a maximum with the negation, and the remark that an extended real that is neither infinity is a real.
-/
import Idealize.ShloMosaic.PureOps.Ideal

namespace LibERealBridge

open Idealize.ShloMosaic
open scoped BigOperators

/-- The instance's exponential at a real is the real exponential. -/
theorem exp_coe (r : ℝ) : Ideal.exp (r : EReal) = ((Real.exp r : ℝ) : EReal) := Ideal.exp_coe r

/-- The instance's hyperbolic tangent at a real is the real hyperbolic tangent. -/
theorem tanh_coe (r : ℝ) : Ideal.tanh (r : EReal) = ((Real.tanh r : ℝ) : EReal) := Ideal.tanh_coe r

/-- The instance's quotient of two reals, the second not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The inclusion of the reals carries a finite sum to the sum of the inclusions. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- A finite sum of products of reals, taken in the extended reals, is the real sum of the real products. -/
theorem sum_mul_coe {ι : Type*} (t : Finset ι) (f g : ι → ℝ) :
    (∑ i ∈ t, ((f i : ℝ) : EReal) * ((g i : ℝ) : EReal)) = ((∑ i ∈ t, f i * g i : ℝ) : EReal) := by
  rw [coe_finset_sum]
  exact Finset.sum_congr rfl fun i _ => (EReal.coe_mul (f i) (g i)).symm

/-- A finite sum of products of reals, taken in the extended reals, is a real. -/
theorem sum_exists_real {ι : Type*} (t : Finset ι) (f g : ι → ℝ) :
    ∃ r : ℝ, (∑ i ∈ t, ((f i : ℝ) : EReal) * ((g i : ℝ) : EReal)) = (r : EReal) :=
  ⟨∑ i ∈ t, f i * g i, sum_mul_coe t f g⟩

/-- The maximum of two reals, taken in the extended reals, is the real maximum. -/
theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The maximum of a real and its negation, taken in the extended reals, is the real absolute value. -/
theorem abs_coe (x : ℝ) : max (x : EReal) (-(x : EReal)) = ((|x| : ℝ) : EReal) := by
  rw [← EReal.coe_neg, max_coe, abs_eq_max_neg]

/-- The maximum of a nonempty finite family of reals, folded in the extended reals from -∞, is the real maximum of the
    family. -/
theorem fold_max_coe {n : ℕ} (f : Fin (n + 1) → ℝ) :
    Finset.univ.fold max (⊥ : EReal) (fun i => (f i : EReal))
      = ((Finset.univ.sup' Finset.univ_nonempty f : ℝ) : EReal) := by
  apply le_antisymm
  · rw [Finset.fold_max_le]
    exact ⟨bot_le, fun i hi => EReal.coe_le_coe_iff.mpr (Finset.le_sup' f hi)⟩
  · obtain ⟨i, hi, h⟩ := Finset.exists_mem_eq_sup' Finset.univ_nonempty f
    rw [h, Finset.le_fold_max]
    exact Or.inr ⟨i, hi, le_rfl⟩

/-- An extended real that is neither infinity is a real. -/
theorem exists_real_of_ne (x : EReal) (h1 : x ≠ ⊤) (h2 : x ≠ ⊥) : ∃ r : ℝ, x = (r : EReal) :=
  ⟨x.toReal, (EReal.coe_toReal h1 h2).symm⟩

end LibERealBridge
-- ==== Proof.LibIsReal.lean ====
/-
  Extended reals that are real numbers, and the operations that keep them so.

  An extended real is -∞, +∞ or a real. A float computation whose inputs are all real and whose operations are sums,
  differences, products, maxima, finite sums, the logistic function, a quotient by a nonzero real, or the reciprocal
  square root of a positive real, has a real result: at reals each of these is the real operation. The predicate
  below names "is a real", and the lemmas are its closure under those operations; they are what lets a formula be
  moved from the extended reals, where distributivity and cancellation fail at the infinities, down to the reals.
-/
import proofs.«110230_j58609123721516_2_alg».proof.Proof.LibERealBridge

open scoped BigOperators

namespace Cert.Alg

open Idealize.ShloMosaic LibERealBridge

/-- The extended real x is (the inclusion of) a real number. -/
def IsReal (x : EReal) : Prop := ∃ r : ℝ, x = (r : EReal)

namespace IsReal

/-- The inclusion of a real is a real. -/
theorem coe (r : ℝ) : IsReal (r : EReal) := ⟨r, rfl⟩

/-- Zero is a real. -/
theorem zero : IsReal 0 := ⟨0, rfl⟩

/-- One is a real. -/
theorem one : IsReal 1 := ⟨1, rfl⟩

/-- Anything equal to a real is a real. -/
theorem of_eq {x : EReal} {r : ℝ} (h : x = (r : EReal)) : IsReal x := ⟨r, h⟩

/-- A real is not +∞. -/
theorem ne_top {x : EReal} (hx : IsReal x) : x ≠ ⊤ := by
  obtain ⟨a, rfl⟩ := hx; exact EReal.coe_ne_top a

/-- A real is not -∞. -/
theorem ne_bot {x : EReal} (hx : IsReal x) : x ≠ ⊥ := by
  obtain ⟨a, rfl⟩ := hx; exact EReal.coe_ne_bot a

/-- An extended real that is neither infinity is a real. -/
theorem of_ne {x : EReal} (h1 : x ≠ ⊤) (h2 : x ≠ ⊥) : IsReal x := exists_real_of_ne x h1 h2

/-- A real is the inclusion of its real part. -/
theorem coe_toReal {x : EReal} (hx : IsReal x) : ((x.toReal : ℝ) : EReal) = x :=
  EReal.coe_toReal hx.ne_top hx.ne_bot

/-- The sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- The negation of a real is a real. -/
theorem neg {x : EReal} (hx : IsReal x) : IsReal (-x) := by
  obtain ⟨a, rfl⟩ := hx; exact ⟨-a, (EReal.coe_neg a).symm⟩

/-- The difference of two reals is a real. -/
theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is a real. -/
theorem max {x y : EReal} (hx : IsReal x) (hy : IsReal y) : IsReal (max x y) := by
  obtain ⟨a, rfl⟩ := hx; obtain ⟨b, rfl⟩ := hy; exact ⟨_, max_coe a b⟩

/-- A finite sum of reals is a real. -/
theorem sum {ι : Type*} (t : Finset ι) (f : ι → EReal) (h : ∀ i ∈ t, IsReal (f i)) : IsReal (∑ i ∈ t, f i) := by
  classical
  induction t using Finset.induction_on with
  | empty => rw [Finset.sum_empty]; exact zero
  | insert a s ha ih =>
    rw [Finset.sum_insert ha]
    exact add (h a (Finset.mem_insert_self a s)) (ih fun i hi => h i (Finset.mem_insert_of_mem hi))

/-- A sum of reals over a finite type is a real. -/
theorem sum_univ {ι : Type*} [Fintype ι] (f : ι → EReal) (h : ∀ i, IsReal (f i)) : IsReal (∑ i, f i) :=
  sum Finset.univ f fun i _ => h i

/-- The logistic function 1 / (1 + e^(-x)) of a real is a real. -/
theorem logistic {x : EReal} (hx : IsReal x) : IsReal (Ideal.logistic x) := by
  obtain ⟨a, rfl⟩ := hx; exact ⟨_, Ideal.logistic_coe a⟩

/-- The exponential of a real is a real. -/
theorem exp {x : EReal} (hx : IsReal x) : IsReal (Ideal.exp x) := by
  obtain ⟨a, rfl⟩ := hx; exact ⟨_, Ideal.exp_coe a⟩

/-- The quotient of a real by a nonzero real is a real. -/
theorem div_coe {x : EReal} (hx : IsReal x) {c : ℝ} (hc : c ≠ 0) : IsReal (Ideal.div x (c : EReal)) := by
  obtain ⟨a, rfl⟩ := hx; exact ⟨a / c, div_coe_coe a c hc⟩

/-- The quotient of a real by a real that is not zero is a real. -/
theorem div {x y : EReal} (hx : IsReal x) (hy : IsReal y) (hy0 : y ≠ 0) : IsReal (Ideal.div x y) := by
  obtain ⟨b, rfl⟩ := hy
  exact div_coe hx (fun hb => hy0 (by rw [hb]; rfl))

/-- The reciprocal square root of a positive real is a real. -/
theorem rsqrt_pos {x : EReal} (hx : IsReal x) (h0 : 0 < x) : IsReal (Ideal.rsqrt x) := by
  obtain ⟨a, rfl⟩ := hx
  have ha : 0 < a := by exact_mod_cast h0
  refine ⟨(Real.sqrt a)⁻¹, ?_⟩
  rw [Ideal.rsqrt_coe, if_neg (not_lt.mpr ha.le), if_neg ha.ne']

/-- The sum of two reals, the first nonnegative and the second positive, is positive. -/
theorem add_pos_of_nonneg_of_pos {x y : EReal} (hx : 0 ≤ x) (hy : 0 < y) : 0 < x + y := by
  calc (0 : EReal) < y := hy
    _ = 0 + y := (zero_add y).symm
    _ ≤ x + y := add_le_add hx le_rfl

end IsReal

end Cert.Alg
-- ==== Proof.LibVariance.lean ====
/-
  The two ways of writing a variance agree on real data.

  For numbers u₁ … u_N with mean μ = (Σ uₙ)/N, the mean of the squared deviations (Σ (uₙ − μ)²)/N equals the mean of
  the squares minus the squared mean, (Σ uₙ²)/N − μ²: expanding the square gives Σ uₙ² − 2μ Σ uₙ + N μ², and
  Σ uₙ = N μ. In the extended reals the expansion needs every uₙ to be a real (∞ − ∞ has no meaning there), so the
  statement assumes that, moves each operation down to the reals, and proves the identity there.
-/
import proofs.«110230_j58609123721516_2_alg».proof.Proof.LibERealBridge
import Mathlib.Tactic.FieldSimp
import Mathlib.Tactic.Ring

open scoped BigOperators

namespace Cert.Alg

open Idealize.ShloMosaic LibERealBridge

/-- On the reals: with c the number of terms, the mean of the squared deviations from the mean is the mean of the
    squares minus the squared mean. -/
theorem real_variance {ι : Type*} [Fintype ι] (v : ι → ℝ) (c : ℝ) (hc : c = (Fintype.card ι : ℝ)) (hc0 : c ≠ 0) :
    (∑ n, (v n - (∑ i, v i) / c) * (v n - (∑ i, v i) / c)) / c
      = (∑ n, v n * v n) / c - ((∑ i, v i) / c) * ((∑ i, v i) / c) := by
  have h1 : ∀ m : ℝ, ∑ n, (v n - m) * (v n - m) = (∑ n, v n * v n) - 2 * m * (∑ n, v n) + c * (m * m) := by
    intro m
    have h : ∀ n, (v n - m) * (v n - m) = v n * v n - 2 * m * v n + m * m := fun n => by ring
    rw [Finset.sum_congr rfl fun n _ => h n, Finset.sum_add_distrib, Finset.sum_sub_distrib, ← Finset.mul_sum,
      Finset.sum_const, Finset.card_univ, nsmul_eq_mul, hc]
  rw [h1]
  field_simp
  ring

/-- On the extended reals, for a family of reals uₙ indexed by a finite type with c elements (c ≠ 0), and with the
    quotient of the float instance: the mean of (uₙ − μ)², μ the mean, is the mean of uₙ² minus μ². -/
theorem variance_identity {ι : Type*} [Fintype ι] (u : ι → EReal) (hu : ∀ n, ∃ r : ℝ, u n = (r : EReal))
    (c : ℝ) (hc : c = (Fintype.card ι : ℝ)) (hc0 : c ≠ 0) :
    Ideal.div (∑ n, (u n - Ideal.div (∑ i, u i) (c : EReal)) * (u n - Ideal.div (∑ i, u i) (c : EReal))) (c : EReal)
      = Ideal.div (∑ n, u n * u n) (c : EReal)
          - Ideal.div (∑ i, u i) (c : EReal) * Ideal.div (∑ i, u i) (c : EReal) := by
  choose v hv using hu
  obtain rfl : u = fun n => (v n : EReal) := funext hv
  have hS : (∑ i, ((v i : ℝ) : EReal)) = ((∑ i, v i : ℝ) : EReal) := (coe_finset_sum _ _).symm
  have hQ : (∑ n, ((v n : ℝ) : EReal) * ((v n : ℝ) : EReal)) = ((∑ n, v n * v n : ℝ) : EReal) := sum_mul_coe _ _ _
  have hD : ∀ m : ℝ, (∑ n, (((v n : ℝ) : EReal) - (m : EReal)) * (((v n : ℝ) : EReal) - (m : EReal)))
      = ((∑ n, (v n - m) * (v n - m) : ℝ) : EReal) := by
    intro m
    rw [coe_finset_sum]
    exact Finset.sum_congr rfl fun n _ => by rw [← EReal.coe_sub, ← EReal.coe_mul]
  rw [hS, hQ, div_coe_coe _ _ hc0, hD, div_coe_coe _ _ hc0, div_coe_coe _ _ hc0, ← EReal.coe_mul, ← EReal.coe_sub,
    real_variance v c hc hc0]

end Cert.Alg
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.LibGraphConvNorm.lean ====
/-
  One graph-convolution layer followed by batch normalisation, in the two arrangements the two programs use, and
  the proof that the arrangements agree on real data.

  THE CONVOLUTION. With `xl = h · W`, `dinv n = deg(n)^(-1/2)`, and edges `e` from `src e` to the node whose number is
  the target word `tgt e`, the symmetric-normalised aggregate at node `n`, column `q`, is

      Σ_{e : tgt e = n} xl(src e, q) · (dinv(src e) · dinv(dst e))  +  (dinv n · dinv n) · xl(n, q)  +  b q.

  The other arrangement scales each row once, `xls = xl · dinv`, sums the scaled rows over the incoming edges, adds the
  node's own scaled row and multiplies by `dinv n` at the end:

      dinv n · ( Σ_{e : tgt e = n} xls(src e, q)  +  xls(n, q) )  +  b q.

  They agree because an edge counted at `n` has `dst e = n`, so the factor `dinv(dst e)` is the constant `dinv n` over
  the sum, and a constant factor moves across a finite sum — a law of the reals that fails at the infinities, which
  is why every factor is required to be a real.

  THE MOMENTS. One arrangement takes the mean and the mean of squared deviations over all `T · R` rows; the other sums
  the entries and their squares block by block (`T` blocks of `R` consecutive rows), adds the block sums, and takes
  `E[u²] − E[u]²`. A sum over `T · R` indices is the sum of its block sums, and on real data the two variances are
  the same number.
-/
import proofs.«110230_j58609123721516_2_alg».proof.Proof.LibIsReal
import proofs.«110230_j58609123721516_2_alg».proof.Proof.LibVariance
import proofs.«110230_j58609123721516_2_alg».proof.Proof.LibSumBlocks
import Idealize.ShloMosaic.PureOps.Ideal

open scoped BigOperators

noncomputable section

namespace Cert.Gnn

open Idealize.ShloMosaic Cert.Alg LibERealBridge

/-! ## The convolution -/

section Conv

variable {N E H : ℕ}

/-- The aggregate with each edge weighted by both end points' factors. -/
def convEdgeWeighted (dinv : Fin N → EReal) (src dst : Fin E → Fin N) (tgt : Fin E → ℤ)
    (xl : Fin N → Fin H → EReal) (b : Fin H → EReal) (n : Fin N) (q : Fin H) : EReal :=
  ((0 + ∑ e : Fin E, if tgt e = (n.val : ℤ) then xl (src e) q * (dinv (src e) * dinv (dst e)) else 0)
      + (dinv n * dinv n) * xl n q) + b q

/-- The aggregate of rows scaled once per node, rescaled at the target. -/
def convRowScaled (dinv : Fin N → EReal) (src : Fin E → Fin N) (tgt : Fin E → ℤ)
    (xl : Fin N → Fin H → EReal) (b : Fin H → EReal) (n : Fin N) (q : Fin H) : EReal :=
  dinv n * ((0 + ∑ e : Fin E, if tgt e = (n.val : ℤ) then xl (src e) q * dinv (src e) else 0) + xl n q * dinv n) + b q

/-- On real factors the two aggregates are equal, entry by entry. The bias is any extended real: it is added last on
    both sides. -/
theorem conv_agree (dinv : Fin N → EReal) (src dst : Fin E → Fin N) (tgt : Fin E → ℤ)
    (xl : Fin N → Fin H → EReal) (b : Fin H → EReal)
    (hd : ∀ n, IsReal (dinv n)) (hx : ∀ n q, IsReal (xl n q))
    (hdst : ∀ e (n : Fin N), tgt e = (n.val : ℤ) → dst e = n) (n : Fin N) (q : Fin H) :
    convRowScaled dinv src tgt xl b n q = convEdgeWeighted dinv src dst tgt xl b n q := by
  choose d hd using hd
  choose x hx using hx
  unfold convRowScaled convEdgeWeighted
  refine congrArg (· + b q) ?_
  have hL : ∀ e : Fin E, (if tgt e = (n.val : ℤ) then xl (src e) q * dinv (src e) else 0)
      = (((if tgt e = (n.val : ℤ) then x (src e) q * d (src e) else 0 : ℝ)) : EReal) := by
    intro e
    split_ifs
    · rw [hx, hd, EReal.coe_mul]
    · rfl
  have hR : ∀ e : Fin E, (if tgt e = (n.val : ℤ) then xl (src e) q * (dinv (src e) * dinv (dst e)) else 0)
      = (((if tgt e = (n.val : ℤ) then x (src e) q * d (src e) else 0 : ℝ) * d n : ℝ) : EReal) := by
    intro e
    split_ifs with h
    · rw [hdst e n h, hx, hd, hd, EReal.coe_mul, EReal.coe_mul, mul_assoc]
    · rw [zero_mul]; rfl
  simp only [hL, hR, ← coe_finset_sum, hx n q, hd n, zero_add]
  rw [← EReal.coe_mul, ← EReal.coe_add, ← EReal.coe_mul, ← EReal.coe_mul, ← EReal.coe_mul, ← EReal.coe_add]
  refine congrArg _ ?_
  rw [← Finset.sum_mul]
  ring

/-- The aggregate of real data, with a real bias, is real. -/
theorem convEdgeWeighted_isReal (dinv : Fin N → EReal) (src dst : Fin E → Fin N) (tgt : Fin E → ℤ)
    (xl : Fin N → Fin H → EReal) (b : Fin H → EReal)
    (hd : ∀ n, IsReal (dinv n)) (hx : ∀ n q, IsReal (xl n q)) (hb : ∀ q, IsReal (b q)) (n : Fin N) (q : Fin H) :
    IsReal (convEdgeWeighted dinv src dst tgt xl b n q) := by
  unfold convEdgeWeighted
  refine IsReal.add (IsReal.add (IsReal.add IsReal.zero (IsReal.sum_univ _ fun e => ?_)) ?_) (hb q)
  · split_ifs
    · exact IsReal.mul (hx _ _) (IsReal.mul (hd _) (hd _))
    · exact IsReal.zero
  · exact IsReal.mul (IsReal.mul (hd n) (hd n)) (hx n q)

end Conv

/-! ## The moments -/

section Moments

variable {T R : ℕ}

/-- Row `r` of block `t`. -/
def blockRow (t : Fin T) (r : Fin R) : Fin (T * R) := ⟨t.val * R + r.val, Cert.LibSumBlocks.block_index_lt t r⟩

/-- The mean over all rows. -/
def meanAll (c : EReal) (u : Fin (T * R) → EReal) : EReal := Ideal.div (∑ n, u n) c

/-- The mean of the squared deviations from the mean, over all rows. -/
def varAll (c : EReal) (u : Fin (T * R) → EReal) : EReal :=
  Ideal.div (∑ n, (u n - meanAll c u) * (u n - meanAll c u)) c

/-- The mean from block sums. -/
def meanBlocks (c : EReal) (u : Fin (T * R) → EReal) : EReal := Ideal.div (∑ t : Fin T, ∑ r : Fin R, u (blockRow t r)) c

/-- The mean of squares from block sums, less the squared mean. -/
def varBlocks (c : EReal) (u : Fin (T * R) → EReal) : EReal :=
  Ideal.div (∑ t : Fin T, ∑ r : Fin R, u (blockRow t r) * u (blockRow t r)) c - meanBlocks c u * meanBlocks c u

theorem meanBlocks_eq (c : EReal) (u : Fin (T * R) → EReal) : meanBlocks c u = meanAll c u := by
  unfold meanBlocks meanAll
  rw [Cert.LibSumBlocks.sum_blocks T R u]
  rfl

/-- On real data, with the divisor the number of rows, the two variances are equal. -/
theorem varBlocks_eq (c : ℝ) (u : Fin (T * R) → EReal) (hu : ∀ n, IsReal (u n))
    (hc : c = ((T * R : ℕ) : ℝ)) (hc0 : c ≠ 0) : varBlocks (c : EReal) u = varAll (c : EReal) u := by
  unfold varBlocks varAll
  rw [meanBlocks_eq]
  unfold meanAll
  rw [variance_identity u hu c (by rw [hc, Fintype.card_fin]) hc0, Cert.LibSumBlocks.sum_blocks T R fun n => u n * u n]
  rfl

/-- The mean of real data is real. -/
theorem meanAll_isReal (c : ℝ) (hc0 : c ≠ 0) (u : Fin (T * R) → EReal) (hu : ∀ n, IsReal (u n)) :
    IsReal (meanAll (c : EReal) u) :=
  IsReal.div_coe (IsReal.sum_univ _ hu) hc0

/-- The variance of real data over a positive count is a real that is not negative. -/
theorem varAll_nonneg (c : ℝ) (hc : 0 < c) (u : Fin (T * R) → EReal) (hu : ∀ n, IsReal (u n)) :
    IsReal (varAll (c : EReal) u) ∧ 0 ≤ varAll (c : EReal) u := by
  obtain ⟨μ, hμ⟩ := meanAll_isReal c hc.ne' u hu
  choose v hv using hu
  unfold varAll
  rw [hμ]
  have hs : (∑ n, (u n - (μ : EReal)) * (u n - (μ : EReal))) = ((∑ n, (v n - μ) * (v n - μ) : ℝ) : EReal) := by
    rw [coe_finset_sum]
    refine Finset.sum_congr rfl fun n _ => ?_
    rw [hv n, ← EReal.coe_sub, ← EReal.coe_mul]
  rw [hs, div_coe_coe _ _ hc.ne']
  refine ⟨⟨_, rfl⟩, ?_⟩
  exact_mod_cast div_nonneg (Finset.sum_nonneg fun n _ => mul_self_nonneg _) hc.le

end Moments

/-! ## Normalisation and rectifier -/

/-- One entry normalised by the column's moments, scaled, shifted and rectified. -/
def normRect (x mean var eps g beta : EReal) : EReal :=
  max (((x - mean) * Ideal.rsqrt (var + eps)) * g + beta) 0

/-- A real entry normalised by real moments, the variance not negative and the epsilon positive, is real. -/
theorem normRect_isReal {x mean var eps g beta : EReal} (hx : IsReal x) (hm : IsReal mean) (hv : IsReal var)
    (hv0 : 0 ≤ var) (he : IsReal eps) (he0 : 0 < eps) (hg : IsReal g) (hb : IsReal beta) :
    IsReal (normRect x mean var eps g beta) :=
  IsReal.max (IsReal.add (IsReal.mul (IsReal.mul (IsReal.sub hx hm)
    (IsReal.rsqrt_pos (IsReal.add hv he) (IsReal.add_pos_of_nonneg_of_pos hv0 he0))) hg) hb) IsReal.zero

end Cert.Gnn

end
-- ==== Proof.Bridge.lean ====
/-
  The two arrangements of the layer agree on real data: the literals, the neighbour mean, the moments and the output.

  Everything here is arithmetic on the extended reals. The inputs are reals; every intermediate value is then a real
  (a finite sum, product, maximum, a quotient by a real that is at least 1, the reciprocal square root of a positive
  real), and on reals the two arrangements differ only by laws of the real field: a / m = a · (1 / m); a sum over
  40000 rows is the sum of the 8 block sums of 5000 rows; the mean of squares less the squared mean is the mean of the
  squared deviations, which is not negative, so clamping it at 0 changes nothing; and
  u·(g·r) + (be − (μ·g)·r) + h = h + ((u − μ)·r·g + be).
-/
import proofs.«110230_j58609123721516_2_alg».proof.Proof.Spec
import proofs.«110230_j58609123721516_2_alg».proof.Proof.LibGraphConvNorm
import proofs.«110230_j58609123721516_2_alg».proof.Proof.LibIdealReal

open scoped BigOperators

noncomputable section

namespace Cert.Sage

open Idealize.ShloMosaic Cert.Alg

/-! ## The three literals -/

/-- The word 0x3F800000: exponent field 127, fraction 0, so 2²³ · 2^(127 − 127 − 23) = 1. -/
theorem one_eq : one = ((1 : ℝ) : EReal) := by
  unfold one
  simp [Ideal.ofBits, Ideal.ieee, -EReal.coe_mul]; norm_num

/-- The word 0x471C4000: exponent field 142, fraction 1851392, so (2²³ + 1851392) · 2^(142 − 127 − 23)
    = 10240000 · 2⁻⁸ = 40000. -/
theorem cnt_eq : cnt = ((40000 : ℝ) : EReal) := by
  unfold cnt
  simp [Ideal.ofBits, Ideal.ieee, -EReal.coe_mul]; norm_num

/-- The word 0x3727C5AC: exponent field 110, fraction 2606508, so (2²³ + 2606508) · 2^(110 − 127 − 23)
    = 10995116 · 2⁻⁴⁰. -/
theorem eps_eq : eps = (((10995116 : ℝ) / 2 ^ 40 : ℝ) : EReal) := by
  unfold eps
  simp [Ideal.ofBits, Ideal.ieee, -EReal.coe_mul]; norm_num

/-- The small constant added to the variance is a positive real. -/
theorem eps_pos_real : ∃ e : ℝ, 0 < e ∧ eps = ((e : ℝ) : EReal) :=
  ⟨(10995116 : ℝ) / 2 ^ 40, by positivity, eps_eq⟩

/-! ## The neighbour mean -/

/-- The larger of a real degree and 1 is a real that is not zero. -/
theorem max_one_real {d : EReal} (hd : IsReal d) : ∃ m : ℝ, m ≠ 0 ∧ max d one = ((m : ℝ) : EReal) := by
  obtain ⟨a, rfl⟩ := hd
  refine ⟨max a 1, (lt_of_lt_of_le one_pos (le_max_right a 1)).ne', ?_⟩
  rw [one_eq, LibERealBridge.max_coe]

/-- Multiplying by the reciprocal 1 / m and dividing by m are the same when m = max(deg, 1) is a nonzero real:
    both are the product with the real 1 / m. -/
theorem hnRecip_eq (agg : Fin 40000 → Fin 128 → EReal) (deg : Fin 40000 → EReal) (hdeg : ∀ n, IsReal (deg n)) :
    hnRecip agg deg = hnDiv agg deg := by
  funext n j
  obtain ⟨m, hm0, hm⟩ := max_one_real (hdeg n)
  unfold hnRecip hnDiv
  rw [hm, Ideal.div_coe hm0, Ideal.div_coe hm0, one_eq, ← EReal.coe_mul, one_mul]

/-- The neighbour mean of real data is real. -/
theorem hnDiv_isReal (agg : Fin 40000 → Fin 128 → EReal) (deg : Fin 40000 → EReal)
    (hagg : ∀ n j, IsReal (agg n j)) (hdeg : ∀ n, IsReal (deg n)) (n : Fin 40000) (j : Fin 128) :
    IsReal (hnDiv agg deg n j) := by
  obtain ⟨m, hm0, hm⟩ := max_one_real (hdeg n)
  unfold hnDiv
  rw [hm]
  exact IsReal.div_coe (hagg n j) hm0

/-- The activation of real data is real: finite sums of products, a sum, a maximum with 0, a product. -/
theorem act_isReal (h : Fin 40000 → Fin 128 → EReal) (sn : Fin 40000 → EReal) (Ws Wn : Fin 128 → Fin 128 → EReal)
    (b : Fin 128 → EReal) (hn : Fin 40000 → Fin 128 → EReal)
    (hh : ∀ n j, IsReal (h n j)) (hsn : ∀ n, IsReal (sn n))
    (hWs : ∀ j k, IsReal (Ws j k)) (hWn : ∀ j k, IsReal (Wn j k)) (hb : ∀ k, IsReal (b k))
    (hhn : ∀ n j, IsReal (hn n j)) (n : Fin 40000) (k : Fin 128) : IsReal (act h sn Ws Wn b hn n k) := by
  unfold act
  exact IsReal.mul (IsReal.max (IsReal.add (IsReal.add
    (IsReal.sum_univ _ fun j => IsReal.mul (hh n j) (hWs j k))
    (IsReal.sum_univ _ fun j => IsReal.mul (hhn n j) (hWn j k))) (hb k)) IsReal.zero) (hsn n)

/-! ## The moments -/

section Moments
variable (u : Fin 40000 → Fin 128 → EReal)

/-- Column k of u as a function on the 8 · 5000 rows. -/
def col (k : Fin 128) : Fin (8 * 5000) → EReal := fun n => u n k

/-- The mean over all rows, in the general form: the leading 0 + is dropped and the count is the real 40000. -/
theorem meanAllRows_eq_gen (k : Fin 128) :
    meanAllRows u k = Cert.Gnn.meanAll (T := 8) (R := 5000) ((40000 : ℝ) : EReal) (col u k) := by
  unfold meanAllRows Cert.Gnn.meanAll
  rw [zero_add, cnt_eq]
  rfl

/-- The mean of squared deviations over all rows, in the general form. -/
theorem varAllRows_eq_gen (k : Fin 128) :
    varAllRows u k = Cert.Gnn.varAll (T := 8) (R := 5000) ((40000 : ℝ) : EReal) (col u k) := by
  unfold varAllRows Cert.Gnn.varAll
  rw [zero_add, cnt_eq, meanAllRows_eq_gen]
  rfl

/-- The mean from the 8 block sums, in the general form: row r of block t is row t · 5000 + r. -/
theorem meanBlocks_eq_gen (k : Fin 128) :
    meanBlocks u k = Cert.Gnn.meanBlocks (T := 8) (R := 5000) ((40000 : ℝ) : EReal) (col u k) := by
  unfold meanBlocks Cert.Gnn.meanBlocks blockSum
  rw [zero_add, cnt_eq]
  rfl

/-- The clamped variance from the 8 block sums of squares, in the general form. -/
theorem varBlocks_eq_gen (k : Fin 128) :
    varBlocks u k = max (Cert.Gnn.varBlocks (T := 8) (R := 5000) ((40000 : ℝ) : EReal) (col u k)) 0 := by
  unfold varBlocks Cert.Gnn.varBlocks blockSumSq
  rw [zero_add, cnt_eq, meanBlocks_eq_gen]
  rfl

/-- Each column of real data is real. -/
theorem col_isReal (hu : ∀ n k, IsReal (u n k)) (k : Fin 128) (n : Fin (8 * 5000)) : IsReal (col u k n) := hu n k

/-- The two means agree: a sum over 40000 rows is the sum of its 8 block sums (commutativity and associativity only). -/
theorem meanBlocks_eq (k : Fin 128) : meanBlocks u k = meanAllRows u k := by
  rw [meanBlocks_eq_gen, meanAllRows_eq_gen, Cert.Gnn.meanBlocks_eq]

/-- The mean of real data is real. -/
theorem meanAllRows_isReal (hu : ∀ n k, IsReal (u n k)) (k : Fin 128) : IsReal (meanAllRows u k) := by
  rw [meanAllRows_eq_gen]
  exact Cert.Gnn.meanAll_isReal 40000 (by norm_num) (col u k) (col_isReal u hu k)

/-- The mean of squared deviations of real data is a real that is not negative. -/
theorem varAllRows_nonneg (hu : ∀ n k, IsReal (u n k)) (k : Fin 128) :
    IsReal (varAllRows u k) ∧ 0 ≤ varAllRows u k := by
  rw [varAllRows_eq_gen]
  exact Cert.Gnn.varAll_nonneg 40000 (by norm_num) (col u k) (col_isReal u hu k)

/-- The two variances agree on real data: E[u²] − E[u]² is the mean squared deviation (40000 = 8 · 5000 terms), and
    that is not negative, so the clamp at 0 is the identity. -/
theorem varBlocks_eq (hu : ∀ n k, IsReal (u n k)) (k : Fin 128) : varBlocks u k = varAllRows u k := by
  have h0 := (varAllRows_nonneg u hu k).2
  rw [varBlocks_eq_gen, Cert.Gnn.varBlocks_eq 40000 (col u k) (col_isReal u hu k) (by norm_num) (by norm_num),
    ← varAllRows_eq_gen]
  exact max_eq_left h0

end Moments

/-! ## The output -/

/-- On reals, scale-and-shift then residual is the residual plus normalise-then-scale-and-shift:
    x·(g·r) + (be − (μ·g)·r) + h = h + ((x − μ)·r·g + be), an identity of the real field. -/
theorem out_algebra {x μ r g be h : EReal} (hx : IsReal x) (hμ : IsReal μ) (hr : IsReal r) (hg : IsReal g)
    (hbe : IsReal be) (hh : IsReal h) :
    (x * (g * r) + (be - (μ * g) * r)) + h = h + (((x - μ) * r) * g + be) := by
  obtain ⟨x, rfl⟩ := hx
  obtain ⟨μ, rfl⟩ := hμ
  obtain ⟨r, rfl⟩ := hr
  obtain ⟨g, rfl⟩ := hg
  obtain ⟨be, rfl⟩ := hbe
  obtain ⟨h, rfl⟩ := hh
  simp only [← EReal.coe_mul, ← EReal.coe_sub, ← EReal.coe_add]
  rw [EReal.coe_eq_coe_iff]
  ring

/-- The two outputs agree on a real activation: the moments agree, the variance plus epsilon is a positive real, so
    its reciprocal square root is a real, and the rest is the identity above. -/
theorem out_agree (h : Fin 40000 → Fin 128 → EReal) (g be : Fin 128 → EReal) (u : Fin 40000 → Fin 128 → EReal)
    (hu : ∀ n k, IsReal (u n k)) (hh : ∀ n k, IsReal (h n k)) (hg : ∀ k, IsReal (g k)) (hbe : ∀ k, IsReal (be k))
    (n : Fin 40000) (k : Fin 128) : outBlocks h g be u n k = outAllRows h g be u n k := by
  obtain ⟨hv, hv0⟩ := varAllRows_nonneg u hu k
  obtain ⟨e, he0, he⟩ := eps_pos_real
  have hr : IsReal (Ideal.rsqrt (varAllRows u k + eps)) :=
    IsReal.rsqrt_pos (IsReal.add hv (IsReal.of_eq he))
      (IsReal.add_pos_of_nonneg_of_pos hv0 (by rw [he]; exact_mod_cast he0))
  unfold outBlocks outAllRows scale shift rsqBlocks
  rw [varBlocks_eq u hu k, meanBlocks_eq u k]
  exact out_algebra (hu n k) (meanAllRows_isReal u hu k) hr (hg k) (hbe k) (hh n k)

/-! ## The whole layer -/

/-- On real inputs (features, per-node factor, weights, bias, scale, shift, aggregate, degree) the two arrangements of the
    layer give the same value at every entry. -/
theorem layer_agree (h : Fin 40000 → Fin 128 → EReal) (sn : Fin 40000 → EReal) (Ws Wn : Fin 128 → Fin 128 → EReal)
    (b g be : Fin 128 → EReal) (agg : Fin 40000 → Fin 128 → EReal) (deg : Fin 40000 → EReal)
    (hh : ∀ n j, Cert.Alg.IsReal (h n j)) (hsn : ∀ n, Cert.Alg.IsReal (sn n))
    (hWs : ∀ j k, Cert.Alg.IsReal (Ws j k)) (hWn : ∀ j k, Cert.Alg.IsReal (Wn j k))
    (hb : ∀ k, Cert.Alg.IsReal (b k)) (hg : ∀ k, Cert.Alg.IsReal (g k)) (hbe : ∀ k, Cert.Alg.IsReal (be k))
    (hagg : ∀ n j, Cert.Alg.IsReal (agg n j)) (hdeg : ∀ n, Cert.Alg.IsReal (deg n)) (n : Fin 40000) (k : Fin 128) :
    layerBlocks h sn Ws Wn b g be agg deg n k = layerAllRows h sn Ws Wn b g be agg deg n k := by
  unfold layerBlocks layerAllRows
  rw [hnRecip_eq agg deg hdeg]
  exact out_agree h g be _ (act_isReal h sn Ws Wn b _ hh hsn hWs hWn hb (hnDiv_isReal agg deg hagg hdeg)) hh hg hbe n k

end Cert.Sage

end
-- ==== Proof.AggFacts.lean ====
/-
  Facts about the edge-level terms: the wrap of a list with no negative entry is the list itself, and the aggregate
  and the in-degree are arrays of real numbers.

  The wrap replaces a word w by w + 40000 exactly where w, read signed, is below 0; where every word is at least 0 the
  comparison is false at every position and the select returns the word unchanged.

  The aggregate at (n, k) is the zero word plus the sum, over the edges whose target index is n, of the gathered entry
  (e, k); a gathered entry is an entry of h (the row at the e-th source index clamped into the table, column k), so
  it is real when h is; a finite sum of reals is real. The in-degree at n is the zero word plus a sum of copies of the
  word of one, which is the real 1.
-/
import proofs.«110230_j58609123721516_2_alg».proof.Proof.AggDefs
import proofs.«110230_j58609123721516_2_alg».proof.Proof.LibIsReal
import proofs.«110230_j58609123721516_2_alg».proof.Proof.LibIdealReal
import Idealize.ShloMosaic.Lib.Affine

noncomputable section

open scoped BigOperators

namespace Cert.Sage

open Idealize.ShloMosaic Cert.Lib.RowOps Cert.Alg

/-- The signed value of the zero word is 0. -/
theorem toInt_zero32 : (0#32 : BitVec 32).toInt = 0 := by decide

/-- On a list with no negative entry the wrap changes nothing. -/
theorem wrapIdx_of_nonneg (idx : IVec ⟨1, ![640000]⟩ 32)
    (hidx : ∀ e : Fin 640000, 0 ≤ (idx (ValueIdx.ix1 e)).toInt) : wrapIdx idx = idx := by
  funext i
  obtain ⟨e, rfl⟩ : ∃ e : Fin 640000, i = ValueIdx.ix1 e := ⟨i 0, ValueIdx.eq_ix1 i⟩
  unfold wrapIdx
  rw [ValueIdx.select_apply]
  have hc : cmpi .slt idx (broadcastInDim ⟨1, ![640000]⟩ ![] bc_scalar_edges (constantI ⟨0, ![]⟩ 32 0#32))
      (ValueIdx.ix1 e) = 0#1 := by
    apply ValueIdx.eq_zero_of_ne_one
    intro h
    have h' : IntOp.cmpi .slt (idx (ValueIdx.ix1 e)) 0#32 = 1#1 := h
    rw [IntOp.cmpi_slt, toInt_zero32] at h'
    have := hidx e
    omega
  rw [hc, ValueIdx.select_zero]

/-- The word of one is the real 1. -/
theorem ofBits_one : Ideal.ofBits .f32 0x3F800000#32 = ((1 : ℝ) : EReal) := by
  simp [Ideal.ofBits, Ideal.ieee, -EReal.coe_mul] <;> norm_num

/-- The aggregate of a real table is real at every entry. -/
theorem aggArr_isReal (h : FVec Ideal ⟨2, ![40000, 128]⟩ .f32) (src tgt : IVec ⟨1, ![640000]⟩ 32)
    (hh : ∀ i, Cert.Alg.IsReal (h i)) : ∀ i, Cert.Alg.IsReal (aggArr h src tgt i) := by
  intro i
  obtain ⟨n, k, rfl⟩ : ∃ (n : Fin 40000) (k : Fin 128), i = ValueIdx.ix2 n k := ⟨i 0, i 1, ValueIdx.eq_ix2 i⟩
  unfold aggArr
  show IsReal (Ideal.hostScatterAdd (rowScatterDims 40000 640000 128 wf_rows_scatter) _ _ _ (ValueIdx.ix2 n k))
  rw [rowScatterAdd_apply]
  refine IsReal.add ?_ (IsReal.sum _ _ fun e _ => ?_)
  · show IsReal (Ideal.ofBits .f32 0x00000000#32)
    rw [Ideal.ofBits_zero_f32]
    exact IsReal.zero
  · rw [rowGather_apply (by norm_num)]
    exact hh _

/-- The in-degree is real at every node. -/
theorem degArr_isReal (tgt : IVec ⟨1, ![640000]⟩ 32) : ∀ i, Cert.Alg.IsReal (degArr tgt i) := by
  intro i
  obtain ⟨n, rfl⟩ : ∃ n : Fin 40000, i = ValueIdx.ix1 n := ⟨i 0, ValueIdx.eq_ix1 i⟩
  unfold degArr
  show IsReal (Ideal.hostScatterAdd (vecScatterDims 40000 640000 wf_vec_scatter) _ _ _ (ValueIdx.ix1 n))
  rw [vecScatterAdd_apply]
  refine IsReal.add ?_ (IsReal.sum _ _ fun e _ => ?_)
  · show IsReal (Ideal.ofBits .f32 0x00000000#32)
    rw [Ideal.ofBits_zero_f32]
    exact IsReal.zero
  · show IsReal (Ideal.ofBits .f32 0x3F800000#32)
    rw [ofBits_one]
    exact IsReal.coe 1

end Cert.Sage

end
-- ==== Proof.PreFacts.lean ====
/-
  What the precondition says of the argument arrays.

  The precondition is a conjunction (by `and` on one-bit words) of nine "all entries satisfy" tests. Seven of them ask,
  of each float array, that |x| < +∞ at every entry; the absolute value is max x (−x), so the test fails at both
  infinities and an entry passing it is a real number. The last asks that every word of the target edge list, read
  signed, is at least the zero word. (The source edge list is not tested.) A conjunction that came out 1 had every
  conjunct 1, and an "all" that came out 1 had a 1 at every entry.
-/
import proofs.«110230_j58609123721516_2_alg».proof.Pre_finite_inputs
import proofs.«110230_j58609123721516_2_alg».proof.Proof.Gen.Pre_finite_inputs
import proofs.«110230_j58609123721516_2_alg».proof.Proof.LibIsReal
import proofs.«110230_j58609123721516_2_alg».proof.Proof.LibIdealReal
import Idealize.ShloMosaic.Lib.ReduceAll
import Idealize.ShloMosaic.Lib.ValueIdx

noncomputable section

namespace Cert.Sage.Pre

open Idealize.ShloMosaic Cert.Alg Cert.Pre_finite_inputs

/-- The scalar shape has one index. -/
instance : Subsingleton S_.Idx := ⟨fun _ _ => funext fun d => d.elim0⟩

/-- An extended real whose absolute value max x (−x) is below +∞ is a real number. -/
theorem isReal_of_abs_lt {x : EReal}
    (h : Ideal.cmp .olt (max x (-x)) (Ideal.ofBits .f32 0x7F800000#32) = 1#1) : IsReal x := by
  rw [Cert.IdealReal.ofBits_pos_inf] at h
  have hlt : max x (-x) < ⊤ := by
    by_contra hn
    simp [Ideal.cmp, hn] at h
  refine IsReal.of_ne ?_ ?_
  · rintro rfl
    simp at hlt
  · rintro rfl
    simp at hlt

/-- One float array's test: if "all |x| < +∞" came out 1, every entry of x is real. -/
theorem all_isReal {s : Shape} {axes : List (Fin s.rank)} (x : FVec Ideal s .f32)
    (bc : S_.BroadcastsInDim s (![] : Fin 0 → Fin s.rank)) (rt : s.ReducesTo axes S_) (hu : 0 < S_.numel)
    (e : Host.reduce IntOp.andi
          (cmpf .olt (Host.absf x) (broadcastInDim s ![] bc (constant (F := Ideal) S_ .f32 0x7F800000#32)))
          (constantI S_ 1 1#1) rt hu ValueIdx.ix0 = 1#1) :
    ∀ i, IsReal (x i) := by
  intro i
  have hi := Host.reduce_andi_all _ _ rt hu _ e i
  exact isReal_of_abs_lt hi

/-- The signed value of the zero word is 0. -/
theorem toInt_zero32 : (0#32 : BitVec 32).toInt = 0 := by decide

/-- The precondition, read back: the seven float arrays are real at every entry and the target edge list has no
    negative entry. -/
theorem pre_facts (a0 : FVec Ideal S40000x128 .f32) (a1 : FVec Ideal S40000x1 .f32)
    (a2 a3 : FVec Ideal S128x128 .f32) (a4 a5 a6 : FVec Ideal S128 .f32)
    (a7 a8 : IVec S640000 32)
    (hpre : Cert.Pre_finite_inputs.fn (F := Ideal) a0 a1 a2 a3 a4 a5 a6 a7 a8 = (fun _ => 1#1)) :
    (∀ i, Cert.Alg.IsReal (a0 i)) ∧ (∀ i, Cert.Alg.IsReal (a1 i)) ∧ (∀ i, Cert.Alg.IsReal (a2 i))
    ∧ (∀ i, Cert.Alg.IsReal (a3 i)) ∧ (∀ i, Cert.Alg.IsReal (a4 i)) ∧ (∀ i, Cert.Alg.IsReal (a5 i))
    ∧ (∀ i, Cert.Alg.IsReal (a6 i)) ∧ (∀ e : Fin 640000, 0 ≤ (a8 (ValueIdx.ix1 e)).toInt) := by
  have h := congrFun hpre ValueIdx.ix0
  dsimp only [Cert.Pre_finite_inputs.fn, Cert.Pre_finite_inputs.fn_part1, Cert.Pre_finite_inputs.fn_part2] at h
  obtain ⟨h, h8⟩ := (IntOp.andi_eq_one (c := _) (d := _)).1 h
  obtain ⟨h, h6⟩ := (IntOp.andi_eq_one (c := _) (d := _)).1 h
  obtain ⟨h, h5⟩ := (IntOp.andi_eq_one (c := _) (d := _)).1 h
  obtain ⟨h, h4⟩ := (IntOp.andi_eq_one (c := _) (d := _)).1 h
  obtain ⟨h, h3⟩ := (IntOp.andi_eq_one (c := _) (d := _)).1 h
  obtain ⟨h, h2⟩ := (IntOp.andi_eq_one (c := _) (d := _)).1 h
  obtain ⟨h0, h1⟩ := (IntOp.andi_eq_one (c := _) (d := _)).1 h
  refine ⟨all_isReal a0 _ _ _ h0, all_isReal a1 _ _ _ h1, all_isReal a2 _ _ _ h2, all_isReal a3 _ _ _ h3,
    all_isReal a4 _ _ _ h4, all_isReal a5 _ _ _ h5, all_isReal a6 _ _ _ h6, fun e => ?_⟩
  have he := Host.reduce_andi_all _ _ _ _ _ h8 (ValueIdx.ix1 e)
  have he' : IntOp.cmpi .sge (a8 (ValueIdx.ix1 e)) 0#32 = 1#1 := he
  rw [IntOp.cmpi_sge, toInt_zero32] at he'
  exact he'

end Cert.Sage.Pre

end
-- ==== Proof.Result.lean ====
/-
  The two programs' results are the same array.

  Under the precondition every float argument is entrywise real and no entry of the target edge list is negative. Then
  wrapping the target list changes nothing, so both programs scatter along the same list and their aggregates and
  degrees are the same arrays, real entry by entry; and on real data the block-sum arrangement of the layer (the
  kernel's) and the all-rows arrangement (the reference's) agree entry by entry.
-/
import proofs.«110230_j58609123721516_2_alg».proof.Defs
import proofs.«110230_j58609123721516_2_alg».proof.Proof.KernelValue
import proofs.«110230_j58609123721516_2_alg».proof.Proof.RefValue
import proofs.«110230_j58609123721516_2_alg».proof.Proof.Bridge
import proofs.«110230_j58609123721516_2_alg».proof.Proof.AggFacts
import proofs.«110230_j58609123721516_2_alg».proof.Proof.PreFacts

set_option maxRecDepth 16384

noncomputable section

namespace Cert.Proof.Result

open Idealize.ShloMosaic Idealize.ShloMosaic.ValueIdx Idealize.SL.Sem Cert.Sage

/-- At a core whose argument arrays satisfy the precondition, the reference's term of the launched arrays is the
    kernel program's result buffer at its last boundary. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = fun _ => 1#1) :
    Cert.ReferenceIdeal.RefTerm.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = Cert.KernelIdeal.Gen.W4 m ρ c (Proc.devRef .tc Cert.KernelIdeal.main_v52) := by
  obtain ⟨h0, h1, h2, h3, h4, h5, h6, h8⟩ := Cert.Sage.Pre.pre_facts _ _ _ _ _ _ _ _ _ hpre
  funext i
  obtain ⟨n, k, rfl⟩ : ∃ (n : Fin 40000) (k : Fin 128), i = ix2 n k := ⟨i 0, i 1, eq_ix2 i⟩
  refine (Cert.ReferenceIdeal.RefValue.refOut_apply _ _ _ _ _ _ _ _ _ n k).trans (Eq.trans ?_ (Cert.KernelIdeal.Value.result_eq m ρ c n k).symm)
  unfold Cert.KernelIdeal.Value.aggK Cert.KernelIdeal.Value.degK
  rw [wrapIdx_of_nonneg _ h8]
  exact (layer_agree _ _ _ _ _ _ _ _ _ (fun n j => h0 _) (fun n => h1 _) (fun j k => h2 _) (fun j k => h3 _) (fun k => h4 _)
    (fun k => h5 _) (fun k => h6 _) (fun n j => aggArr_isReal _ _ _ h0 _) (fun n => degArr_isReal _ _) n k).symm

end Cert.Proof.Result

end
-- ==== Proof.lean ====
/-
  The certificate of one GraphSAGE layer (mean aggregation over the edges, two 128 × 128 products, bias, rectifier,
  graph normalisation, batch normalisation over the 40000 nodes, residual) computed by two pallas_calls over eight
  blocks of 5000 rows, against its jnp reference, on the extended reals.

  The frames of the two kernel programs are the generated ones. The reference is a host program; its run is written
  out operation by operation, and its frame is that run with the result forgotten. The idealization rewrote nothing.
  For the equivalence the kernel program's run is taken with its result buffer named; that buffer is the block-sum
  arrangement of the layer, the reference's result is the all-rows arrangement, and under the precondition — every
  float input finite and no negative entry in the target edge list — the two are the same array.
-/
import proofs.«110230_j58609123721516_2_alg».proof.Defs
import proofs.«110230_j58609123721516_2_alg».proof.Proof.Gen.Kernel
import proofs.«110230_j58609123721516_2_alg».proof.Proof.Gen.Kernel.Frame
import proofs.«110230_j58609123721516_2_alg».proof.Proof.Gen.KernelIdeal
import proofs.«110230_j58609123721516_2_alg».proof.Proof.Gen.KernelIdeal.Frame
import proofs.«110230_j58609123721516_2_alg».proof.Proof.Gen.ReferenceIdeal
import proofs.«110230_j58609123721516_2_alg».proof.Proof.Gen.Pre_finite_inputs
import proofs.«110230_j58609123721516_2_alg».proof.Proof.KernelRun
import proofs.«110230_j58609123721516_2_alg».proof.Proof.RefRun
import proofs.«110230_j58609123721516_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with the result forgotten. -/
theorem frame_ri : Cert.frame_ReferenceIdeal := fun m ρ _ =>
  (θ_run Cert.ReferenceIdeal.defs _ _).mono (fun _ h c => (h c).2) (Cert.ReferenceIdeal.HandRun.run m ρ)

/-- Both programs run; the kernel program's result buffer ends at its last boundary's contents, the reference's at its
    term of the launched arrays, and under the precondition, from memories that agree on the arguments, these are equal. -/
theorem algebraic : Cert.algebraic_KernelIdeal_ReferenceIdeal := by
  intro m ρ m' ρ' hpre hagree
  refine ⟨fun c => Cert.KernelIdeal.Gen.W4 m ρ c (Proc.devRef .tc Cert.KernelIdeal.main_v52),
    Cert.KernelIdeal.HandRun.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact Cert.Proof.Result.results_agree m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
